-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v94)) (v2 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_v124) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S300000x64 : Shape := ⟨2, ![300000, 64]⟩
abbrev S150000x64 : Shape := ⟨2, ![150000, 64]⟩
abbrev S1000000 : Shape := ⟨1, ![1000000]⟩
abbrev S2400000 : Shape := ⟨1, ![2400000]⟩
abbrev S1200000 : Shape := ⟨1, ![1200000]⟩
abbrev S600000 : Shape := ⟨1, ![600000]⟩
abbrev S450000 : Shape := ⟨1, ![450000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S150000x64 : S_.BroadcastsInDim S150000x64 (![] : Fin 0 → Fin S150000x64.rank)
  reducesTo_S150000x64_S_d0_1 : S150000x64.ReducesTo [0, 1] S_
  bcast_S_S1000000 : S_.BroadcastsInDim S1000000 (![] : Fin 0 → Fin S1000000.rank)
  reducesTo_S1000000_S_d0 : S1000000.ReducesTo [0] S_
  bcast_S_S2400000 : S_.BroadcastsInDim S2400000 (![] : Fin 0 → Fin S2400000.rank)
  reducesTo_S2400000_S_d0 : S2400000.ReducesTo [0] S_
  bcast_S_S1200000 : S_.BroadcastsInDim S1200000 (![] : Fin 0 → Fin S1200000.rank)
  reducesTo_S1200000_S_d0 : S1200000.ReducesTo [0] S_
  bcast_S_S600000 : S_.BroadcastsInDim S600000 (![] : Fin 0 → Fin S600000.rank)
  reducesTo_S600000_S_d0 : S600000.ReducesTo [0] S_
  bcast_S_S450000 : S_.BroadcastsInDim S450000 (![] : Fin 0 → Fin S450000.rank)
  reducesTo_S450000_S_d0 : S450000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg35 : FVec F S64 .f32) (main_arg36 : FVec F S128x64 .f32) (main_arg37 : FVec F S64 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg35
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S128x64 .f32 := Host.absf main_arg36
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg37
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg32 : FVec F S128x64 .f32) (main_arg33 : FVec F S64 .f32) (main_arg34 : FVec F S128x64 .f32) (main_arg35 : FVec F S64 .f32) (main_arg36 : FVec F S128x64 .f32) (main_arg37 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x64 .f32 := Host.absf main_arg32
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg33
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S128x64 .f32 := Host.absf main_arg34
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg35 main_arg36 main_arg37 main_v98 main_v101 main_c_39

def fn_part4 {F : FTy → Type} [FloatOps F] (main_arg28 : FVec F S128x64 .f32) (main_arg29 : FVec F S64 .f32) (main_arg30 : FVec F S128x64 .f32) (main_arg31 : FVec F S64 .f32) (main_arg32 : FVec F S128x64 .f32) (main_arg33 : FVec F S64 .f32) (main_arg34 : FVec F S128x64 .f32) (main_arg35 : FVec F S64 .f32) (main_arg36 : FVec F S128x64 .f32) (main_arg37 : FVec F S64 .f32) (main_v63 : IVec S_ 1) (main_v67 : IVec S_ 1) : IVec S_ 1 :=
  let main_v68 : IVec S_ 1 := andi main_v63 main_v67
  let main_v69 : FVec F S128x64 .f32 := Host.absf main_arg28
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg29
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg30
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg31
  let main_cst_32 : FVec F S_ .f32 := constant S_ .f32 0x7F800000#32
  fn_part5 (F := F) main_arg32 main_arg33 main_arg34 main_arg35 main_arg36 main_arg37 main_v83 main_v84 main_cst_32

def fn_part3 {F : FTy → Type} [FloatOps F] (main_arg25 : FVec F S64 .f32) (main_arg26 : FVec F S128x64 .f32) (main_arg27 : FVec F S64 .f32) (main_arg28 : FVec F S128x64 .f32) (main_arg29 : FVec F S64 .f32) (main_arg30 : FVec F S128x64 .f32) (main_arg31 : FVec F S64 .f32) (main_arg32 : FVec F S128x64 .f32) (main_arg33 : FVec F S64 .f32) (main_arg34 : FVec F S128x64 .f32) (main_arg35 : FVec F S64 .f32) (main_arg36 : FVec F S128x64 .f32) (main_arg37 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg25
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg26
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg27
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg28 main_arg29 main_arg30 main_arg31 main_arg32 main_arg33 main_arg34 main_arg35 main_arg36 main_arg37 main_v63 main_v67

def fn_part2 {F : FTy → Type} [FloatOps F] (main_arg17 : FVec F S600000 .f32) (main_arg20 : FVec F S450000 .f32) (main_arg23 : FVec F S450000 .f32) (main_arg24 : FVec F S128x64 .f32) (main_arg25 : FVec F S64 .f32) (main_arg26 : FVec F S128x64 .f32) (main_arg27 : FVec F S64 .f32) (main_arg28 : FVec F S128x64 .f32) (main_arg29 : FVec F S64 .f32) (main_arg30 : FVec F S128x64 .f32) (main_arg31 : FVec F S64 .f32) (main_arg32 : FVec F S128x64 .f32) (main_arg33 : FVec F S64 .f32) (main_arg34 : FVec F S128x64 .f32) (main_arg35 : FVec F S64 .f32) (main_arg36 : FVec F S128x64 .f32) (main_arg37 : FVec F S64 .f32) (main_v33 : IVec S_ 1) : IVec S_ 1 :=
  let main_v34 : FVec F S600000 .f32 := Host.absf main_arg17
  let main_cst_12 : FVec F S_ .f32 := constant S_ .f32 0x7F800000#32
  let main_v35 : FVec F S600000 .f32 := broadcastInDim S600000 ![] bcast_S_S600000 main_cst_12
  let main_v36 : IVec S600000 1 := cmpf .olt main_v34 main_v35
  let main_c_13 : IVec S_ 1 := constantI S_ 1 1#1
  let main_v37 : IVec S_ 1 := (fun x v => Host.reduce IntOp.andi x v reducesTo_S600000_S_d0 h_S_) main_v36 main_c_13
  let main_v38 : IVec S_ 1 := andi main_v33 main_v37
  let main_v39 : FVec F S450000 .f32 := Host.absf main_arg20
  let main_cst_14 : FVec F S_ .f32 := constant S_ .f32 0x7F800000#32
  let main_v40 : FVec F S450000 .f32 := broadcastInDim S450000 ![] bcast_S_S450000 main_cst_14
  let main_v41 : IVec S450000 1 := cmpf .olt main_v39 main_v40
  let main_c_15 : IVec S_ 1 := constantI S_ 1 1#1
  let main_v42 : IVec S_ 1 := (fun x v => Host.reduce IntOp.andi x v reducesTo_S450000_S_d0 h_S_) main_v41 main_c_15
  let main_v43 : IVec S_ 1 := andi main_v38 main_v42
  let main_v44 : FVec F S450000 .f32 := Host.absf main_arg23
  let main_cst_16 : FVec F S_ .f32 := constant S_ .f32 0x7F800000#32
  let main_v45 : FVec F S450000 .f32 := broadcastInDim S450000 ![] bcast_S_S450000 main_cst_16
  let main_v46 : IVec S450000 1 := cmpf .olt main_v44 main_v45
  let main_c_17 : IVec S_ 1 := constantI S_ 1 1#1
  let main_v47 : IVec S_ 1 := (fun x v => Host.reduce IntOp.andi x v reducesTo_S450000_S_d0 h_S_) main_v46 main_c_17
  let main_v48 : IVec S_ 1 := andi main_v43 main_v47
  let main_v49 : FVec F S128x64 .f32 := Host.absf main_arg24
  let main_cst_18 : FVec F S_ .f32 := constant S_ .f32 0x7F800000#32
  let main_v50 : FVec F S128x64 .f32 := broadcastInDim S128x64 ![] bcast_S_S128x64 main_cst_18
  fn_part3 (F := F) main_arg25 main_arg26 main_arg27 main_arg28 main_arg29 main_arg30 main_arg31 main_arg32 main_arg33 main_arg34 main_arg35 main_arg36 main_arg37 main_v48 main_v49 main_v50

def fn_part1 {F : FTy → Type} [FloatOps F] (main_arg8 : FVec F S2400000 .f32) (main_arg11 : FVec F S1200000 .f32) (main_arg14 : FVec F S600000 .f32) (main_arg17 : FVec F S600000 .f32) (main_arg20 : FVec F S450000 .f32) (main_arg23 : FVec F S450000 .f32) (main_arg24 : FVec F S128x64 .f32) (main_arg25 : FVec F S64 .f32) (main_arg26 : FVec F S128x64 .f32) (main_arg27 : FVec F S64 .f32) (main_arg28 : FVec F S128x64 .f32) (main_arg29 : FVec F S64 .f32) (main_arg30 : FVec F S128x64 .f32) (main_arg31 : FVec F S64 .f32) (main_arg32 : FVec F S128x64 .f32) (main_arg33 : FVec F S64 .f32) (main_arg34 : FVec F S128x64 .f32) (main_arg35 : FVec F S64 .f32) (main_arg36 : FVec F S128x64 .f32) (main_arg37 : FVec F S64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S2400000 .f32 := Host.absf main_arg8
  let main_cst_6 : FVec F S_ .f32 := constant S_ .f32 0x7F800000#32
  let main_v20 : FVec F S2400000 .f32 := broadcastInDim S2400000 ![] bcast_S_S2400000 main_cst_6
  let main_v21 : IVec S2400000 1 := cmpf .olt main_v19 main_v20
  let main_c_7 : IVec S_ 1 := constantI S_ 1 1#1
  let main_v22 : IVec S_ 1 := (fun x v => Host.reduce IntOp.andi x v reducesTo_S2400000_S_d0 h_S_) main_v21 main_c_7
  let main_v23 : IVec S_ 1 := andi main_v18 main_v22
  let main_v24 : FVec F S1200000 .f32 := Host.absf main_arg11
  let main_cst_8 : FVec F S_ .f32 := constant S_ .f32 0x7F800000#32
  let main_v25 : FVec F S1200000 .f32 := broadcastInDim S1200000 ![] bcast_S_S1200000 main_cst_8
  let main_v26 : IVec S1200000 1 := cmpf .olt main_v24 main_v25
  let main_c_9 : IVec S_ 1 := constantI S_ 1 1#1
  let main_v27 : IVec S_ 1 := (fun x v => Host.reduce IntOp.andi x v reducesTo_S1200000_S_d0 h_S_) main_v26 main_c_9
  let main_v28 : IVec S_ 1 := andi main_v23 main_v27
  let main_v29 : FVec F S600000 .f32 := Host.absf main_arg14
  let main_cst_10 : FVec F S_ .f32 := constant S_ .f32 0x7F800000#32
  let main_v30 : FVec F S600000 .f32 := broadcastInDim S600000 ![] bcast_S_S600000 main_cst_10
  let main_v31 : IVec S600000 1 := cmpf .olt main_v29 main_v30
  let main_c_11 : IVec S_ 1 := constantI S_ 1 1#1
  let main_v32 : IVec S_ 1 := (fun x v => Host.reduce IntOp.andi x v reducesTo_S600000_S_d0 h_S_) main_v31 main_c_11
  let main_v33 : IVec S_ 1 := andi main_v28 main_v32
  fn_part2 (F := F) main_arg17 main_arg20 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S100000x64 .f32) (main_arg1 : FVec F S300000x64 .f32) (main_arg2 : FVec F S150000x64 .f32) (main_arg3 : IVec S1000000 32) (main_arg4 : IVec S1000000 32) (main_arg5 : FVec F S1000000 .f32) (main_arg6 : IVec S2400000 32) (main_arg7 : IVec S2400000 32) (main_arg8 : FVec F S2400000 .f32) (main_arg9 : IVec S1200000 32) (main_arg10 : IVec S1200000 32) (main_arg11 : FVec F S1200000 .f32) (main_arg12 : IVec S600000 32) (main_arg13 : IVec S600000 32) (main_arg14 : FVec F S600000 .f32) (main_arg15 : IVec S600000 32) (main_arg16 : IVec S600000 32) (main_arg17 : FVec F S600000 .f32) (main_arg18 : IVec S450000 32) (main_arg19 : IVec S450000 32) (main_arg20 : FVec F S450000 .f32) (main_arg21 : IVec S450000 32) (main_arg22 : IVec S450000 32) (main_arg23 : FVec F S450000 .f32) (main_arg24 : FVec F S128x64 .f32) (main_arg25 : FVec F S64 .f32) (main_arg26 : FVec F S128x64 .f32) (main_arg27 : FVec F S64 .f32) (main_arg28 : FVec F S128x64 .f32) (main_arg29 : FVec F S64 .f32) (main_arg30 : FVec F S128x64 .f32) (main_arg31 : FVec F S64 .f32) (main_arg32 : FVec F S128x64 .f32) (main_arg33 : FVec F S64 .f32) (main_arg34 : FVec F S128x64 .f32) (main_arg35 : FVec F S64 .f32) (main_arg36 : FVec F S128x64 .f32) (main_arg37 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S150000x64 .f32 := Host.absf main_arg2
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S1000000 .f32 := Host.absf main_arg5
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg8 main_arg11 main_arg14 main_arg17 main_arg20 main_arg23 main_arg24 main_arg25 main_arg26 main_arg27 main_arg28 main_arg29 main_arg30 main_arg31 main_arg32 main_arg33 main_arg34 main_arg35 main_arg36 main_arg37 main_v13 main_v16
-- ==== Kernel.lean ====
abbrev S100000x64 : Shape := ⟨2, ![100000, 64]⟩
abbrev S300000x64 : Shape := ⟨2, ![300000, 64]⟩
abbrev S150000x64 : Shape := ⟨2, ![150000, 64]⟩
abbrev S1000000 : Shape := ⟨1, ![1000000]⟩
abbrev S2400000 : Shape := ⟨1, ![2400000]⟩
abbrev S1200000 : Shape := ⟨1, ![1200000]⟩
abbrev S600000 : Shape := ⟨1, ![600000]⟩
abbrev S450000 : Shape := ⟨1, ![450000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S5000x64 : Shape := ⟨2, ![5000, 64]⟩
abbrev S1600000 : Shape := ⟨1, ![1600000]⟩
abbrev S1000000x1 : Shape := ⟨2, ![1000000, 1]⟩
abbrev S_ : Shape := ⟨0, ![]⟩
abbrev S1000000x64 : Shape := ⟨2, ![1000000, 64]⟩
abbrev S600000x1 : Shape := ⟨2, ![600000, 1]⟩
abbrev S600000x64 : Shape := ⟨2, ![600000, 64]⟩
abbrev S1600000x64 : Shape := ⟨2, ![1600000, 64]⟩
abbrev S1600000x1 : Shape := ⟨2, ![1600000, 1]⟩
abbrev S3450000 : Shape := ⟨1, ![3450000]⟩
abbrev S2400000x1 : Shape := ⟨2, ![2400000, 1]⟩
abbrev S2400000x64 : Shape := ⟨2, ![2400000, 64]⟩
abbrev S450000x1 : Shape := ⟨2, ![450000, 1]⟩
abbrev S450000x64 : Shape := ⟨2, ![450000, 64]⟩
abbrev S3450000x64 : Shape := ⟨2, ![3450000, 64]⟩
abbrev S3450000x1 : Shape := ⟨2, ![3450000, 1]⟩
abbrev S1650000 : Shape := ⟨1, ![1650000]⟩
abbrev S1200000x1 : Shape := ⟨2, ![1200000, 1]⟩
abbrev S1200000x64 : Shape := ⟨2, ![1200000, 64]⟩
abbrev S1650000x64 : Shape := ⟨2, ![1650000, 64]⟩
abbrev S1650000x1 : Shape := ⟨2, ![1650000, 1]⟩

abbrev nBuf : Space → Nat
  | .hbm => 193
  | .vmem => 41
  | .smem => 0
  | _ => 0

abbrev hbmTy0_0 (i : Nat) : BufTy := match i % 128 with
  | 0 => ⟨S100000x64, .f32⟩
  | 1 => ⟨S300000x64, .f32⟩
  | 2 => ⟨S150000x64, .f32⟩
  | 3 => ⟨S1000000, .i32⟩
  | 4 => ⟨S1000000, .i32⟩
  | 5 => ⟨S1000000, .f32⟩
  | 6 => ⟨S2400000, .i32⟩
  | 7 => ⟨S2400000, .i32⟩
  | 8 => ⟨S2400000, .f32⟩
  | 9 => ⟨S1200000, .i32⟩
  | 10 => ⟨S1200000, .i32⟩
  | 11 => ⟨S1200000, .f32⟩
  | 12 => ⟨S600000, .i32⟩
  | 13 => ⟨S600000, .i32⟩
  | 14 => ⟨S600000, .f32⟩
  | 15 => ⟨S600000, .i32⟩
  | 16 => ⟨S600000, .i32⟩
  | 17 => ⟨S600000, .f32⟩
  | 18 => ⟨S450000, .i32⟩
  | 19 => ⟨S450000, .i32⟩
  | 20 => ⟨S450000, .f32⟩
  | 21 => ⟨S450000, .i32⟩
  | 22 => ⟨S450000, .i32⟩
  | 23 => ⟨S450000, .f32⟩
  | 24 => ⟨S128x64, .f32⟩
  | 25 => ⟨S64, .f32⟩
  | 26 => ⟨S128x64, .f32⟩
  | 27 => ⟨S64, .f32⟩
  | 28 => ⟨S128x64, .f32⟩
  | 29 => ⟨S64, .f32⟩
  | 30 => ⟨S128x64, .f32⟩
  | 31 => ⟨S64, .f32⟩
  | 32 => ⟨S128x64, .f32⟩
  | 33 => ⟨S64, .f32⟩
  | 34 => ⟨S128x64, .f32⟩
  | 35 => ⟨S64, .f32⟩
  | 36 => ⟨S128x64, .f32⟩
  | 37 => ⟨S64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S1x64, .f32⟩
  | 53 => ⟨S1x64, .f32⟩
  | 54 => ⟨S100000x64, .bf16⟩
  | 55 => ⟨S100000x64, .bf16⟩
  | 56 => ⟨S1x64, .f32⟩
  | 57 => ⟨S1x64, .f32⟩
  | 58 => ⟨S1x64, .f32⟩
  | 59 => ⟨S300000x64, .bf16⟩
  | 60 => ⟨S300000x64, .bf16⟩
  | 61 => ⟨S300000x64, .bf16⟩
  | 62 => ⟨S1x64, .f32⟩
  | 63 => ⟨S1x64, .f32⟩
  | 64 => ⟨S150000x64, .bf16⟩
  | 65 => ⟨S150000x64, .bf16⟩
  | 66 => ⟨S1600000, .i32⟩
  | 67 => ⟨S1000000x1, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .bf16⟩
  | 77 => ⟨S1000000x64, .f32⟩
  | 78 => ⟨S1000000x64, .f32⟩
  | 79 => ⟨S1000000x64, .f32⟩
  | 80 => ⟨S600000x1, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x64, .bf16⟩
  | 90 => ⟨S600000x64, .f32⟩
  | 91 => ⟨S600000x64, .f32⟩
  | 92 => ⟨S600000x64, .f32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S3450000, .i32⟩
  | 105 => ⟨S2400000x1, .f32⟩
  | 106 => ⟨S_, .i32⟩
  | 107 => ⟨S2400000, .i32⟩
  | 108 => ⟨S2400000, .i1⟩
  | 109 => ⟨S_, .i32⟩
  | 110 => ⟨S2400000, .i32⟩
  | 111 => ⟨S2400000, .i32⟩
  | 112 => ⟨S2400000, .i32⟩
  | 113 => ⟨S2400000x1, .i32⟩
  | 114 => ⟨S2400000x64, .bf16⟩
  | 115 => ⟨S2400000x64, .f32⟩
  | 116 => ⟨S2400000x64, .f32⟩
  | 117 => ⟨S2400000x64, .f32⟩
  | 118 => ⟨S600000x1, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x64, .bf16⟩
  | _ => ⟨S100000x64, .f32⟩

abbrev hbmTy0_1 (i : Nat) : BufTy := match i % 128 with
  | 0 => ⟨S600000x64, .f32⟩
  | 1 => ⟨S600000x64, .f32⟩
  | 2 => ⟨S600000x64, .f32⟩
  | 3 => ⟨S450000x1, .f32⟩
  | 4 => ⟨S_, .i32⟩
  | 5 => ⟨S450000, .i32⟩
  | 6 => ⟨S450000, .i1⟩
  | 7 => ⟨S_, .i32⟩
  | 8 => ⟨S450000, .i32⟩
  | 9 => ⟨S450000, .i32⟩
  | 10 => ⟨S450000, .i32⟩
  | 11 => ⟨S450000x1, .i32⟩
  | 12 => ⟨S450000x64, .bf16⟩
  | 13 => ⟨S450000x64, .f32⟩
  | 14 => ⟨S450000x64, .f32⟩
  | 15 => ⟨S450000x64, .f32⟩
  | 16 => ⟨S3450000x64, .f32⟩
  | 17 => ⟨S_, .f32⟩
  | 18 => ⟨S300000x64, .f32⟩
  | 19 => ⟨S3450000x1, .i32⟩
  | 20 => ⟨S300000x64, .f32⟩
  | 21 => ⟨S_, .f32⟩
  | 22 => ⟨S300000x64, .f32⟩
  | 23 => ⟨S300000x64, .f32⟩
  | 24 => ⟨S_, .f32⟩
  | 25 => ⟨S300000x64, .f32⟩
  | 26 => ⟨S300000x64, .f32⟩
  | 27 => ⟨S1650000, .i32⟩
  | 28 => ⟨S1200000x1, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000x64, .bf16⟩
  | 38 => ⟨S1200000x64, .f32⟩
  | 39 => ⟨S1200000x64, .f32⟩
  | 40 => ⟨S1200000x64, .f32⟩
  | 41 => ⟨S450000x1, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000x64, .bf16⟩
  | 51 => ⟨S450000x64, .f32⟩
  | 52 => ⟨S450000x64, .f32⟩
  | 53 => ⟨S450000x64, .f32⟩
  | 54 => ⟨S1650000x64, .f32⟩
  | 55 => ⟨S_, .f32⟩
  | 56 => ⟨S150000x64, .f32⟩
  | 57 => ⟨S1650000x1, .i32⟩
  | 58 => ⟨S150000x64, .f32⟩
  | 59 => ⟨S_, .f32⟩
  | 60 => ⟨S150000x64, .f32⟩
  | 61 => ⟨S150000x64, .f32⟩
  | 62 => ⟨S_, .f32⟩
  | 63 => ⟨S150000x64, .f32⟩
  | 64 => ⟨S150000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S5000x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S5000x64, .bf16⟩
  | .local _ .vmem, ⟨24, _⟩ => ⟨S5000x64, .bf16⟩
  | .local _ .vmem, ⟨25, _⟩ => ⟨S5000x64, .bf16⟩
  | .local _ .vmem, ⟨26, _⟩ => ⟨S5000x64, .bf16⟩
  | .local _ .vmem, ⟨27, _⟩ => ⟨S5000x64, .bf16⟩
  | .local _ .vmem, ⟨28, _⟩ => ⟨S5000x64, .bf16⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S5000x64, .bf16⟩
  | .local _ .vmem, ⟨38, _⟩ => ⟨S5000x64, .bf16⟩
  | .local _ .vmem, ⟨39, _⟩ => ⟨S5000x64, .bf16⟩
  | .local _ .vmem, ⟨40, _⟩ => ⟨S5000x64, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16_0 : Ref sig .tc := ⟨.hbm, 54, rfl⟩
abbrev main_v16_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20_0 : Ref sig .tc := ⟨.hbm, 59, rfl⟩
abbrev main_v20_1 : Ref sig .tc := ⟨.hbm, 60, rfl⟩
abbrev main_v20_2 : Ref sig .tc := ⟨.hbm, 61, rfl⟩
abbrev main_v21 : Ref sig .tc := ⟨.hbm, 62, rfl⟩
abbrev main_v22 : Ref sig .tc := ⟨.hbm, 63, rfl⟩
abbrev main_v23_0 : Ref sig .tc := ⟨.hbm, 64, rfl⟩
abbrev main_v23_1 : Ref sig .tc := ⟨.hbm, 65, rfl⟩
abbrev main_v24 : Ref sig .tc := ⟨.hbm, 66, rfl⟩
abbrev main_v25 : Ref sig .tc := ⟨.hbm, 67, rfl⟩
abbrev main_c : Ref sig .tc := ⟨.hbm, 68, rfl⟩
abbrev main_v26 : Ref sig .tc := ⟨.hbm, 69, rfl⟩
abbrev main_v27 : Ref sig .tc := ⟨.hbm, 70, rfl⟩
abbrev main_c_0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_1 : Ref sig .tc := ⟨.hbm, 81, rfl⟩
abbrev main_v37 : Ref sig .tc := ⟨.hbm, 82, rfl⟩
abbrev main_v38 : Ref sig .tc := ⟨.hbm, 83, rfl⟩
abbrev main_c_2 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call0_cst : Ref sig .tc := ⟨.hbm, 98, rfl⟩
abbrev main_call0_v0 : Ref sig .tc := ⟨.hbm, 99, rfl⟩
abbrev main_v51 : Ref sig .tc := ⟨.hbm, 100, rfl⟩
abbrev main_cst_3 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_4 : Ref sig .tc := ⟨.hbm, 106, rfl⟩
abbrev main_v56 : Ref sig .tc := ⟨.hbm, 107, rfl⟩
abbrev main_v57 : Ref sig .tc := ⟨.hbm, 108, rfl⟩
abbrev main_c_5 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_6 : Ref sig .tc := ⟨.hbm, 119, rfl⟩
abbrev main_v67 : Ref sig .tc := ⟨.hbm, 120, rfl⟩
abbrev main_v68 : Ref sig .tc := ⟨.hbm, 121, rfl⟩
abbrev main_c_7 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_8 : Ref sig .tc := ⟨.hbm, 132, rfl⟩
abbrev main_v78 : Ref sig .tc := ⟨.hbm, 133, rfl⟩
abbrev main_v79 : Ref sig .tc := ⟨.hbm, 134, rfl⟩
abbrev main_c_9 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_10 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call1_cst : Ref sig .tc := ⟨.hbm, 149, rfl⟩
abbrev main_call1_v0 : Ref sig .tc := ⟨.hbm, 150, rfl⟩
abbrev main_v92 : Ref sig .tc := ⟨.hbm, 151, rfl⟩
abbrev main_cst_11 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_12 : Ref sig .tc := ⟨.hbm, 157, rfl⟩
abbrev main_v97 : Ref sig .tc := ⟨.hbm, 158, rfl⟩
abbrev main_v98 : Ref sig .tc := ⟨.hbm, 159, rfl⟩
abbrev main_c_13 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_14 : Ref sig .tc := ⟨.hbm, 170, rfl⟩
abbrev main_v108 : Ref sig .tc := ⟨.hbm, 171, rfl⟩
abbrev main_v109 : Ref sig .tc := ⟨.hbm, 172, rfl⟩
abbrev main_c_15 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_16 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_call2_cst : Ref sig .tc := ⟨.hbm, 187, rfl⟩
abbrev main_call2_v0 : Ref sig .tc := ⟨.hbm, 188, rfl⟩
abbrev main_v122 : Ref sig .tc := ⟨.hbm, 189, rfl⟩
abbrev main_cst_17 : Ref sig .tc := ⟨.hbm, 190, rfl⟩
abbrev main_v123 : Ref sig .tc := ⟨.hbm, 191, rfl⟩
abbrev main_v124 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc2_sem8_0 : DmaSem sig := 39
abbrev cc2_sem8_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x64 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x64 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x64 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  concatenates_S1000000_S600000_S1600000_d0 : Shape.Concatenates [S1000000, S600000] S1600000 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  concatenates_S1000000x64_S600000x64_S1600000x64_d0 : Shape.Concatenates [S1000000x64, S600000x64] S1600000x64 0
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S2400000_S600000_S450000_S3450000_d0 : Shape.Concatenates [S2400000, S600000, S450000] S3450000 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x64_0_1 : S450000x1.BroadcastsInDim S450000x64 (![0, 1] : Fin 2 → Fin S450000x64.rank)
  concatenates_S2400000x64_S600000x64_S450000x64_S3450000x64_d0 : Shape.Concatenates [S2400000x64, S600000x64, S450000x64] S3450000x64 0
  bcast_S_S300000x64 : S_.BroadcastsInDim S300000x64 (![] : Fin 0 → Fin S300000x64.rank)
  bcast_S3450000_S3450000x1_0 : S3450000.BroadcastsInDim S3450000x1 (![0] : Fin 1 → Fin S3450000x1.rank)
  concatenates_S1200000_S450000_S1650000_d0 : Shape.Concatenates [S1200000, S450000] S1650000 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  concatenates_S1200000x64_S450000x64_S1650000x64_d0 : Shape.Concatenates [S1200000x64, S450000x64] S1650000x64 0
  bcast_S_S150000x64 : S_.BroadcastsInDim S150000x64 (![] : Fin 0 → Fin S150000x64.rank)
  bcast_S1650000_S1650000x1_0 : S1650000.BroadcastsInDim S1650000x1 (![0] : Fin 1 → Fin S1650000x1.rank)
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  gather_S300000x64_S600000x1_S600000x64_1_0_n_n_0_1_164_wf : GatherDims.WF S300000x64 S600000x1 S600000x64 [1] [0] [] [0] [] 1 ![1, 64]
  scatter_S100000x64_S1600000x1_S1600000x64_1_0_0_1_wf : ScatterDims.WF S100000x64 S1600000x1 S1600000x64 [1] [0] [0] 1
  gather_S300000x64_S2400000x1_S2400000x64_1_0_n_n_0_1_164_wf : GatherDims.WF S300000x64 S2400000x1 S2400000x64 [1] [0] [] [0] [] 1 ![1, 64]
  gather_S100000x64_S600000x1_S600000x64_1_0_n_n_0_1_164_wf : GatherDims.WF S100000x64 S600000x1 S600000x64 [1] [0] [] [0] [] 1 ![1, 64]
  gather_S150000x64_S450000x1_S450000x64_1_0_n_n_0_1_164_wf : GatherDims.WF S150000x64 S450000x1 S450000x64 [1] [0] [] [0] [] 1 ![1, 64]
  scatter_S300000x64_S3450000x1_S3450000x64_1_0_0_1_wf : ScatterDims.WF S300000x64 S3450000x1 S3450000x64 [1] [0] [0] 1
  gather_S150000x64_S1200000x1_S1200000x64_1_0_n_n_0_1_164_wf : GatherDims.WF S150000x64 S1200000x1 S1200000x64 [1] [0] [] [0] [] 1 ![1, 64]
  gather_S300000x64_S450000x1_S450000x64_1_0_n_n_0_1_164_wf : GatherDims.WF S300000x64 S450000x1 S450000x64 [1] [0] [] [0] [] 1 ![1, 64]
  scatter_S150000x64_S1650000x1_S1650000x64_1_0_0_1_wf : ScatterDims.WF S150000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .bf16 = 32 ∨ (Rect.block (s := S100000x64) S5000x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .bf16 = 32 ∨ (Rect.block (s := S100000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S300000x64.size a
  hwx1_0 : ∀ i : grid1.Coords, EltTy.bits .f32 = 32 ∨ (Rect.block (s := S300000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S300000x64.size a
  hwx1_10 : ∀ i : grid1.Coords, EltTy.bits .bf16 = 32 ∨ (Rect.block (s := S300000x64) S5000x64.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S300000x64.size a
  hwx1_11 : ∀ i : grid1.Coords, EltTy.bits .bf16 = 32 ∨ (Rect.block (s := S300000x64) S5000x64.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S300000x64.size a
  hwx1_12 : ∀ i : grid1.Coords, EltTy.bits .bf16 = 32 ∨ (Rect.block (s := S300000x64) S5000x64.size (cc1_transform_12 i) (hinb1_12 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S150000x64.size a
  hwx2_7 : ∀ i : grid2.Coords, EltTy.bits .bf16 = 32 ∨ (Rect.block (s := S150000x64) S5000x64.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S150000x64.size a
  hwx2_8 : ∀ i : grid2.Coords, EltTy.bits .bf16 = 32 ∨ (Rect.block (s := S150000x64) S5000x64.size (cc2_transform_8 i) (hinb2_8 i)).WholeWords (EltTy.packing .bf16)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S300000x64_S600000x1_S600000x64_1_0_n_n_0_1_164 : GatherDims S300000x64 S600000x1 S600000x64 where
  offsetDims := [1]
  collapsedSliceDims := [0]
  operandBatchingDims := []
  startIndicesBatchingDims := []
  startIndexMap := [0]
  indexVectorDim := 1
  sliceSizes := ![1, 64]
  wf := gather_S300000x64_S600000x1_S600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S300000x64_S2400000x1_S2400000x64_1_0_n_n_0_1_164 : GatherDims S300000x64 S2400000x1 S2400000x64 where
  offsetDims := [1]
  collapsedSliceDims := [0]
  operandBatchingDims := []
  startIndicesBatchingDims := []
  startIndexMap := [0]
  indexVectorDim := 1
  sliceSizes := ![1, 64]
  wf := gather_S300000x64_S2400000x1_S2400000x64_1_0_n_n_0_1_164_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def gather_S150000x64_S450000x1_S450000x64_1_0_n_n_0_1_164 : GatherDims S150000x64 S450000x1 S450000x64 where
  offsetDims := [1]
  collapsedSliceDims := [0]
  operandBatchingDims := []
  startIndicesBatchingDims := []
  startIndexMap := [0]
  indexVectorDim := 1
  sliceSizes := ![1, 64]
  wf := gather_S150000x64_S450000x1_S450000x64_1_0_n_n_0_1_164_wf
def scatter_S300000x64_S3450000x1_S3450000x64_1_0_0_1 : ScatterDims S300000x64 S3450000x1 S3450000x64 where
  updateWindowDims := [1]
  insertedWindowDims := [0]
  scatterDimsToOperandDims := [0]
  indexVectorDim := 1
  wf := scatter_S300000x64_S3450000x1_S3450000x64_1_0_0_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def gather_S300000x64_S450000x1_S450000x64_1_0_n_n_0_1_164 : GatherDims S300000x64 S450000x1 S450000x64 where
  offsetDims := [1]
  collapsedSliceDims := [0]
  operandBatchingDims := []
  startIndicesBatchingDims := []
  startIndexMap := [0]
  indexVectorDim := 1
  sliceSizes := ![1, 64]
  wf := gather_S300000x64_S450000x1_S450000x64_1_0_n_n_0_1_164_wf
def scatter_S150000x64_S1650000x1_S1650000x64_1_0_0_1 : ScatterDims S150000x64 S1650000x1 S1650000x64 where
  updateWindowDims := [1]
  insertedWindowDims := [0]
  scatterDimsToOperandDims := [0]
  indexVectorDim := 1
  wf := scatter_S150000x64_S1650000x1_S1650000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20_0) S5000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v20_1) S5000x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v20_2) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_arg2) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v23_1) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S300000x64 : Shape := ⟨2, ![300000, 64]⟩
abbrev S150000x64 : Shape := ⟨2, ![150000, 64]⟩
abbrev S1000000 : Shape := ⟨1, ![1000000]⟩
abbrev S2400000 : Shape := ⟨1, ![2400000]⟩
abbrev S1200000 : Shape := ⟨1, ![1200000]⟩
abbrev S600000 : Shape := ⟨1, ![600000]⟩
abbrev S450000 : Shape := ⟨1, ![450000]⟩
abbrev S128x64 : Shape := ⟨2, ![128, 64]⟩
abbrev S64 : Shape := ⟨1, ![64]⟩
abbrev S100000x128 : Shape := ⟨2, ![100000, 128]⟩
abbrev S300000x128 : Shape := ⟨2, ![300000, 128]⟩
abbrev S150000x128 : Shape := ⟨2, ![150000, 128]⟩
abbrev S1x64 : Shape := ⟨2, ![1, 64]⟩
abbrev S1000000x1 : Shape := ⟨2, ![1000000, 1]⟩
abbrev S_ : Shape := ⟨0, ![]⟩
abbrev S1000000x64 : Shape := ⟨2, ![1000000, 64]⟩
abbrev S600000x1 : Shape := ⟨2, ![600000, 1]⟩
abbrev S600000x64 : Shape := ⟨2, ![600000, 64]⟩
abbrev S2400000x1 : Shape := ⟨2, ![2400000, 1]⟩
abbrev S2400000x64 : Shape := ⟨2, ![2400000, 64]⟩
abbrev S450000x1 : Shape := ⟨2, ![450000, 1]⟩
abbrev S450000x64 : Shape := ⟨2, ![450000, 64]⟩
abbrev S1200000x1 : Shape := ⟨2, ![1200000, 1]⟩
abbrev S1200000x64 : Shape := ⟨2, ![1200000, 64]⟩

abbrev nBuf : Space → Nat
  | .hbm => 206
  | .vmem => 0
  | .smem => 0
  | _ => 0

abbrev hbmTy0_0 (i : Nat) : BufTy := match i % 128 with
  | 0 => ⟨S100000x64, .f32⟩
  | 1 => ⟨S300000x64, .f32⟩
  | 2 => ⟨S150000x64, .f32⟩
  | 3 => ⟨S1000000, .i32⟩
  | 4 => ⟨S1000000, .i32⟩
  | 5 => ⟨S1000000, .f32⟩
  | 6 => ⟨S2400000, .i32⟩
  | 7 => ⟨S2400000, .i32⟩
  | 8 => ⟨S2400000, .f32⟩
  | 9 => ⟨S1200000, .i32⟩
  | 10 => ⟨S1200000, .i32⟩
  | 11 => ⟨S1200000, .f32⟩
  | 12 => ⟨S600000, .i32⟩
  | 13 => ⟨S600000, .i32⟩
  | 14 => ⟨S600000, .f32⟩
  | 15 => ⟨S600000, .i32⟩
  | 16 => ⟨S600000, .i32⟩
  | 17 => ⟨S600000, .f32⟩
  | 18 => ⟨S450000, .i32⟩
  | 19 => ⟨S450000, .i32⟩
  | 20 => ⟨S450000, .f32⟩
  | 21 => ⟨S450000, .i32⟩
  | 22 => ⟨S450000, .i32⟩
  | 23 => ⟨S450000, .f32⟩
  | 24 => ⟨S128x64, .f32⟩
  | 25 => ⟨S64, .f32⟩
  | 26 => ⟨S128x64, .f32⟩
  | 27 => ⟨S64, .f32⟩
  | 28 => ⟨S128x64, .f32⟩
  | 29 => ⟨S64, .f32⟩
  | 30 => ⟨S128x64, .f32⟩
  | 31 => ⟨S64, .f32⟩
  | 32 => ⟨S128x64, .f32⟩
  | 33 => ⟨S64, .f32⟩
  | 34 => ⟨S128x64, .f32⟩
  | 35 => ⟨S64, .f32⟩
  | 36 => ⟨S128x64, .f32⟩
  | 37 => ⟨S64, .f32⟩
  | 38 => ⟨S100000x64, .f32⟩
  | 39 => ⟨S100000x128, .f32⟩
  | 40 => ⟨S300000x64, .f32⟩
  | 41 => ⟨S300000x128, .f32⟩
  | 42 => ⟨S150000x64, .f32⟩
  | 43 => ⟨S150000x128, .f32⟩
  | 44 => ⟨S100000x64, .f32⟩
  | 45 => ⟨S1x64, .f32⟩
  | 46 => ⟨S100000x64, .f32⟩
  | 47 => ⟨S100000x64, .f32⟩
  | 48 => ⟨S1000000x1, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S1000000x64, .f32⟩
  | 59 => ⟨S1000000x64, .f32⟩
  | 60 => ⟨S_, .f32⟩
  | 61 => ⟨S100000x64, .f32⟩
  | 62 => ⟨S1000000x1, .i32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S600000x1, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x64, .f32⟩
  | 78 => ⟨S600000x64, .f32⟩
  | 79 => ⟨S600000x64, .f32⟩
  | 80 => ⟨S_, .f32⟩
  | 81 => ⟨S300000x64, .f32⟩
  | 82 => ⟨S600000x1, .i32⟩
  | 83 => ⟨S300000x64, .f32⟩
  | 84 => ⟨S300000x64, .f32⟩
  | 85 => ⟨S1x64, .f32⟩
  | 86 => ⟨S300000x64, .f32⟩
  | 87 => ⟨S300000x64, .f32⟩
  | 88 => ⟨S600000x1, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x64, .f32⟩
  | 98 => ⟨S600000x64, .f32⟩
  | 99 => ⟨S600000x64, .f32⟩
  | 100 => ⟨S_, .f32⟩
  | 101 => ⟨S100000x64, .f32⟩
  | 102 => ⟨S600000x1, .i32⟩
  | 103 => ⟨S100000x64, .f32⟩
  | 104 => ⟨S300000x64, .f32⟩
  | 105 => ⟨S1x64, .f32⟩
  | 106 => ⟨S300000x64, .f32⟩
  | 107 => ⟨S300000x64, .f32⟩
  | 108 => ⟨S2400000x1, .f32⟩
  | 109 => ⟨S_, .i32⟩
  | 110 => ⟨S2400000, .i32⟩
  | 111 => ⟨S2400000, .i1⟩
  | 112 => ⟨S_, .i32⟩
  | 113 => ⟨S2400000, .i32⟩
  | 114 => ⟨S2400000, .i32⟩
  | 115 => ⟨S2400000, .i32⟩
  | 116 => ⟨S2400000x1, .i32⟩
  | 117 => ⟨S2400000x64, .f32⟩
  | 118 => ⟨S2400000x64, .f32⟩
  | 119 => ⟨S2400000x64, .f32⟩
  | 120 => ⟨S_, .f32⟩
  | 121 => ⟨S300000x64, .f32⟩
  | 122 => ⟨S2400000x1, .i32⟩
  | 123 => ⟨S300000x64, .f32⟩
  | 124 => ⟨S300000x64, .f32⟩
  | 125 => ⟨S1x64, .f32⟩
  | 126 => ⟨S300000x64, .f32⟩
  | 127 => ⟨S300000x64, .f32⟩
  | _ => ⟨S100000x64, .f32⟩

abbrev hbmTy0_1 (i : Nat) : BufTy := match i % 128 with
  | 0 => ⟨S450000x1, .f32⟩
  | 1 => ⟨S_, .i32⟩
  | 2 => ⟨S450000, .i32⟩
  | 3 => ⟨S450000, .i1⟩
  | 4 => ⟨S_, .i32⟩
  | 5 => ⟨S450000, .i32⟩
  | 6 => ⟨S450000, .i32⟩
  | 7 => ⟨S450000, .i32⟩
  | 8 => ⟨S450000x1, .i32⟩
  | 9 => ⟨S450000x64, .f32⟩
  | 10 => ⟨S450000x64, .f32⟩
  | 11 => ⟨S450000x64, .f32⟩
  | 12 => ⟨S_, .f32⟩
  | 13 => ⟨S150000x64, .f32⟩
  | 14 => ⟨S450000x1, .i32⟩
  | 15 => ⟨S150000x64, .f32⟩
  | 16 => ⟨S150000x64, .f32⟩
  | 17 => ⟨S1x64, .f32⟩
  | 18 => ⟨S150000x64, .f32⟩
  | 19 => ⟨S150000x64, .f32⟩
  | 20 => ⟨S1200000x1, .f32⟩
  | 21 => ⟨S_, .i32⟩
  | 22 => ⟨S1200000, .i32⟩
  | 23 => ⟨S1200000, .i1⟩
  | 24 => ⟨S_, .i32⟩
  | 25 => ⟨S1200000, .i32⟩
  | 26 => ⟨S1200000, .i32⟩
  | 27 => ⟨S1200000, .i32⟩
  | 28 => ⟨S1200000x1, .i32⟩
  | 29 => ⟨S1200000x64, .f32⟩
  | 30 => ⟨S1200000x64, .f32⟩
  | 31 => ⟨S1200000x64, .f32⟩
  | 32 => ⟨S_, .f32⟩
  | 33 => ⟨S150000x64, .f32⟩
  | 34 => ⟨S1200000x1, .i32⟩
  | 35 => ⟨S150000x64, .f32⟩
  | 36 => ⟨S150000x64, .f32⟩
  | 37 => ⟨S1x64, .f32⟩
  | 38 => ⟨S150000x64, .f32⟩
  | 39 => ⟨S150000x64, .f32⟩
  | 40 => ⟨S450000x1, .f32⟩
  | 41 => ⟨S_, .i32⟩
  | 42 => ⟨S450000, .i32⟩
  | 43 => ⟨S450000, .i1⟩
  | 44 => ⟨S_, .i32⟩
  | 45 => ⟨S450000, .i32⟩
  | 46 => ⟨S450000, .i32⟩
  | 47 => ⟨S450000, .i32⟩
  | 48 => ⟨S450000x1, .i32⟩
  | 49 => ⟨S450000x64, .f32⟩
  | 50 => ⟨S450000x64, .f32⟩
  | 51 => ⟨S450000x64, .f32⟩
  | 52 => ⟨S_, .f32⟩
  | 53 => ⟨S300000x64, .f32⟩
  | 54 => ⟨S450000x1, .i32⟩
  | 55 => ⟨S300000x64, .f32⟩
  | 56 => ⟨S100000x64, .f32⟩
  | 57 => ⟨S_, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S300000x64, .f32⟩
  | 64 => ⟨S300000x64, .f32⟩
  | 65 => ⟨S_, .f32⟩
  | 66 => ⟨S300000x64, .f32⟩
  | 67 => ⟨S300000x64, .f32⟩
  | 68 => ⟨S_, .f32⟩
  | 69 => ⟨S300000x64, .f32⟩
  | 70 => ⟨S300000x64, .f32⟩
  | 71 => ⟨S150000x64, .f32⟩
  | 72 => ⟨S_, .f32⟩
  | 73 => ⟨S150000x64, .f32⟩
  | 74 => ⟨S150000x64, .f32⟩
  | 75 => ⟨S_, .f32⟩
  | 76 => ⟨S150000x64, .f32⟩
  | 77 => ⟨S150000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c : Ref sig .tc := ⟨.hbm, 49, rfl⟩
abbrev main_v11 : Ref sig .tc := ⟨.hbm, 50, rfl⟩
abbrev main_v12 : Ref sig .tc := ⟨.hbm, 51, rfl⟩
abbrev main_c_0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_1 : Ref sig .tc := ⟨.hbm, 69, rfl⟩
abbrev main_v28 : Ref sig .tc := ⟨.hbm, 70, rfl⟩
abbrev main_v29 : Ref sig .tc := ⟨.hbm, 71, rfl⟩
abbrev main_c_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_4 : Ref sig .tc := ⟨.hbm, 89, rfl⟩
abbrev main_v45 : Ref sig .tc := ⟨.hbm, 90, rfl⟩
abbrev main_v46 : Ref sig .tc := ⟨.hbm, 91, rfl⟩
abbrev main_c_5 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_6 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_7 : Ref sig .tc := ⟨.hbm, 109, rfl⟩
abbrev main_v62 : Ref sig .tc := ⟨.hbm, 110, rfl⟩
abbrev main_v63 : Ref sig .tc := ⟨.hbm, 111, rfl⟩
abbrev main_c_8 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_9 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_10 : Ref sig .tc := ⟨.hbm, 129, rfl⟩
abbrev main_v79 : Ref sig .tc := ⟨.hbm, 130, rfl⟩
abbrev main_v80 : Ref sig .tc := ⟨.hbm, 131, rfl⟩
abbrev main_c_11 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_12 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_13 : Ref sig .tc := ⟨.hbm, 149, rfl⟩
abbrev main_v96 : Ref sig .tc := ⟨.hbm, 150, rfl⟩
abbrev main_v97 : Ref sig .tc := ⟨.hbm, 151, rfl⟩
abbrev main_c_14 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_15 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_16 : Ref sig .tc := ⟨.hbm, 169, rfl⟩
abbrev main_v113 : Ref sig .tc := ⟨.hbm, 170, rfl⟩
abbrev main_v114 : Ref sig .tc := ⟨.hbm, 171, rfl⟩
abbrev main_c_17 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_18 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_call0_cst : Ref sig .tc := ⟨.hbm, 185, rfl⟩
abbrev main_call0_v0 : Ref sig .tc := ⟨.hbm, 186, rfl⟩
abbrev main_v126 : Ref sig .tc := ⟨.hbm, 187, rfl⟩
abbrev main_cst_19 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_call1_cst : Ref sig .tc := ⟨.hbm, 193, rfl⟩
abbrev main_call1_v0 : Ref sig .tc := ⟨.hbm, 194, rfl⟩
abbrev main_v131 : Ref sig .tc := ⟨.hbm, 195, rfl⟩
abbrev main_cst_20 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_call2_cst : Ref sig .tc := ⟨.hbm, 200, rfl⟩
abbrev main_call2_v0 : Ref sig .tc := ⟨.hbm, 201, rfl⟩
abbrev main_v135 : Ref sig .tc := ⟨.hbm, 202, rfl⟩
abbrev main_cst_21 : Ref sig .tc := ⟨.hbm, 203, rfl⟩
abbrev main_v136 : Ref sig .tc := ⟨.hbm, 204, rfl⟩
abbrev main_v137 : Ref sig .tc := ⟨.hbm, 205, rfl⟩

abbrev nD : Nat := 1
abbrev τ : Topo := Topo.v7x

variable {F : FTy → Type} [FloatOps F]

class Facts₀ : Prop where
  concatenates_S100000x64_S100000x64_S100000x128_d1 : Shape.Concatenates [S100000x64, S100000x64] S100000x128 1
  concatenates_S300000x64_S300000x64_S300000x128_d1 : Shape.Concatenates [S300000x64, S300000x64] S300000x128 1
  concatenates_S150000x64_S150000x64_S150000x128_d1 : Shape.Concatenates [S150000x64, S150000x64] S150000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  bcast_S_S300000x64 : S_.BroadcastsInDim S300000x64 (![] : Fin 0 → Fin S300000x64.rank)
  bcast_S1x64_S300000x64_0_1 : S1x64.BroadcastsInDim S300000x64 (![0, 1] : Fin 2 → Fin S300000x64.rank)
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x64_0_1 : S450000x1.BroadcastsInDim S450000x64 (![0, 1] : Fin 2 → Fin S450000x64.rank)
  bcast_S_S150000x64 : S_.BroadcastsInDim S150000x64 (![] : Fin 0 → Fin S150000x64.rank)
  bcast_S1x64_S150000x64_0_1 : S1x64.BroadcastsInDim S150000x64 (![0, 1] : Fin 2 → Fin S150000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S600000x1_S600000x64_1_0_n_n_0_1_164_wf : GatherDims.WF S100000x64 S600000x1 S600000x64 [1] [0] [] [0] [] 1 ![1, 64]
  scatter_S300000x64_S600000x1_S600000x64_1_0_0_1_wf : ScatterDims.WF S300000x64 S600000x1 S600000x64 [1] [0] [0] 1
  dot_S300000x128_S128x64_S300000x64_1_0_0_1_n_n_wf : DotDims.WF S300000x128 S128x64 S300000x64 [1] [0] [0] [1] [] []
  gather_S300000x64_S600000x1_S600000x64_1_0_n_n_0_1_164_wf : GatherDims.WF S300000x64 S600000x1 S600000x64 [1] [0] [] [0] [] 1 ![1, 64]
  scatter_S100000x64_S600000x1_S600000x64_1_0_0_1_wf : ScatterDims.WF S100000x64 S600000x1 S600000x64 [1] [0] [0] 1
  gather_S300000x64_S2400000x1_S2400000x64_1_0_n_n_0_1_164_wf : GatherDims.WF S300000x64 S2400000x1 S2400000x64 [1] [0] [] [0] [] 1 ![1, 64]
  scatter_S300000x64_S2400000x1_S2400000x64_1_0_0_1_wf : ScatterDims.WF S300000x64 S2400000x1 S2400000x64 [1] [0] [0] 1
  gather_S300000x64_S450000x1_S450000x64_1_0_n_n_0_1_164_wf : GatherDims.WF S300000x64 S450000x1 S450000x64 [1] [0] [] [0] [] 1 ![1, 64]
  scatter_S150000x64_S450000x1_S450000x64_1_0_0_1_wf : ScatterDims.WF S150000x64 S450000x1 S450000x64 [1] [0] [0] 1
  dot_S150000x128_S128x64_S150000x64_1_0_0_1_n_n_wf : DotDims.WF S150000x128 S128x64 S150000x64 [1] [0] [0] [1] [] []
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S150000x64_S450000x1_S450000x64_1_0_n_n_0_1_164_wf : GatherDims.WF S150000x64 S450000x1 S450000x64 [1] [0] [] [0] [] 1 ![1, 64]
  scatter_S300000x64_S450000x1_S450000x64_1_0_0_1_wf : ScatterDims.WF S300000x64 S450000x1 S450000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S300000x64_S600000x1_S600000x64_1_0_0_1 : ScatterDims S300000x64 S600000x1 S600000x64 where
  updateWindowDims := [1]
  insertedWindowDims := [0]
  scatterDimsToOperandDims := [0]
  indexVectorDim := 1
  wf := scatter_S300000x64_S600000x1_S600000x64_1_0_0_1_wf
def dot_S300000x128_S128x64_S300000x64_1_0_0_1_n_n : DotDims S300000x128 S128x64 S300000x64 where
  lhsContracting := [1]
  rhsContracting := [0]
  lhsNonContracting := [0]
  rhsNonContracting := [1]
  lhsBatch := []
  rhsBatch := []
  wf := dot_S300000x128_S128x64_S300000x64_1_0_0_1_n_n_wf
def gather_S300000x64_S600000x1_S600000x64_1_0_n_n_0_1_164 : GatherDims S300000x64 S600000x1 S600000x64 where
  offsetDims := [1]
  collapsedSliceDims := [0]
  operandBatchingDims := []
  startIndicesBatchingDims := []
  startIndexMap := [0]
  indexVectorDim := 1
  sliceSizes := ![1, 64]
  wf := gather_S300000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def gather_S300000x64_S2400000x1_S2400000x64_1_0_n_n_0_1_164 : GatherDims S300000x64 S2400000x1 S2400000x64 where
  offsetDims := [1]
  collapsedSliceDims := [0]
  operandBatchingDims := []
  startIndicesBatchingDims := []
  startIndexMap := [0]
  indexVectorDim := 1
  sliceSizes := ![1, 64]
  wf := gather_S300000x64_S2400000x1_S2400000x64_1_0_n_n_0_1_164_wf
def scatter_S300000x64_S2400000x1_S2400000x64_1_0_0_1 : ScatterDims S300000x64 S2400000x1 S2400000x64 where
  updateWindowDims := [1]
  insertedWindowDims := [0]
  scatterDimsToOperandDims := [0]
  indexVectorDim := 1
  wf := scatter_S300000x64_S2400000x1_S2400000x64_1_0_0_1_wf
def gather_S300000x64_S450000x1_S450000x64_1_0_n_n_0_1_164 : GatherDims S300000x64 S450000x1 S450000x64 where
  offsetDims := [1]
  collapsedSliceDims := [0]
  operandBatchingDims := []
  startIndicesBatchingDims := []
  startIndexMap := [0]
  indexVectorDim := 1
  sliceSizes := ![1, 64]
  wf := gather_S300000x64_S450000x1_S450000x64_1_0_n_n_0_1_164_wf
def scatter_S150000x64_S450000x1_S450000x64_1_0_0_1 : ScatterDims S150000x64 S450000x1 S450000x64 where
  updateWindowDims := [1]
  insertedWindowDims := [0]
  scatterDimsToOperandDims := [0]
  indexVectorDim := 1
  wf := scatter_S150000x64_S450000x1_S450000x64_1_0_0_1_wf
def dot_S150000x128_S128x64_S150000x64_1_0_0_1_n_n : DotDims S150000x128 S128x64 S150000x64 where
  lhsContracting := [1]
  rhsContracting := [0]
  lhsNonContracting := [0]
  rhsNonContracting := [1]
  lhsBatch := []
  rhsBatch := []
  wf := dot_S150000x128_S128x64_S150000x64_1_0_0_1_n_n_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S150000x64_S450000x1_S450000x64_1_0_n_n_0_1_164 : GatherDims S150000x64 S450000x1 S450000x64 where
  offsetDims := [1]
  collapsedSliceDims := [0]
  operandBatchingDims := []
  startIndicesBatchingDims := []
  startIndexMap := [0]
  indexVectorDim := 1
  sliceSizes := ![1, 64]
  wf := gather_S150000x64_S450000x1_S450000x64_1_0_n_n_0_1_164_wf
def scatter_S300000x64_S450000x1_S450000x64_1_0_0_1 : ScatterDims S300000x64 S450000x1 S450000x64 where
  updateWindowDims := [1]
  insertedWindowDims := [0]
  scatterDimsToOperandDims := [0]
  indexVectorDim := 1
  wf := scatter_S300000x64_S450000x1_S450000x64_1_0_0_1_wf

class Facts : Prop extends Facts₀ where

variable [Facts]
-- ==== Proof.K.Region0.lean ====
/-
  The first dense region (the two heads over the 100000-row feature array), at any float instance: what the
  body leaves in its two output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.Kernel.Launch
import proofs.«139850_j32306744000652_2_alg».proof.Proof.Gen.Kernel.Skeleton
import proofs.«139850_j32306744000652_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether it was fetched there or not (an
    unfetched window's block index has not moved), for any proof data over these arrays whose body leaves the
    block in place. One statement per input window: the feature block, then each head's two weight blocks and bias row. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out0_7 (x0 : Vec F S5000x64 .f32) (x1 x2 : Vec F S64x64 .f32) (x3 : Vec F S1x64 .f32) : Vec F S5000x64 .bf16 :=
  View.canon [⟨rX0, k0_pay3 (View.ld x0 rX0) (View.ld x1 rW0) (View.ld x2 rW0) (View.ld x3 rB0)⟩]

/-- The second head's output block after the body. -/
def out0_8 (x0 : Vec F S5000x64 .f32) (x4 x5 : Vec F S64x64 .f32) (x6 : Vec F S1x64 .f32) : Vec F S5000x64 .bf16 :=
  View.canon [⟨rX0, k0_pay4 (View.ld x0 rX0) (View.ld x4 rW0) (View.ld x5 rW0) (View.ld x6 rB0)⟩]

/-- The one store covers the block. -/
theorem cover0 (p0 : Vec F S5000x64 .bf16) (y : S5000x64.Idx) :
    ∃ pc ∈ ([⟨rX0, p0⟩] : List (View.Piece (Elt F) S5000x64 .bf16)), y ∈ pc.1.set :=
  View.cover_of_tiled [⟨rX0, p0⟩] S5000x64.size (by rfl) y

/-! ## The body's triple -/

set_option maxHeartbeats 4000000 in
/-- The body on whole buffers — the inputs' at contents `x0 … x6`, the outputs' at anything — runs to the
    continuation with the inputs' buffers as they were and the outputs' at `out0_7`, `out0_8` of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S5000x64 .bf16) (harg8 : arg8.IsWhole)
    (arg9 : Memref sig .tc .vmem S5000x64 .bf16) (harg9 : arg9.IsWhole)
    (x0 : Vec F S5000x64 .f32) (x1 x2 : Vec F S64x64 .f32) (x3 : Vec F S1x64 .f32) (x4 x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3)
            ∗ owns (c : Thread nD τ) arg9 fullShare (out0_8 x0 x4 x5 x6)) -∗ K ⟨⟩))
      ⊢ wp frame (wpE (defs₀ (F := F)) Variants.none c none) E
          (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of this pipeline on core `c`: the arrays as the region finds them; after the body at point `t` each
    input's buffer at its block and each output's at its head of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t)
    | ⟨8, _⟩ => out0_8 (iblk0 V c 0 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) := by dsimp only [dat0]
theorem after0_8 (c : Dev nD) (t : Fin cfg0.N) :
    (dat0 V c).after 8 t = out0_8 (iblk0 V c 0 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Region1.lean ====
/-
  The second dense region (the three heads over the 300000-row feature array), at any float instance: what the
  body leaves in its three output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.Kernel.Launch
import proofs.«139850_j32306744000652_2_alg».proof.Proof.Gen.Kernel.Skeleton
import proofs.«139850_j32306744000652_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether it was fetched there or not (an
    unfetched window's block index has not moved), for any proof data over these arrays whose body leaves the
    block in place. One statement per input window: the feature block, then each head's two weight blocks and bias row. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out1_10 (x0 : Vec F S5000x64 .f32) (x1 x2 : Vec F S64x64 .f32) (x3 : Vec F S1x64 .f32) : Vec F S5000x64 .bf16 :=
  View.canon [⟨rX1, k1_pay4 (View.ld x0 rX1) (View.ld x1 rW1) (View.ld x2 rW1) (View.ld x3 rB1)⟩]

/-- The second head's output block after the body. -/
def out1_11 (x0 : Vec F S5000x64 .f32) (x4 x5 : Vec F S64x64 .f32) (x6 : Vec F S1x64 .f32) : Vec F S5000x64 .bf16 :=
  View.canon [⟨rX1, k1_pay5 (View.ld x0 rX1) (View.ld x4 rW1) (View.ld x5 rW1) (View.ld x6 rB1)⟩]

/-- The third head's output block after the body; its arithmetic takes the feature block and its square already
    narrowed (the two values the first stretch of the body hands on). -/
def out1_12 (x0 : Vec F S5000x64 .f32) (x7 x8 : Vec F S64x64 .f32) (x9 : Vec F S1x64 .f32) : Vec F S5000x64 .bf16 :=
  View.canon [⟨rX1, k1_pay1 (k1_pay2 (View.ld x0 rX1)) (k1_pay3 (View.ld x0 rX1)) (View.ld x7 rW1) (View.ld x8 rW1) (View.ld x9 rB1)⟩]

/-- The one store covers the block. -/
theorem cover1 (p0 : Vec F S5000x64 .bf16) (y : S5000x64.Idx) :
    ∃ pc ∈ ([⟨rX1, p0⟩] : List (View.Piece (Elt F) S5000x64 .bf16)), y ∈ pc.1.set :=
  View.cover_of_tiled [⟨rX1, p0⟩] S5000x64.size (by rfl) y

/-! ## The body's triple -/

set_option maxHeartbeats 4000000 in
/-- The body on whole buffers — the inputs' at contents `x0 … x9`, the outputs' at anything — runs to the
    continuation with the inputs' buffers as they were and the outputs' at `out1_10`, `out1_11`, `out1_12` of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S5000x64 .bf16) (harg11 : arg11.IsWhole) (arg12 : Memref sig .tc .vmem S5000x64 .bf16) (harg12 : arg12.IsWhole)
    (arg13 : Memref sig .tc .vmem S5000x64 .bf16) (harg13 : arg13.IsWhole)
    (x0 : Vec F S5000x64 .f32) (x1 x2 : Vec F S64x64 .f32) (x3 : Vec F S1x64 .f32) (x4 x5 : Vec F S64x64 .f32) (x6 : Vec F S1x64 .f32)
    (x7 x8 : Vec F S64x64 .f32) (x9 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3) ∗ owns (c : Thread nD τ) arg12 fullShare (out1_11 x0 x4 x5 x6) ∗ owns (c : Thread nD τ) arg13 fullShare (out1_12 x0 x7 x8 x9)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10
            arg11 harg11 arg12 harg12 arg13 harg13) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

/-! ## The pipeline's proof data -/

/-- The proof data of this pipeline on core `c`: the arrays as the region finds them; after the body at point `t` each
    input's buffer at its block and each output's at its head of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t)
    | ⟨11, _⟩ => out1_11 (iblk1 V c 0 t) (iblk1 V c 4 t) (iblk1 V c 5 t) (iblk1 V c 6 t)
    | ⟨12, _⟩ => out1_12 (iblk1 V c 0 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) := by dsimp only [dat1]
theorem after1_11 (c : Dev nD) (t : Fin cfg1.N) :
    (dat1 V c).after 11 t = out1_11 (iblk1 V c 0 t) (iblk1 V c 4 t) (iblk1 V c 5 t) (iblk1 V c 6 t) := by dsimp only [dat1]
theorem after1_12 (c : Dev nD) (t : Fin cfg1.N) :
    (dat1 V c).after 12 t = out1_12 (iblk1 V c 0 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Region2.lean ====
/-
  The third dense region (the two heads over the 150000-row feature array), at any float instance: what the
  body leaves in its two output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.Kernel.Launch
import proofs.«139850_j32306744000652_2_alg».proof.Proof.Gen.Kernel.Skeleton
import proofs.«139850_j32306744000652_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether it was fetched there or not (an
    unfetched window's block index has not moved), for any proof data over these arrays whose body leaves the
    block in place. One statement per input window: the feature block, then each head's two weight blocks and bias row. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out2_7 (x0 : Vec F S5000x64 .f32) (x1 x2 : Vec F S64x64 .f32) (x3 : Vec F S1x64 .f32) : Vec F S5000x64 .bf16 :=
  View.canon [⟨rX2, k2_pay3 (View.ld x0 rX2) (View.ld x1 rW2) (View.ld x2 rW2) (View.ld x3 rB2)⟩]

/-- The second head's output block after the body. -/
def out2_8 (x0 : Vec F S5000x64 .f32) (x4 x5 : Vec F S64x64 .f32) (x6 : Vec F S1x64 .f32) : Vec F S5000x64 .bf16 :=
  View.canon [⟨rX2, k2_pay4 (View.ld x0 rX2) (View.ld x4 rW2) (View.ld x5 rW2) (View.ld x6 rB2)⟩]

/-- The one store covers the block. -/
theorem cover2 (p0 : Vec F S5000x64 .bf16) (y : S5000x64.Idx) :
    ∃ pc ∈ ([⟨rX2, p0⟩] : List (View.Piece (Elt F) S5000x64 .bf16)), y ∈ pc.1.set :=
  View.cover_of_tiled [⟨rX2, p0⟩] S5000x64.size (by rfl) y

/-! ## The body's triple -/

set_option maxHeartbeats 4000000 in
/-- The body on whole buffers — the inputs' at contents `x0 … x6`, the outputs' at anything — runs to the
    continuation with the inputs' buffers as they were and the outputs' at `out2_7`, `out2_8` of the inputs. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S5000x64 .bf16) (harg8 : arg8.IsWhole)
    (arg9 : Memref sig .tc .vmem S5000x64 .bf16) (harg9 : arg9.IsWhole)
    (x0 : Vec F S5000x64 .f32) (x1 x2 : Vec F S64x64 .f32) (x3 : Vec F S1x64 .f32) (x4 x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3)
            ∗ owns (c : Thread nD τ) arg9 fullShare (out2_8 x0 x4 x5 x6)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2 _)
  iexists _; isplitr
  swap; · iexact H8
  ipureintro
  exact View.read_writes_eq_canon _ _ _ (cover2 _)

/-! ## The pipeline's proof data -/

/-- The proof data of this pipeline on core `c`: the arrays as the region finds them; after the body at point `t` each
    input's buffer at its block and each output's at its head of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t)
    | ⟨8, _⟩ => out2_8 (iblk2 V c 0 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) := by dsimp only [dat2]
theorem after2_8 (c : Dev nD) (t : Fin cfg2.N) :
    (dat2 V c).after 8 t = out2_8 (iblk2 V c 0 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Run.lean ====
/-
  The run of the whole program, at any float instance: the three dense regions as segments of @main between its
  stretches of host operations, over the buffer contents at each boundary.

  The contents at a boundary are a fold from the launch memory: a host stretch applies its operations; a region
  leaves every buffer as it found it except its output arrays, which hold what the write-backs of all its grid
  points leave. What a region leaves is named first (`leave0`, `leave1`, `leave2`), each from the contents the
  region is entered with, which depend only on what the regions before it left; the family `outs` collects them.
  Every argument array is written by no stretch and by no region, so it reaches the end as launched.
-/
import proofs.«139850_j32306744000652_2_alg».proof.Proof.K.Region0
import proofs.«139850_j32306744000652_2_alg».proof.Proof.K.Region1
import proofs.«139850_j32306744000652_2_alg».proof.Proof.K.Region2
import proofs.«139850_j32306744000652_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region is entered with and what it leaves -/

/-- The first region's entry contents, read at the core's references. -/
abbrev In0 : (c : Dev nD) → (b : Ref sig .tc) → Buf (Elt F) ((c : Thread nD τ).loc b) := fun c b => Gen.V1 m c b
/-- What the first region leaves: its arrays at what the write-backs leave, every other buffer as entered. -/
def leave0 (c : Dev nD) : Valuation τ sig (Elt F) :=
  Pipeline.withArrays spec0 c (Gen.V1 m c) fun w => (dat0 (In0 m) c).arrAt w cfg0.N
/-- The regions' outputs as far as the second region's entry needs them. -/
def outs0 : Gen.Outs (F := F) := fun _ r c => leave0 m c r

abbrev In1 : (c : Dev nD) → (b : Ref sig .tc) → Buf (Elt F) ((c : Thread nD τ).loc b) := fun c b => Gen.V3 m (outs0 m) c b
def leave1 (c : Dev nD) : Valuation τ sig (Elt F) :=
  Pipeline.withArrays spec1 c (Gen.V3 m (outs0 m) c) fun w => (dat1 (In1 m) c).arrAt w cfg1.N
def outs1 : Gen.Outs (F := F) := fun J r c => if J = 2 then leave0 m c r else leave1 m c r

abbrev In2 : (c : Dev nD) → (b : Ref sig .tc) → Buf (Elt F) ((c : Thread nD τ).loc b) := fun c b => Gen.V5 m (outs1 m) c b
def leave2 (c : Dev nD) : Valuation τ sig (Elt F) :=
  Pipeline.withArrays spec2 c (Gen.V5 m (outs1 m) c) fun w => (dat2 (In2 m) c).arrAt w cfg2.N
/-- What the three regions leave, by the item of @main after which it is read (2, 4, 6). -/
def outs : Gen.Outs (F := F) := fun J r c => if J = 2 then leave0 m c r else if J = 4 then leave1 m c r else leave2 m c r

theorem outs_two (r : Ref sig .tc) (c : Dev nD) : outs m 2 r c = leave0 m c r := rfl
theorem outs_four (r : Ref sig .tc) (c : Dev nD) : outs m 4 r c = leave1 m c r := rfl
theorem outs_six (r : Ref sig .tc) (c : Dev nD) : outs m 6 r c = leave2 m c r := rfl

/-- The boundary contents do not depend on outputs read later. -/
theorem V3_outs (c : Dev nD) : Gen.V3 m (outs m) c = Gen.V3 m (outs0 m) c := rfl
theorem V5_outs (c : Dev nD) : Gen.V5 m (outs m) c = Gen.V5 m (outs1 m) c := rfl

/-! ## A region's exit contents: its output arrays at what the write-backs leave, everything else as entered -/

theorem V2_v16_0 (o : Gen.Outs (F := F)) (c : Dev nD) : Gen.V2 m o c main_v16_0 = o 2 main_v16_0 c :=
  (Function.update_of_ne (StableHlo.devRef_ne_of_ne (by decide) : (Proc.devRef .tc main_v16_0 : DevRef τ sig) ≠ Proc.devRef .tc main_v16_1) _ _).trans
    (Function.update_self _ _ _)
theorem V2_v16_1 (o : Gen.Outs (F := F)) (c : Dev nD) : Gen.V2 m o c main_v16_1 = o 2 main_v16_1 c :=
  Function.update_self _ _ _
theorem V4_v20_0 (o : Gen.Outs (F := F)) (c : Dev nD) : Gen.V4 m o c main_v20_0 = o 4 main_v20_0 c :=
  (Function.update_of_ne (StableHlo.devRef_ne_of_ne (by decide) : (Proc.devRef .tc main_v20_0 : DevRef τ sig) ≠ Proc.devRef .tc main_v20_2) _ _).trans
    ((Function.update_of_ne (StableHlo.devRef_ne_of_ne (by decide) : (Proc.devRef .tc main_v20_0 : DevRef τ sig) ≠ Proc.devRef .tc main_v20_1) _ _).trans
      (Function.update_self _ _ _))
theorem V4_v20_1 (o : Gen.Outs (F := F)) (c : Dev nD) : Gen.V4 m o c main_v20_1 = o 4 main_v20_1 c :=
  (Function.update_of_ne (StableHlo.devRef_ne_of_ne (by decide) : (Proc.devRef .tc main_v20_1 : DevRef τ sig) ≠ Proc.devRef .tc main_v20_2) _ _).trans
    (Function.update_self _ _ _)
theorem V4_v20_2 (o : Gen.Outs (F := F)) (c : Dev nD) : Gen.V4 m o c main_v20_2 = o 4 main_v20_2 c :=
  Function.update_self _ _ _
theorem V6_v23_0 (o : Gen.Outs (F := F)) (c : Dev nD) : Gen.V6 m o c main_v23_0 = o 6 main_v23_0 c :=
  (Function.update_of_ne (StableHlo.devRef_ne_of_ne (by decide) : (Proc.devRef .tc main_v23_0 : DevRef τ sig) ≠ Proc.devRef .tc main_v23_1) _ _).trans
    (Function.update_self _ _ _)
theorem V6_v23_1 (o : Gen.Outs (F := F)) (c : Dev nD) : Gen.V6 m o c main_v23_1 = o 6 main_v23_1 c :=
  Function.update_self _ _ _

theorem leave0_arr (c : Dev nD) (w : Fin cfg0.W) :
    leave0 m c (Proc.devRef .tc (Pipeline.arrRef spec0 w)) = (dat0 (In0 m) c).arrAt w cfg0.N := by
  unfold leave0; exact Pipeline.withArrays_arr spec0 launch0.win.arr_inj c _ _ w
theorem leave1_arr (c : Dev nD) (w : Fin cfg1.W) :
    leave1 m c (Proc.devRef .tc (Pipeline.arrRef spec1 w)) = (dat1 (In1 m) c).arrAt w cfg1.N := by
  unfold leave1; exact Pipeline.withArrays_arr spec1 launch1.win.arr_inj c _ _ w
theorem leave2_arr (c : Dev nD) (w : Fin cfg2.W) :
    leave2 m c (Proc.devRef .tc (Pipeline.arrRef spec2 w)) = (dat2 (In2 m) c).arrAt w cfg2.N := by
  unfold leave2; exact Pipeline.withArrays_arr spec2 launch2.win.arr_inj c _ _ w

/-- At a region's exit an input array is as entered: no write-back touches it, and the region changes no buffer
    but its outputs. -/
theorem hF0_in (c : Dev nD) (w : Fin cfg0.W) (hw : (cfg0.win w).isOut = false)
    (hne : Pipeline.arrRef spec0 w ∉ ([main_v16_0, main_v16_1] : List (Ref sig .tc))) :
    (dat0 (In0 m) c).arrAt w cfg0.N = Gen.V2 m (outs0 m) c (Pipeline.arrRef spec0 w) :=
  (((dat0 (In0 m) c).arrAt_in w hw _).trans (A_eq0 (In0 m) c w)).trans (Gen.V2_of m (outs0 m) c _ hne).symm

set_option maxHeartbeats 4000000 in
/-- At the first region's exit each of its arrays holds what the pipeline leaves: an input array is as entered, an
    output array is the region's output by name. -/
theorem hF0 (c : Dev nD) (w : Fin cfg0.W) :
    (dat0 (In0 m) c).arrAt w cfg0.N = (fun b : Ref sig .tc => Gen.V2 m (outs0 m) c b) (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_in m c 3 rfl (by decide)
  | ⟨4, _⟩ => exact hF0_in m c 4 rfl (by decide)
  | ⟨5, _⟩ => exact hF0_in m c 5 rfl (by decide)
  | ⟨6, _⟩ => exact hF0_in m c 6 rfl (by decide)
  | ⟨7, _⟩ => exact (leave0_arr m c 7).symm.trans (V2_v16_0 m (outs0 m) c).symm
  | ⟨8, _⟩ => exact (leave0_arr m c 8).symm.trans (V2_v16_1 m (outs0 m) c).symm
/-- and every other buffer what it held at entry. -/
theorem hrest0 (c : Dev nD) : ∀ b : Ref sig .tc, b ∉ Finset.univ.image (Pipeline.arrRef spec0) → (fun b : Ref sig .tc => Gen.V2 m (outs0 m) c b) b = In0 m c b :=
  fun b hb => Gen.V2_of m (outs0 m) c b fun hmem => hb (by
    rcases List.mem_cons.1 hmem with rfl | hmem
    · exact Finset.mem_image.2 ⟨7, Finset.mem_univ _, rfl⟩
    · rcases List.mem_cons.1 hmem with rfl | hmem
      · exact Finset.mem_image.2 ⟨8, Finset.mem_univ _, rfl⟩
      · exact absurd hmem (List.not_mem_nil))

theorem hF1_in (c : Dev nD) (w : Fin cfg1.W) (hw : (cfg1.win w).isOut = false)
    (hne : Pipeline.arrRef spec1 w ∉ ([main_v20_0, main_v20_1, main_v20_2] : List (Ref sig .tc))) :
    (dat1 (In1 m) c).arrAt w cfg1.N = Gen.V4 m (outs1 m) c (Pipeline.arrRef spec1 w) :=
  (((dat1 (In1 m) c).arrAt_in w hw _).trans (A_eq1 (In1 m) c w)).trans
    ((Gen.V4_of m (outs1 m) c _ hne).trans (show Gen.V3 m (outs1 m) c (Pipeline.arrRef spec1 w) = In1 m c (Pipeline.arrRef spec1 w) from rfl)).symm

set_option maxHeartbeats 4000000 in
theorem hF1 (c : Dev nD) (w : Fin cfg1.W) :
    (dat1 (In1 m) c).arrAt w cfg1.N = (fun b : Ref sig .tc => Gen.V4 m (outs1 m) c b) (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact hF1_in m c 5 rfl (by decide)
  | ⟨6, _⟩ => exact hF1_in m c 6 rfl (by decide)
  | ⟨7, _⟩ => exact hF1_in m c 7 rfl (by decide)
  | ⟨8, _⟩ => exact hF1_in m c 8 rfl (by decide)
  | ⟨9, _⟩ => exact hF1_in m c 9 rfl (by decide)
  | ⟨10, _⟩ => exact (leave1_arr m c 10).symm.trans (V4_v20_0 m (outs1 m) c).symm
  | ⟨11, _⟩ => exact (leave1_arr m c 11).symm.trans (V4_v20_1 m (outs1 m) c).symm
  | ⟨12, _⟩ => exact (leave1_arr m c 12).symm.trans (V4_v20_2 m (outs1 m) c).symm
theorem hrest1 (c : Dev nD) : ∀ b : Ref sig .tc, b ∉ Finset.univ.image (Pipeline.arrRef spec1) → (fun b : Ref sig .tc => Gen.V4 m (outs1 m) c b) b = In1 m c b :=
  fun b hb => Gen.V4_of m (outs1 m) c b fun hmem => hb (by
    rcases List.mem_cons.1 hmem with rfl | hmem
    · exact Finset.mem_image.2 ⟨10, Finset.mem_univ _, rfl⟩
    · rcases List.mem_cons.1 hmem with rfl | hmem
      · exact Finset.mem_image.2 ⟨11, Finset.mem_univ _, rfl⟩
      · rcases List.mem_cons.1 hmem with rfl | hmem
        · exact Finset.mem_image.2 ⟨12, Finset.mem_univ _, rfl⟩
        · exact absurd hmem (List.not_mem_nil))

theorem hF2_in (c : Dev nD) (w : Fin cfg2.W) (hw : (cfg2.win w).isOut = false)
    (hne : Pipeline.arrRef spec2 w ∉ ([main_v23_0, main_v23_1] : List (Ref sig .tc))) :
    (dat2 (In2 m) c).arrAt w cfg2.N = Gen.V6 m (outs m) c (Pipeline.arrRef spec2 w) :=
  (((dat2 (In2 m) c).arrAt_in w hw _).trans (A_eq2 (In2 m) c w)).trans
    ((Gen.V6_of m (outs m) c _ hne).trans (show Gen.V5 m (outs m) c (Pipeline.arrRef spec2 w) = In2 m c (Pipeline.arrRef spec2 w) from rfl)).symm

set_option maxHeartbeats 4000000 in
theorem hF2 (c : Dev nD) (w : Fin cfg2.W) :
    (dat2 (In2 m) c).arrAt w cfg2.N = (fun b : Ref sig .tc => Gen.V6 m (outs m) c b) (Pipeline.arrRef spec2 w) := by
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_in m c 5 rfl (by decide)
  | ⟨6, _⟩ => exact hF2_in m c 6 rfl (by decide)
  | ⟨7, _⟩ => exact (leave2_arr m c 7).symm.trans (V6_v23_0 m (outs m) c).symm
  | ⟨8, _⟩ => exact (leave2_arr m c 8).symm.trans (V6_v23_1 m (outs m) c).symm
theorem hrest2 (c : Dev nD) : ∀ b : Ref sig .tc, b ∉ Finset.univ.image (Pipeline.arrRef spec2) → (fun b : Ref sig .tc => Gen.V6 m (outs m) c b) b = In2 m c b :=
  fun b hb => (Gen.V6_of m (outs m) c b fun hmem => hb (by
    rcases List.mem_cons.1 hmem with rfl | hmem
    · exact Finset.mem_image.2 ⟨7, Finset.mem_univ _, rfl⟩
    · rcases List.mem_cons.1 hmem with rfl | hmem
      · exact Finset.mem_image.2 ⟨8, Finset.mem_univ _, rfl⟩
      · exact absurd hmem (List.not_mem_nil))).trans rfl

/-! ## The proof data family, the thread state, the regions as segments -/

/-- Every pipeline's proof data, each at its region's entry contents. -/
def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev 𝒱0 : Variants := Variants.none
/-- No core owes another anything: no level is assigned. -/
abbrev L0 : GSem nD τ sig → Finset Unit := fun _ => ∅
abbrev lv0 : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at
    some state, nothing owed": its arrays are split out of the unscoped buffers at entry and put back, at what the
    write-backs leave, at exit; the generator register goes into the pipeline's invariant and comes back. -/
def reg0 : Pipeline.RegionSeg (pcfgs (F := F)) Gen.adm (pdats m) () defs₀ 𝒱0 L0 lv0 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L0 lv0 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs0 m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (fun b => Gen.V2 m (outs0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers at entry and put back, at what the
    write-backs leave, at exit; the generator register goes into the pipeline's invariant and comes back. -/
def reg1 : Pipeline.RegionSeg (pcfgs (F := F)) Gen.adm (pdats m) () defs₀ 𝒱0 L0 lv0 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L0 lv0 1 fun _ _ => rfl
  pre c := iprop(StableHlo.held (c : Thread nD τ) (Pipeline.ucRefs τ sig) (Gen.V3 m (outs0 m) c) ∗ Rest c)
  post c := iprop(StableHlo.held (c : Thread nD τ) (Pipeline.ucRefs τ sig) (Gen.V4 m (outs1 m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (fun b => Gen.V4 m (outs1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": its arrays are split out of the unscoped buffers at entry and put back, at what the
    write-backs leave, at exit; the generator register goes into the pipeline's invariant and comes back. -/
def reg2 : Pipeline.RegionSeg (pcfgs (F := F)) Gen.adm (pdats m) () defs₀ 𝒱0 L0 lv0 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L0 lv0 2 fun _ _ => rfl
  pre c := iprop(StableHlo.held (c : Thread nD τ) (Pipeline.ucRefs τ sig) (Gen.V5 m (outs1 m) c) ∗ Rest c)
  post c := iprop(StableHlo.held (c : Thread nD τ) (Pipeline.ucRefs τ sig) (Gen.V6 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (In2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (In2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates without a fault, and every
    argument array ends as launched. -/
def frame (ρ : Dev nD → PrngReg) :=
  Gen.frame_cond m (emb₁ (sig := sig) (nD := nD) (τ := τ)) () 𝒱0 L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.Kernel.Frame

end
-- ==== Proof.KI.Region0.lean ====
/-
  The first dense region (the two heads over the 100000-row feature array), at any float instance: what the
  body leaves in its two output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.KernelIdeal.Launch
import proofs.«139850_j32306744000652_2_alg».proof.Proof.Gen.KernelIdeal.Skeleton
import proofs.«139850_j32306744000652_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether it was fetched there or not (an
    unfetched window's block index has not moved), for any proof data over these arrays whose body leaves the
    block in place. One statement per input window: the feature block, then each head's two weight blocks and bias row. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out0_7 (x0 : Vec F S5000x64 .f32) (x1 x2 : Vec F S64x64 .f32) (x3 : Vec F S1x64 .f32) : Vec F S5000x64 .bf16 :=
  View.canon [⟨rX0, k0_pay3 (View.ld x0 rX0) (View.ld x1 rW0) (View.ld x2 rW0) (View.ld x3 rB0)⟩]

/-- The second head's output block after the body. -/
def out0_8 (x0 : Vec F S5000x64 .f32) (x4 x5 : Vec F S64x64 .f32) (x6 : Vec F S1x64 .f32) : Vec F S5000x64 .bf16 :=
  View.canon [⟨rX0, k0_pay4 (View.ld x0 rX0) (View.ld x4 rW0) (View.ld x5 rW0) (View.ld x6 rB0)⟩]

/-- The one store covers the block. -/
theorem cover0 (p0 : Vec F S5000x64 .bf16) (y : S5000x64.Idx) :
    ∃ pc ∈ ([⟨rX0, p0⟩] : List (View.Piece (Elt F) S5000x64 .bf16)), y ∈ pc.1.set :=
  View.cover_of_tiled [⟨rX0, p0⟩] S5000x64.size (by rfl) y

/-! ## The body's triple -/

set_option maxHeartbeats 4000000 in
/-- The body on whole buffers — the inputs' at contents `x0 … x6`, the outputs' at anything — runs to the
    continuation with the inputs' buffers as they were and the outputs' at `out0_7`, `out0_8` of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S5000x64 .bf16) (harg8 : arg8.IsWhole)
    (arg9 : Memref sig .tc .vmem S5000x64 .bf16) (harg9 : arg9.IsWhole)
    (x0 : Vec F S5000x64 .f32) (x1 x2 : Vec F S64x64 .f32) (x3 : Vec F S1x64 .f32) (x4 x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3)
            ∗ owns (c : Thread nD τ) arg9 fullShare (out0_8 x0 x4 x5 x6)) -∗ K ⟨⟩))
      ⊢ wp frame (wpE (defs₀ (F := F)) Variants.none c none) E
          (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The proof data of this pipeline on core `c`: the arrays as the region finds them; after the body at point `t` each
    input's buffer at its block and each output's at its head of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t)
    | ⟨8, _⟩ => out0_8 (iblk0 V c 0 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) (iblk0 V c 3 t) := by dsimp only [dat0]
theorem after0_8 (c : Dev nD) (t : Fin cfg0.N) :
    (dat0 V c).after 8 t = out0_8 (iblk0 V c 0 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
/-
  The second dense region (the three heads over the 300000-row feature array), at any float instance: what the
  body leaves in its three output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.KernelIdeal.Launch
import proofs.«139850_j32306744000652_2_alg».proof.Proof.Gen.KernelIdeal.Skeleton
import proofs.«139850_j32306744000652_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether it was fetched there or not (an
    unfetched window's block index has not moved), for any proof data over these arrays whose body leaves the
    block in place. One statement per input window: the feature block, then each head's two weight blocks and bias row. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out1_10 (x0 : Vec F S5000x64 .f32) (x1 x2 : Vec F S64x64 .f32) (x3 : Vec F S1x64 .f32) : Vec F S5000x64 .bf16 :=
  View.canon [⟨rX1, k1_pay4 (View.ld x0 rX1) (View.ld x1 rW1) (View.ld x2 rW1) (View.ld x3 rB1)⟩]

/-- The second head's output block after the body. -/
def out1_11 (x0 : Vec F S5000x64 .f32) (x4 x5 : Vec F S64x64 .f32) (x6 : Vec F S1x64 .f32) : Vec F S5000x64 .bf16 :=
  View.canon [⟨rX1, k1_pay5 (View.ld x0 rX1) (View.ld x4 rW1) (View.ld x5 rW1) (View.ld x6 rB1)⟩]

/-- The third head's output block after the body; its arithmetic takes the feature block and its square already
    narrowed (the two values the first stretch of the body hands on). -/
def out1_12 (x0 : Vec F S5000x64 .f32) (x7 x8 : Vec F S64x64 .f32) (x9 : Vec F S1x64 .f32) : Vec F S5000x64 .bf16 :=
  View.canon [⟨rX1, k1_pay1 (k1_pay2 (View.ld x0 rX1)) (k1_pay3 (View.ld x0 rX1)) (View.ld x7 rW1) (View.ld x8 rW1) (View.ld x9 rB1)⟩]

/-- The one store covers the block. -/
theorem cover1 (p0 : Vec F S5000x64 .bf16) (y : S5000x64.Idx) :
    ∃ pc ∈ ([⟨rX1, p0⟩] : List (View.Piece (Elt F) S5000x64 .bf16)), y ∈ pc.1.set :=
  View.cover_of_tiled [⟨rX1, p0⟩] S5000x64.size (by rfl) y

/-! ## The body's triple -/

set_option maxHeartbeats 4000000 in
/-- The body on whole buffers — the inputs' at contents `x0 … x9`, the outputs' at anything — runs to the
    continuation with the inputs' buffers as they were and the outputs' at `out1_10`, `out1_11`, `out1_12` of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S5000x64 .bf16) (harg11 : arg11.IsWhole) (arg12 : Memref sig .tc .vmem S5000x64 .bf16) (harg12 : arg12.IsWhole)
    (arg13 : Memref sig .tc .vmem S5000x64 .bf16) (harg13 : arg13.IsWhole)
    (x0 : Vec F S5000x64 .f32) (x1 x2 : Vec F S64x64 .f32) (x3 : Vec F S1x64 .f32) (x4 x5 : Vec F S64x64 .f32) (x6 : Vec F S1x64 .f32)
    (x7 x8 : Vec F S64x64 .f32) (x9 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3) ∗ owns (c : Thread nD τ) arg12 fullShare (out1_11 x0 x4 x5 x6) ∗ owns (c : Thread nD τ) arg13 fullShare (out1_12 x0 x7 x8 x9)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10
            arg11 harg11 arg12 harg12 arg13 harg13) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

/-! ## The pipeline's proof data -/

/-- The proof data of this pipeline on core `c`: the arrays as the region finds them; after the body at point `t` each
    input's buffer at its block and each output's at its head of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t)
    | ⟨11, _⟩ => out1_11 (iblk1 V c 0 t) (iblk1 V c 4 t) (iblk1 V c 5 t) (iblk1 V c 6 t)
    | ⟨12, _⟩ => out1_12 (iblk1 V c 0 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) := by dsimp only [dat1]
theorem after1_11 (c : Dev nD) (t : Fin cfg1.N) :
    (dat1 V c).after 11 t = out1_11 (iblk1 V c 0 t) (iblk1 V c 4 t) (iblk1 V c 5 t) (iblk1 V c 6 t) := by dsimp only [dat1]
theorem after1_12 (c : Dev nD) (t : Fin cfg1.N) :
    (dat1 V c).after 12 t = out1_12 (iblk1 V c 0 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Region2.lean ====
/-
  The third dense region (the two heads over the 150000-row feature array), at any float instance: what the
  body leaves in its two output blocks, its triple, and the pipeline's proof data at the buffer contents `V`
  the region is entered with.

  A point of the grid handles 5000 rows. The body loads the 5000×64 block of the features, and for each head its two
  64×64 weight blocks and its 1×64 bias row, and stores the head's 5000×64 result whole; so after the body each
  output block is ONE whole-block piece whose value is the head's arithmetic (the skeleton's payload) of the
  loaded blocks, the input blocks are as they were, and nothing else is touched. The weight and bias blocks are
  fetched once (their block index never moves); the lemma that an input's buffer holds its block at every
  point covers both kinds of window.
-/
import proofs.«139850_j32306744000652_2_alg».proof.Proof.Gen.KernelIdeal.Launch
import proofs.«139850_j32306744000652_2_alg».proof.Proof.Gen.KernelIdeal.Skeleton
import proofs.«139850_j32306744000652_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether it was fetched there or not (an
    unfetched window's block index has not moved), for any proof data over these arrays whose body leaves the
    block in place. One statement per input window: the feature block, then each head's two weight blocks and bias row. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in each output block -/

/-- The first head's output block after the body: one whole-block store of the head's arithmetic on the feature
    block, the head's weight blocks and its bias row. -/
def out2_7 (x0 : Vec F S5000x64 .f32) (x1 x2 : Vec F S64x64 .f32) (x3 : Vec F S1x64 .f32) : Vec F S5000x64 .bf16 :=
  View.canon [⟨rX2, k2_pay3 (View.ld x0 rX2) (View.ld x1 rW2) (View.ld x2 rW2) (View.ld x3 rB2)⟩]

/-- The second head's output block after the body. -/
def out2_8 (x0 : Vec F S5000x64 .f32) (x4 x5 : Vec F S64x64 .f32) (x6 : Vec F S1x64 .f32) : Vec F S5000x64 .bf16 :=
  View.canon [⟨rX2, k2_pay4 (View.ld x0 rX2) (View.ld x4 rW2) (View.ld x5 rW2) (View.ld x6 rB2)⟩]

/-- The one store covers the block. -/
theorem cover2 (p0 : Vec F S5000x64 .bf16) (y : S5000x64.Idx) :
    ∃ pc ∈ ([⟨rX2, p0⟩] : List (View.Piece (Elt F) S5000x64 .bf16)), y ∈ pc.1.set :=
  View.cover_of_tiled [⟨rX2, p0⟩] S5000x64.size (by rfl) y

/-! ## The body's triple -/

set_option maxHeartbeats 4000000 in
/-- The body on whole buffers — the inputs' at contents `x0 … x6`, the outputs' at anything — runs to the
    continuation with the inputs' buffers as they were and the outputs' at `out2_7`, `out2_8` of the inputs. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S5000x64 .bf16) (harg8 : arg8.IsWhole)
    (arg9 : Memref sig .tc .vmem S5000x64 .bf16) (harg9 : arg9.IsWhole)
    (x0 : Vec F S5000x64 .f32) (x1 x2 : Vec F S64x64 .f32) (x3 : Vec F S1x64 .f32) (x4 x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3)
            ∗ owns (c : Thread nD τ) arg9 fullShare (out2_8 x0 x4 x5 x6)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2 _)
  iexists _; isplitr
  swap; · iexact H8
  ipureintro
  exact View.read_writes_eq_canon _ _ _ (cover2 _)

/-! ## The pipeline's proof data -/

/-- The proof data of this pipeline on core `c`: the arrays as the region finds them; after the body at point `t` each
    input's buffer at its block and each output's at its head of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t)
    | ⟨8, _⟩ => out2_8 (iblk2 V c 0 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) := by dsimp only [dat2]
theorem after2_8 (c : Dev nD) (t : Fin cfg2.N) :
    (dat2 V c).after 8 t = out2_8 (iblk2 V c 0 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Run.lean ====
/-
  The run of the whole program, at any float instance: the three dense regions as segments of @main between its
  stretches of host operations, over the buffer contents at each boundary.

  The contents at a boundary are a fold from the launch memory: a host stretch applies its operations; a region
  leaves every buffer as it found it except its output arrays, which hold what the write-backs of all its grid
  points leave. What a region leaves is named first (`leave0`, `leave1`, `leave2`), each from the contents the
  region is entered with, which depend only on what the regions before it left; the family `outs` collects them.
  Every argument array is written by no stretch and by no region, so it reaches the end as launched.
-/
import proofs.«139850_j32306744000652_2_alg».proof.Proof.KI.Region0
import proofs.«139850_j32306744000652_2_alg».proof.Proof.KI.Region1
import proofs.«139850_j32306744000652_2_alg».proof.Proof.KI.Region2
import proofs.«139850_j32306744000652_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region is entered with and what it leaves -/

/-- The first region's entry contents, read at the core's references. -/
abbrev In0 : (c : Dev nD) → (b : Ref sig .tc) → Buf (Elt F) ((c : Thread nD τ).loc b) := fun c b => Gen.V1 m c b
/-- What the first region leaves: its arrays at what the write-backs leave, every other buffer as entered. -/
def leave0 (c : Dev nD) : Valuation τ sig (Elt F) :=
  Pipeline.withArrays spec0 c (Gen.V1 m c) fun w => (dat0 (In0 m) c).arrAt w cfg0.N
/-- The regions' outputs as far as the second region's entry needs them. -/
def outs0 : Gen.Outs (F := F) := fun _ r c => leave0 m c r

abbrev In1 : (c : Dev nD) → (b : Ref sig .tc) → Buf (Elt F) ((c : Thread nD τ).loc b) := fun c b => Gen.V3 m (outs0 m) c b
def leave1 (c : Dev nD) : Valuation τ sig (Elt F) :=
  Pipeline.withArrays spec1 c (Gen.V3 m (outs0 m) c) fun w => (dat1 (In1 m) c).arrAt w cfg1.N
def outs1 : Gen.Outs (F := F) := fun J r c => if J = 2 then leave0 m c r else leave1 m c r

abbrev In2 : (c : Dev nD) → (b : Ref sig .tc) → Buf (Elt F) ((c : Thread nD τ).loc b) := fun c b => Gen.V5 m (outs1 m) c b
def leave2 (c : Dev nD) : Valuation τ sig (Elt F) :=
  Pipeline.withArrays spec2 c (Gen.V5 m (outs1 m) c) fun w => (dat2 (In2 m) c).arrAt w cfg2.N
/-- What the three regions leave, by the item of @main after which it is read (2, 4, 6). -/
def outs : Gen.Outs (F := F) := fun J r c => if J = 2 then leave0 m c r else if J = 4 then leave1 m c r else leave2 m c r

theorem outs_two (r : Ref sig .tc) (c : Dev nD) : outs m 2 r c = leave0 m c r := rfl
theorem outs_four (r : Ref sig .tc) (c : Dev nD) : outs m 4 r c = leave1 m c r := rfl
theorem outs_six (r : Ref sig .tc) (c : Dev nD) : outs m 6 r c = leave2 m c r := rfl

/-- The boundary contents do not depend on outputs read later. -/
theorem V3_outs (c : Dev nD) : Gen.V3 m (outs m) c = Gen.V3 m (outs0 m) c := rfl
theorem V5_outs (c : Dev nD) : Gen.V5 m (outs m) c = Gen.V5 m (outs1 m) c := rfl

/-! ## A region's exit contents: its output arrays at what the write-backs leave, everything else as entered -/

theorem V2_v16_0 (o : Gen.Outs (F := F)) (c : Dev nD) : Gen.V2 m o c main_v16_0 = o 2 main_v16_0 c :=
  (Function.update_of_ne (StableHlo.devRef_ne_of_ne (by decide) : (Proc.devRef .tc main_v16_0 : DevRef τ sig) ≠ Proc.devRef .tc main_v16_1) _ _).trans
    (Function.update_self _ _ _)
theorem V2_v16_1 (o : Gen.Outs (F := F)) (c : Dev nD) : Gen.V2 m o c main_v16_1 = o 2 main_v16_1 c :=
  Function.update_self _ _ _
theorem V4_v20_0 (o : Gen.Outs (F := F)) (c : Dev nD) : Gen.V4 m o c main_v20_0 = o 4 main_v20_0 c :=
  (Function.update_of_ne (StableHlo.devRef_ne_of_ne (by decide) : (Proc.devRef .tc main_v20_0 : DevRef τ sig) ≠ Proc.devRef .tc main_v20_2) _ _).trans
    ((Function.update_of_ne (StableHlo.devRef_ne_of_ne (by decide) : (Proc.devRef .tc main_v20_0 : DevRef τ sig) ≠ Proc.devRef .tc main_v20_1) _ _).trans
      (Function.update_self _ _ _))
theorem V4_v20_1 (o : Gen.Outs (F := F)) (c : Dev nD) : Gen.V4 m o c main_v20_1 = o 4 main_v20_1 c :=
  (Function.update_of_ne (StableHlo.devRef_ne_of_ne (by decide) : (Proc.devRef .tc main_v20_1 : DevRef τ sig) ≠ Proc.devRef .tc main_v20_2) _ _).trans
    (Function.update_self _ _ _)
theorem V4_v20_2 (o : Gen.Outs (F := F)) (c : Dev nD) : Gen.V4 m o c main_v20_2 = o 4 main_v20_2 c :=
  Function.update_self _ _ _
theorem V6_v23_0 (o : Gen.Outs (F := F)) (c : Dev nD) : Gen.V6 m o c main_v23_0 = o 6 main_v23_0 c :=
  (Function.update_of_ne (StableHlo.devRef_ne_of_ne (by decide) : (Proc.devRef .tc main_v23_0 : DevRef τ sig) ≠ Proc.devRef .tc main_v23_1) _ _).trans
    (Function.update_self _ _ _)
theorem V6_v23_1 (o : Gen.Outs (F := F)) (c : Dev nD) : Gen.V6 m o c main_v23_1 = o 6 main_v23_1 c :=
  Function.update_self _ _ _

theorem leave0_arr (c : Dev nD) (w : Fin cfg0.W) :
    leave0 m c (Proc.devRef .tc (Pipeline.arrRef spec0 w)) = (dat0 (In0 m) c).arrAt w cfg0.N := by
  unfold leave0; exact Pipeline.withArrays_arr spec0 launch0.win.arr_inj c _ _ w
theorem leave1_arr (c : Dev nD) (w : Fin cfg1.W) :
    leave1 m c (Proc.devRef .tc (Pipeline.arrRef spec1 w)) = (dat1 (In1 m) c).arrAt w cfg1.N := by
  unfold leave1; exact Pipeline.withArrays_arr spec1 launch1.win.arr_inj c _ _ w
theorem leave2_arr (c : Dev nD) (w : Fin cfg2.W) :
    leave2 m c (Proc.devRef .tc (Pipeline.arrRef spec2 w)) = (dat2 (In2 m) c).arrAt w cfg2.N := by
  unfold leave2; exact Pipeline.withArrays_arr spec2 launch2.win.arr_inj c _ _ w

/-- At a region's exit an input array is as entered: no write-back touches it, and the region changes no buffer
    but its outputs. -/
theorem hF0_in (c : Dev nD) (w : Fin cfg0.W) (hw : (cfg0.win w).isOut = false)
    (hne : Pipeline.arrRef spec0 w ∉ ([main_v16_0, main_v16_1] : List (Ref sig .tc))) :
    (dat0 (In0 m) c).arrAt w cfg0.N = Gen.V2 m (outs0 m) c (Pipeline.arrRef spec0 w) :=
  (((dat0 (In0 m) c).arrAt_in w hw _).trans (A_eq0 (In0 m) c w)).trans (Gen.V2_of m (outs0 m) c _ hne).symm

set_option maxHeartbeats 4000000 in
/-- At the first region's exit each of its arrays holds what the pipeline leaves: an input array is as entered, an
    output array is the region's output by name. -/
theorem hF0 (c : Dev nD) (w : Fin cfg0.W) :
    (dat0 (In0 m) c).arrAt w cfg0.N = (fun b : Ref sig .tc => Gen.V2 m (outs0 m) c b) (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_in m c 3 rfl (by decide)
  | ⟨4, _⟩ => exact hF0_in m c 4 rfl (by decide)
  | ⟨5, _⟩ => exact hF0_in m c 5 rfl (by decide)
  | ⟨6, _⟩ => exact hF0_in m c 6 rfl (by decide)
  | ⟨7, _⟩ => exact (leave0_arr m c 7).symm.trans (V2_v16_0 m (outs0 m) c).symm
  | ⟨8, _⟩ => exact (leave0_arr m c 8).symm.trans (V2_v16_1 m (outs0 m) c).symm
/-- and every other buffer what it held at entry. -/
theorem hrest0 (c : Dev nD) : ∀ b : Ref sig .tc, b ∉ Finset.univ.image (Pipeline.arrRef spec0) → (fun b : Ref sig .tc => Gen.V2 m (outs0 m) c b) b = In0 m c b :=
  fun b hb => Gen.V2_of m (outs0 m) c b fun hmem => hb (by
    rcases List.mem_cons.1 hmem with rfl | hmem
    · exact Finset.mem_image.2 ⟨7, Finset.mem_univ _, rfl⟩
    · rcases List.mem_cons.1 hmem with rfl | hmem
      · exact Finset.mem_image.2 ⟨8, Finset.mem_univ _, rfl⟩
      · exact absurd hmem (List.not_mem_nil))

theorem hF1_in (c : Dev nD) (w : Fin cfg1.W) (hw : (cfg1.win w).isOut = false)
    (hne : Pipeline.arrRef spec1 w ∉ ([main_v20_0, main_v20_1, main_v20_2] : List (Ref sig .tc))) :
    (dat1 (In1 m) c).arrAt w cfg1.N = Gen.V4 m (outs1 m) c (Pipeline.arrRef spec1 w) :=
  (((dat1 (In1 m) c).arrAt_in w hw _).trans (A_eq1 (In1 m) c w)).trans
    ((Gen.V4_of m (outs1 m) c _ hne).trans (show Gen.V3 m (outs1 m) c (Pipeline.arrRef spec1 w) = In1 m c (Pipeline.arrRef spec1 w) from rfl)).symm

set_option maxHeartbeats 4000000 in
theorem hF1 (c : Dev nD) (w : Fin cfg1.W) :
    (dat1 (In1 m) c).arrAt w cfg1.N = (fun b : Ref sig .tc => Gen.V4 m (outs1 m) c b) (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact hF1_in m c 5 rfl (by decide)
  | ⟨6, _⟩ => exact hF1_in m c 6 rfl (by decide)
  | ⟨7, _⟩ => exact hF1_in m c 7 rfl (by decide)
  | ⟨8, _⟩ => exact hF1_in m c 8 rfl (by decide)
  | ⟨9, _⟩ => exact hF1_in m c 9 rfl (by decide)
  | ⟨10, _⟩ => exact (leave1_arr m c 10).symm.trans (V4_v20_0 m (outs1 m) c).symm
  | ⟨11, _⟩ => exact (leave1_arr m c 11).symm.trans (V4_v20_1 m (outs1 m) c).symm
  | ⟨12, _⟩ => exact (leave1_arr m c 12).symm.trans (V4_v20_2 m (outs1 m) c).symm
theorem hrest1 (c : Dev nD) : ∀ b : Ref sig .tc, b ∉ Finset.univ.image (Pipeline.arrRef spec1) → (fun b : Ref sig .tc => Gen.V4 m (outs1 m) c b) b = In1 m c b :=
  fun b hb => Gen.V4_of m (outs1 m) c b fun hmem => hb (by
    rcases List.mem_cons.1 hmem with rfl | hmem
    · exact Finset.mem_image.2 ⟨10, Finset.mem_univ _, rfl⟩
    · rcases List.mem_cons.1 hmem with rfl | hmem
      · exact Finset.mem_image.2 ⟨11, Finset.mem_univ _, rfl⟩
      · rcases List.mem_cons.1 hmem with rfl | hmem
        · exact Finset.mem_image.2 ⟨12, Finset.mem_univ _, rfl⟩
        · exact absurd hmem (List.not_mem_nil))

theorem hF2_in (c : Dev nD) (w : Fin cfg2.W) (hw : (cfg2.win w).isOut = false)
    (hne : Pipeline.arrRef spec2 w ∉ ([main_v23_0, main_v23_1] : List (Ref sig .tc))) :
    (dat2 (In2 m) c).arrAt w cfg2.N = Gen.V6 m (outs m) c (Pipeline.arrRef spec2 w) :=
  (((dat2 (In2 m) c).arrAt_in w hw _).trans (A_eq2 (In2 m) c w)).trans
    ((Gen.V6_of m (outs m) c _ hne).trans (show Gen.V5 m (outs m) c (Pipeline.arrRef spec2 w) = In2 m c (Pipeline.arrRef spec2 w) from rfl)).symm

set_option maxHeartbeats 4000000 in
theorem hF2 (c : Dev nD) (w : Fin cfg2.W) :
    (dat2 (In2 m) c).arrAt w cfg2.N = (fun b : Ref sig .tc => Gen.V6 m (outs m) c b) (Pipeline.arrRef spec2 w) := by
  match w with
  | ⟨0, _⟩ => exact hF2_in m c 0 rfl (by decide)
  | ⟨1, _⟩ => exact hF2_in m c 1 rfl (by decide)
  | ⟨2, _⟩ => exact hF2_in m c 2 rfl (by decide)
  | ⟨3, _⟩ => exact hF2_in m c 3 rfl (by decide)
  | ⟨4, _⟩ => exact hF2_in m c 4 rfl (by decide)
  | ⟨5, _⟩ => exact hF2_in m c 5 rfl (by decide)
  | ⟨6, _⟩ => exact hF2_in m c 6 rfl (by decide)
  | ⟨7, _⟩ => exact (leave2_arr m c 7).symm.trans (V6_v23_0 m (outs m) c).symm
  | ⟨8, _⟩ => exact (leave2_arr m c 8).symm.trans (V6_v23_1 m (outs m) c).symm
theorem hrest2 (c : Dev nD) : ∀ b : Ref sig .tc, b ∉ Finset.univ.image (Pipeline.arrRef spec2) → (fun b : Ref sig .tc => Gen.V6 m (outs m) c b) b = In2 m c b :=
  fun b hb => (Gen.V6_of m (outs m) c b fun hmem => hb (by
    rcases List.mem_cons.1 hmem with rfl | hmem
    · exact Finset.mem_image.2 ⟨7, Finset.mem_univ _, rfl⟩
    · rcases List.mem_cons.1 hmem with rfl | hmem
      · exact Finset.mem_image.2 ⟨8, Finset.mem_univ _, rfl⟩
      · exact absurd hmem (List.not_mem_nil))).trans rfl

/-! ## The proof data family, the thread state, the regions as segments -/

/-- Every pipeline's proof data, each at its region's entry contents. -/
def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev 𝒱0 : Variants := Variants.none
/-- No core owes another anything: no level is assigned. -/
abbrev L0 : GSem nD τ sig → Finset Unit := fun _ => ∅
abbrev lv0 : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at
    some state, nothing owed": its arrays are split out of the unscoped buffers at entry and put back, at what the
    write-backs leave, at exit; the generator register goes into the pipeline's invariant and comes back. -/
def reg0 : Pipeline.RegionSeg (pcfgs (F := F)) Gen.adm (pdats m) () defs₀ 𝒱0 L0 lv0 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L0 lv0 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs0 m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (fun b => Gen.V2 m (outs0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers at entry and put back, at what the
    write-backs leave, at exit; the generator register goes into the pipeline's invariant and comes back. -/
def reg1 : Pipeline.RegionSeg (pcfgs (F := F)) Gen.adm (pdats m) () defs₀ 𝒱0 L0 lv0 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L0 lv0 1 fun _ _ => rfl
  pre c := iprop(StableHlo.held (c : Thread nD τ) (Pipeline.ucRefs τ sig) (Gen.V3 m (outs0 m) c) ∗ Rest c)
  post c := iprop(StableHlo.held (c : Thread nD τ) (Pipeline.ucRefs τ sig) (Gen.V4 m (outs1 m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (fun b => Gen.V4 m (outs1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": its arrays are split out of the unscoped buffers at entry and put back, at what the
    write-backs leave, at exit; the generator register goes into the pipeline's invariant and comes back. -/
def reg2 : Pipeline.RegionSeg (pcfgs (F := F)) Gen.adm (pdats m) () defs₀ 𝒱0 L0 lv0 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L0 lv0 2 fun _ _ => rfl
  pre c := iprop(StableHlo.held (c : Thread nD τ) (Pipeline.ucRefs τ sig) (Gen.V5 m (outs1 m) c) ∗ Rest c)
  post c := iprop(StableHlo.held (c : Thread nD τ) (Pipeline.ucRefs τ sig) (Gen.V6 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (In2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (In2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates without a fault, and every
    argument array ends as launched. -/
def frame (ρ : Dev nD → PrngReg) :=
  Gen.frame_cond m (emb₁ (sig := sig) (nD := nD) (τ := τ)) () 𝒱0 L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.KernelIdeal.Frame

end
-- ==== Proof.KI.RunValues.lean ====
/-
  The run of the whole program with its results named: every weakly fair execution terminates without a fault and
  ends with every unscoped buffer — the three results among them — at the last boundary's contents, the fold of
  @main's host stretches and regions from the launch memory.
-/
import proofs.«139850_j32306744000652_2_alg».proof.Proof.KI.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The run with every unscoped buffer's final contents named. -/
theorem run_values (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m) c b) := by
  refine Pipeline.θ_run_regions_kit_dev (pcfgs (F := F)) Gen.adm (pdats m) () cellOf_inj (emb₁ (sig := sig) (nD := nD) (τ := τ)) defs₀ 𝒱0 L0 lv0 m ρ main
    (Gen.segs m (outs m) 𝒱0 L0 lv0 (fun _ c => Rest c) () (pdats m) (reg0 m) (reg1 m) (reg2 m))
    (fun c Q => by
      rewrite [main_chain c, Seg.run_eq_chain,
        show (Gen.segs m (outs m) 𝒱0 L0 lv0 (fun _ c => Rest c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [Gen.segs, Seg.pipes_host, Seg.pipes_region, Seg.pipes_nil]; decide) (O₀ := 0) (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, .rfl, .rfl,
      sep_mono .rfl (show (Rest c : sProp 𝕄) ⊢ iprop(∃ W, owes (c : Thread nD τ) (0 : CellTallies nD τ sig Unit) W) from by
        iintro ⟨-, HO⟩
        iexact HO)⟩)
    (hinit := by
      refine Pipeline.initEach L0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V13 m (outs m) c b)
    (hfin := fun c s' => by
      iintro ⟨Hh, HSI⟩
      unfold StableHlo.held
      imodintro
      iapply (pointsTo_read_all (Pipeline.ucRefs τ sig) (fun b => (((c : Thread nD τ)).1, b)) (Gen.V13 m (outs m) c) s')
      isplitl [Hh] <;> iassumption)
    (hQ := fun _ h => h)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frame

end
-- ==== Proof.Spec.lean ====
/-
  One projection head of the dense stage, as a function of whole arrays on the extended reals.
  For a feature array `x` of `n` rows and 64 columns, two 64×64 weight blocks `w1`, `w2` and a bias row `b`,
  entry `(r, j)` of the head is
      ∑ₖ x[r,k]·w1[k,j]  +  ∑ₖ (x[r,k]·x[r,k])·w2[k,j]  +  b[0,j].
  Both programs compute this: one as two 64-deep products added, the other as one 128-deep product of the
  row `[x, x²]` with the stacked weights.
-/
import Idealize.ShloMosaic.PureOps.Ideal
import Idealize.ShloMosaic.Lib.ValueIdx

noncomputable section

namespace Cert.Spec

open Idealize.ShloMosaic Idealize.ShloMosaic.ValueIdx

/-- Entry `(r, j)` of a projection head over explicit coordinates. -/
def headAt {n : Nat} (x : (⟨2, ![n, 64]⟩ : Shape).Idx → EReal) (w1 w2 : (⟨2, ![64, 64]⟩ : Shape).Idx → EReal)
    (b : (⟨2, ![1, 64]⟩ : Shape).Idx → EReal) (r : Fin n) (j : Fin 64) : EReal :=
  ((∑ k : Fin 64, x (ix2 r k) * w1 (ix2 k j)) + (∑ k : Fin 64, (x (ix2 r k) * x (ix2 r k)) * w2 (ix2 k j)))
    + b (ix2 (0 : Fin 1) j)

/-- The projection head as a whole array. -/
def head {n : Nat} (x : (⟨2, ![n, 64]⟩ : Shape).Idx → EReal) (w1 w2 : (⟨2, ![64, 64]⟩ : Shape).Idx → EReal)
    (b : (⟨2, ![1, 64]⟩ : Shape).Idx → EReal) : (⟨2, ![n, 64]⟩ : Shape).Idx → EReal :=
  fun i => headAt x w1 w2 b (i 0) (i 1)

theorem head_ix2 {n : Nat} (x : (⟨2, ![n, 64]⟩ : Shape).Idx → EReal) (w1 w2 : (⟨2, ![64, 64]⟩ : Shape).Idx → EReal)
    (b : (⟨2, ![1, 64]⟩ : Shape).Idx → EReal) (r : Fin n) (j : Fin 64) :
    head x w1 w2 b (ix2 r j) = headAt x w1 w2 b r j := rfl

end Cert.Spec

end
-- ==== Proof.KI.HeadRows.lean ====
/-
  Two facts the three dense regions' value proofs share.

  A projection head's entry (p, q) reads only row p of the features. So when a block's row p is row r of a taller
  array, and the block's weights and bias are the arrays' own, the block's head at (p, q) is the taller array's head
  at (r, q). And the zero offset of a whole-buffer access, as a function.
-/
import proofs.«139850_j32306744000652_2_alg».proof.Proof.Spec
import Idealize.ShloMosaic.Lib.ValueIdx

noncomputable section

namespace Cert.KernelIdeal.Frame

open Idealize.ShloMosaic Idealize.ShloMosaic.ValueIdx

theorem zeroOff : (![0, 0] : Fin 2 → Nat) = fun _ => 0 := funext fun a => by fin_cases a <;> rfl

/-- A block's head entry, when the block's row is a row of a taller array and its weights and bias are the
    arrays' own: the same entry of the taller array's head. -/
theorem headAt_of_rows {n N : Nat} (x : (⟨2, ![n, 64]⟩ : Shape).Idx → EReal) (X : (⟨2, ![N, 64]⟩ : Shape).Idx → EReal)
    (w1 w2 W1 W2 : (⟨2, ![64, 64]⟩ : Shape).Idx → EReal) (b B : (⟨2, ![1, 64]⟩ : Shape).Idx → EReal)
    (p : Fin n) (r : Fin N) (q : Fin 64) (hx : ∀ k : Fin 64, x (ix2 p k) = X (ix2 r k))
    (hw1 : w1 = W1) (hw2 : w2 = W2) (hb : b = B) :
    Cert.Spec.headAt x w1 w2 b p q = Cert.Spec.headAt X W1 W2 B r q := by
  subst hw1 hw2 hb
  unfold Cert.Spec.headAt
  simp only [hx]

end Cert.KernelIdeal.Frame

end
-- ==== Proof.HeadPayload.lean ====
/-
  The arithmetic one grid point performs for one projection head, read entry by entry on the extended reals.
  A block of 5000 rows x, two 64×64 weight blocks w1, w2 and a bias row b give the block whose entry (p, q) is
      ∑ₖ x[p,k]·w1[k,q]  +  ∑ₖ (x[p,k]·x[p,k])·w2[k,q]  +  b[0,q]:
  the two matrix products accumulate into zero, the change of float format is the identity on the extended reals,
  a cast of a shape to itself is the identity, and the bias row is repeated down the rows.
-/
import proofs.«139850_j32306744000652_2_alg».proof.Proof.Gen.KernelIdeal.Skeleton
import proofs.«139850_j32306744000652_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HeadValue

open Idealize.ShloMosaic Idealize.ShloMosaic.ValueIdx Cert.KernelIdeal Cert.KernelIdeal.Gen

/-- The dimension numbers of the block product: rows of the left operand against columns of the right one. -/
abbrev dotD : DotDims S5000x64 S64x64 S5000x64 := dot_S5000x64_S64x64_S5000x64_1_0_0_1_n_n

theorem lhs_row (i : S5000x64.Idx) (k : dotD.contr.Idx) : (dotD.lhsIdx i k 0).val = (i 0).val := by
  unfold DotDims.lhsIdx
  rw [dif_neg (show ¬(0 : Fin S5000x64.rank) ∈ dotD.lhsBatch by decide),
    dif_pos (show (0 : Fin S5000x64.rank) ∈ dotD.lhsNonContracting by decide)]
  rfl

theorem lhs_col (i : S5000x64.Idx) (k : dotD.contr.Idx) : (dotD.lhsIdx i k 1).val = (k ⟨0, by decide⟩).val :=
  dotD.lhsIdx_val_of_single rfl i k

theorem rhs_row (i : S5000x64.Idx) (k : dotD.contr.Idx) : (dotD.rhsIdx i k 0).val = (k ⟨0, by decide⟩).val :=
  dotD.rhsIdx_val_of_single rfl i k

theorem rhs_col (i : S5000x64.Idx) (k : dotD.contr.Idx) : (dotD.rhsIdx i k 1).val = (i 1).val := by
  unfold DotDims.rhsIdx
  rw [dif_neg (show ¬(1 : Fin S64x64.rank) ∈ dotD.rhsBatch by decide),
    dif_pos (show (1 : Fin S64x64.rank) ∈ dotD.rhsNonContracting by decide)]
  rfl

/-- A block product into the zero accumulator, at entry (p, q): the sum over the 64 shared coordinates. -/
theorem matmul_at {φ₁ φ₂ : FTy} (xa : FVec Ideal S5000x64 φ₁) (w : FVec Ideal S64x64 φ₂) (p : Fin 5000) (q : Fin 64) :
    matmul (F := Ideal) dot_S5000x64_S64x64_S5000x64_1_0_0_1_n_n none xa w (constant (F := Ideal) S5000x64 .f32 0x00000000#32) (ix2 p q)
      = ∑ k : Fin 64, xa (ix2 p k) * w (ix2 k q) := by
  refine (Ideal.matmul_constant_zero_apply dotD none xa w (ix2 p q)).trans ?_
  rw [← Equiv.sum_comp (contrEquiv1 dotD 64 rfl rfl).symm]
  refine Finset.sum_congr rfl fun k _ => ?_
  have hk := contrEquiv1_symm_val dotD 64 rfl rfl k
  have el : dotD.lhsIdx (ix2 p q) ((contrEquiv1 dotD 64 rfl rfl).symm k) = ix2 p k := funext fun a => Fin.ext (by
    match a with
    | ⟨0, _⟩ => exact lhs_row _ _
    | ⟨1, _⟩ => exact (lhs_col _ _).trans hk)
  have er : dotD.rhsIdx (ix2 p q) ((contrEquiv1 dotD 64 rfl rfl).symm k) = ix2 k q := funext fun a => Fin.ext (by
    match a with
    | ⟨0, _⟩ => exact (rhs_row _ _).trans hk
    | ⟨1, _⟩ => exact rhs_col _ _)
  rw [el, er]

/-- The arithmetic of one head over the two left operands xa (the rows) and xb (their squares), as the printed
    payloads spell it. -/
def core (xa xb : FVec Ideal S5000x64 .bf16) (w1 w2 : Vec Ideal S64x64 .f32) (b : Vec Ideal S1x64 .f32) :
    FVec Ideal S5000x64 .bf16 :=
  truncf .bf16
    (addf
      (addf
        (matmul dot_S5000x64_S64x64_S5000x64_1_0_0_1_n_n none xa
          (truncf .bf16 (shapeCast S64x64 w1 shapeCasts_S64x64_S64x64) bitsLt_bf16_f32) (constant S5000x64 .f32 0x00000000#32))
        (matmul dot_S5000x64_S64x64_S5000x64_1_0_0_1_n_n none xb
          (truncf .bf16 (shapeCast S64x64 w2 shapeCasts_S64x64_S64x64) bitsLt_bf16_f32) (constant S5000x64 .f32 0x00000000#32)))
      (broadcastTo S5000x64 (shapeCast S1x64 b shapeCasts_S1x64_S1x64) broadcasts_S1x64_S5000x64))
    bitsLt_bf16_f32

theorem core_at (xa xb : FVec Ideal S5000x64 .bf16) (w1 w2 : Vec Ideal S64x64 .f32) (b : Vec Ideal S1x64 .f32)
    (p : Fin 5000) (q : Fin 64) :
    core xa xb w1 w2 b (ix2 p q)
      = ((∑ k : Fin 64, xa (ix2 p k) * w1 (ix2 k q)) + (∑ k : Fin 64, xb (ix2 p k) * w2 (ix2 k q))) + b (ix2 (0 : Fin 1) q) := by
  unfold core
  rw [truncf_apply, addf_apply, addf_apply, matmul_at, matmul_at, shapeCast_self, shapeCast_self, shapeCast_self,
    broadcastTo_1b_ab_apply]
  rfl

/-- The change of float format is the identity on the extended reals: the rows as the products read them. -/
theorem rows_at (x0 : Vec Ideal S5000x64 .f32) (p : Fin 5000) (k : Fin 64) :
    k0_pay1 (F := Ideal) x0 (ix2 p k) = x0 (ix2 p k) := rfl

/-- The squared rows as the products read them. -/
theorem squares_at (x0 : Vec Ideal S5000x64 .f32) (p : Fin 5000) (k : Fin 64) :
    k0_pay2 (F := Ideal) x0 (ix2 p k) = x0 (ix2 p k) * x0 (ix2 p k) := rfl

/-- The arithmetic over the rows and their squares is the head's entry. -/
theorem core_rows_squares_at (x0 : Vec Ideal S5000x64 .f32) (w1 w2 : Vec Ideal S64x64 .f32) (b : Vec Ideal S1x64 .f32)
    (p : Fin 5000) (q : Fin 64) :
    core (k0_pay1 x0) (k0_pay2 x0) w1 w2 b (ix2 p q) = Cert.Spec.headAt (n := 5000) x0 w1 w2 b p q := by
  rw [core_at]
  rfl

/-! ## The seven payloads -/

theorem k0_pay3_at (x0 : Vec Ideal S5000x64 .f32) (w1 w2 : Vec Ideal S64x64 .f32) (b : Vec Ideal S1x64 .f32)
    (p : Fin 5000) (q : Fin 64) :
    k0_pay3 (F := Ideal) x0 w1 w2 b (ix2 p q) = Cert.Spec.headAt (n := 5000) x0 w1 w2 b p q :=
  core_rows_squares_at x0 w1 w2 b p q

theorem k0_pay4_at (x0 : Vec Ideal S5000x64 .f32) (w1 w2 : Vec Ideal S64x64 .f32) (b : Vec Ideal S1x64 .f32)
    (p : Fin 5000) (q : Fin 64) :
    k0_pay4 (F := Ideal) x0 w1 w2 b (ix2 p q) = Cert.Spec.headAt (n := 5000) x0 w1 w2 b p q :=
  core_rows_squares_at x0 w1 w2 b p q

theorem k1_pay1_at (x0 : Vec Ideal S5000x64 .f32) (w1 w2 : Vec Ideal S64x64 .f32) (b : Vec Ideal S1x64 .f32)
    (p : Fin 5000) (q : Fin 64) :
    k1_pay1 (F := Ideal) (k1_pay2 x0) (k1_pay3 x0) w1 w2 b (ix2 p q) = Cert.Spec.headAt (n := 5000) x0 w1 w2 b p q :=
  core_rows_squares_at x0 w1 w2 b p q

theorem k1_pay4_at (x0 : Vec Ideal S5000x64 .f32) (w1 w2 : Vec Ideal S64x64 .f32) (b : Vec Ideal S1x64 .f32)
    (p : Fin 5000) (q : Fin 64) :
    k1_pay4 (F := Ideal) x0 w1 w2 b (ix2 p q) = Cert.Spec.headAt (n := 5000) x0 w1 w2 b p q :=
  core_rows_squares_at x0 w1 w2 b p q

theorem k1_pay5_at (x0 : Vec Ideal S5000x64 .f32) (w1 w2 : Vec Ideal S64x64 .f32) (b : Vec Ideal S1x64 .f32)
    (p : Fin 5000) (q : Fin 64) :
    k1_pay5 (F := Ideal) x0 w1 w2 b (ix2 p q) = Cert.Spec.headAt (n := 5000) x0 w1 w2 b p q :=
  core_rows_squares_at x0 w1 w2 b p q

theorem k2_pay3_at (x0 : Vec Ideal S5000x64 .f32) (w1 w2 : Vec Ideal S64x64 .f32) (b : Vec Ideal S1x64 .f32)
    (p : Fin 5000) (q : Fin 64) :
    k2_pay3 (F := Ideal) x0 w1 w2 b (ix2 p q) = Cert.Spec.headAt (n := 5000) x0 w1 w2 b p q :=
  core_rows_squares_at x0 w1 w2 b p q

theorem k2_pay4_at (x0 : Vec Ideal S5000x64 .f32) (w1 w2 : Vec Ideal S64x64 .f32) (b : Vec Ideal S1x64 .f32)
    (p : Fin 5000) (q : Fin 64) :
    k2_pay4 (F := Ideal) x0 w1 w2 b (ix2 p q) = Cert.Spec.headAt (n := 5000) x0 w1 w2 b p q :=
  core_rows_squares_at x0 w1 w2 b p q

/-! ## As whole blocks -/

theorem k0_pay3_eq (x0 : Vec Ideal S5000x64 .f32) (w1 w2 : Vec Ideal S64x64 .f32) (b : Vec Ideal S1x64 .f32) :
    k0_pay3 (F := Ideal) x0 w1 w2 b = Cert.Spec.head (n := 5000) x0 w1 w2 b :=
  funext fun j => by rw [eq_ix2 j]; exact k0_pay3_at x0 w1 w2 b (j 0) (j 1)

theorem k0_pay4_eq (x0 : Vec Ideal S5000x64 .f32) (w1 w2 : Vec Ideal S64x64 .f32) (b : Vec Ideal S1x64 .f32) :
    k0_pay4 (F := Ideal) x0 w1 w2 b = Cert.Spec.head (n := 5000) x0 w1 w2 b :=
  funext fun j => by rw [eq_ix2 j]; exact k0_pay4_at x0 w1 w2 b (j 0) (j 1)

theorem k1_pay1_eq (x0 : Vec Ideal S5000x64 .f32) (w1 w2 : Vec Ideal S64x64 .f32) (b : Vec Ideal S1x64 .f32) :
    k1_pay1 (F := Ideal) (k1_pay2 x0) (k1_pay3 x0) w1 w2 b = Cert.Spec.head (n := 5000) x0 w1 w2 b :=
  funext fun j => by rw [eq_ix2 j]; exact k1_pay1_at x0 w1 w2 b (j 0) (j 1)

theorem k1_pay4_eq (x0 : Vec Ideal S5000x64 .f32) (w1 w2 : Vec Ideal S64x64 .f32) (b : Vec Ideal S1x64 .f32) :
    k1_pay4 (F := Ideal) x0 w1 w2 b = Cert.Spec.head (n := 5000) x0 w1 w2 b :=
  funext fun j => by rw [eq_ix2 j]; exact k1_pay4_at x0 w1 w2 b (j 0) (j 1)

theorem k1_pay5_eq (x0 : Vec Ideal S5000x64 .f32) (w1 w2 : Vec Ideal S64x64 .f32) (b : Vec Ideal S1x64 .f32) :
    k1_pay5 (F := Ideal) x0 w1 w2 b = Cert.Spec.head (n := 5000) x0 w1 w2 b :=
  funext fun j => by rw [eq_ix2 j]; exact k1_pay5_at x0 w1 w2 b (j 0) (j 1)

theorem k2_pay3_eq (x0 : Vec Ideal S5000x64 .f32) (w1 w2 : Vec Ideal S64x64 .f32) (b : Vec Ideal S1x64 .f32) :
    k2_pay3 (F := Ideal) x0 w1 w2 b = Cert.Spec.head (n := 5000) x0 w1 w2 b :=
  funext fun j => by rw [eq_ix2 j]; exact k2_pay3_at x0 w1 w2 b (j 0) (j 1)

theorem k2_pay4_eq (x0 : Vec Ideal S5000x64 .f32) (w1 w2 : Vec Ideal S64x64 .f32) (b : Vec Ideal S1x64 .f32) :
    k2_pay4 (F := Ideal) x0 w1 w2 b = Cert.Spec.head (n := 5000) x0 w1 w2 b :=
  funext fun j => by rw [eq_ix2 j]; exact k2_pay4_at x0 w1 w2 b (j 0) (j 1)

end Cert.KernelIdeal.HeadValue

end
-- ==== Proof.KI.RegionValue0.lean ====
/-
  The value of dense region 0: after the region each output array is the projection head (the shared
  specification) of the feature array, the head's two weight arrays and its bias row, as the region finds them.

  A point t of the grid handles rows 5000·t … 5000·t + 4999: the feature block and the output blocks sit at block
  (t, 0) of their arrays, the weight and bias blocks are the whole arrays (block (0, 0)). So the head of the blocks at
  point t is block t of the head of the arrays (an entry of a head depends on its own row of the features only), every
  row r lies in the block of point r / 5000, and the blocks written back assemble the head of the whole arrays.
-/
import proofs.«139850_j32306744000652_2_alg».proof.Proof.KI.Region0
import proofs.«139850_j32306744000652_2_alg».proof.Proof.KI.HeadRows
import proofs.«139850_j32306744000652_2_alg».proof.Proof.HeadPayload
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Region 0: 20 points of 5000 rows over the 100000-row array -/

theorem lt_pts0 (t : Fin cfg0.N) : t.val < 20 := by
  have h := t.isLt
  have hN : cfg0.N = 20 := N_0
  omega

/-! The block indices of the region's windows, decided over the grid: the feature window and the output windows are
    at block (t, 0), the weight and bias windows at block (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)

/-- Entry (p, k) of the feature block at point t is row 5000·t + p of the array. -/
theorem blk0_0_at (X : S100000x64.Idx → Elt Ideal .f32) (t : Fin cfg0.N) (p : Fin 5000) (k : Fin 64) :
    ((cfg0.win 0).blk t).view.read (Elt Ideal) X (ix2 p k) = X (ix2 (⟨t.val * 5000 + p.val, by have := lt_pts0 t; omega⟩ : Fin 100000) k) := by
  show X (((cfg0.win 0).blk t).view.emb (ix2 p k)) = X _
  refine congrArg X (funext fun a => Fin.ext ?_)
  obtain ⟨e0, e1⟩ := idx0_0 t
  match a with
  | ⟨0, _⟩ => show win0_0.index t (0 : Fin 2) * 5000 + 1 * p.val = t.val * 5000 + p.val; omega
  | ⟨1, _⟩ => show win0_0.index t (1 : Fin 2) * 64 + 1 * k.val = k.val; omega

/-! A weight or bias block is its whole array: its block index is (0, 0) at every point. -/
theorem blk0_1_eq (X : S64x64.Idx → Elt Ideal .f32) (t : Fin cfg0.N) : ((cfg0.win 1).blk t).view.read (Elt Ideal) X = X := by
  funext y
  show X (((cfg0.win 1).blk t).view.emb y) = X y
  refine congrArg X (funext fun a => Fin.ext ?_)
  obtain ⟨e0, e1⟩ := idx0_1 t
  match a with
  | ⟨0, _⟩ => show win0_1.index t (0 : Fin 2) * 64 + 1 * (y 0).val = (y 0).val; omega
  | ⟨1, _⟩ => show win0_1.index t (1 : Fin 2) * 64 + 1 * (y 1).val = (y 1).val; omega
theorem blk0_2_eq (X : S64x64.Idx → Elt Ideal .f32) (t : Fin cfg0.N) : ((cfg0.win 2).blk t).view.read (Elt Ideal) X = X := by
  funext y
  show X (((cfg0.win 2).blk t).view.emb y) = X y
  refine congrArg X (funext fun a => Fin.ext ?_)
  obtain ⟨e0, e1⟩ := idx0_2 t
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem blk0_3_eq (X : S1x64.Idx → Elt Ideal .f32) (t : Fin cfg0.N) : ((cfg0.win 3).blk t).view.read (Elt Ideal) X = X := by
  funext y
  show X (((cfg0.win 3).blk t).view.emb y) = X y
  refine congrArg X (funext fun a => Fin.ext ?_)
  obtain ⟨e0, e1⟩ := idx0_3 t
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem blk0_4_eq (X : S64x64.Idx → Elt Ideal .f32) (t : Fin cfg0.N) : ((cfg0.win 4).blk t).view.read (Elt Ideal) X = X := by
  funext y
  show X (((cfg0.win 4).blk t).view.emb y) = X y
  refine congrArg X (funext fun a => Fin.ext ?_)
  obtain ⟨e0, e1⟩ := idx0_4 t
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem blk0_5_eq (X : S64x64.Idx → Elt Ideal .f32) (t : Fin cfg0.N) : ((cfg0.win 5).blk t).view.read (Elt Ideal) X = X := by
  funext y
  show X (((cfg0.win 5).blk t).view.emb y) = X y
  refine congrArg X (funext fun a => Fin.ext ?_)
  obtain ⟨e0, e1⟩ := idx0_5 t
  match a with
  | ⟨0, _⟩ => show win0_5.index t (0 : Fin 2) * 64 + 1 * (y 0).val = (y 0).val; omega
  | ⟨1, _⟩ => show win0_5.index t (1 : Fin 2) * 64 + 1 * (y 1).val = (y 1).val; omega
theorem blk0_6_eq (X : S1x64.Idx → Elt Ideal .f32) (t : Fin cfg0.N) : ((cfg0.win 6).blk t).view.read (Elt Ideal) X = X := by
  funext y
  show X (((cfg0.win 6).blk t).view.emb y) = X y
  refine congrArg X (funext fun a => Fin.ext ?_)
  obtain ⟨e0, e1⟩ := idx0_6 t
  match a with
  | ⟨0, _⟩ => show win0_6.index t (0 : Fin 2) * 1 + 1 * (y 0).val = (y 0).val; omega
  | ⟨1, _⟩ => show win0_6.index t (1 : Fin 2) * 64 + 1 * (y 1).val = (y 1).val; omega

/-! ### Output window 7 -/

/-- Entry (p, q) of the output block at point t sits at row 5000·t + p of the output array. -/
theorem emb0_7 (t : Fin cfg0.N) (p : Fin 5000) (q : Fin 64) :
    ((cfg0.win 7).blk t).view.emb (ix2 p q) = ix2 (⟨t.val * 5000 + p.val, by have := lt_pts0 t; omega⟩ : Fin 100000) q := by
  refine funext fun a => Fin.ext ?_
  obtain ⟨e0, e1⟩ := idx0_7 t
  match a with
  | ⟨0, _⟩ => show win0_7.index t (0 : Fin 2) * 5000 + 1 * p.val = t.val * 5000 + p.val; omega
  | ⟨1, _⟩ => show win0_7.index t (1 : Fin 2) * 64 + 1 * q.val = q.val; omega

/-- The head of the blocks at point t is block t of the head of the arrays. -/
theorem headBlock0_7 (X : S100000x64.Idx → Elt Ideal .f32) (W1 W2 : S64x64.Idx → Elt Ideal .f32) (B : S1x64.Idx → Elt Ideal .f32)
    (t : Fin cfg0.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts0 t; omega⟩ : Fin 100000) k))
    (hw1 : w1 = W1) (hw2 : w2 = W2) (hb : b = B) :
    (Cert.Spec.head (n := 5000) x w1 w2 b : S5000x64.Idx → Elt Ideal .bf16)
      = ((cfg0.win 7).blk t).view.read (Elt Ideal) (Cert.Spec.head (n := 100000) X W1 W2 B : S100000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 100000) X W1 W2 B (((cfg0.win 7).blk t).view.emb (ix2 p q))
  rw [emb0_7 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk0_7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v16_0).slice (win0_7.rect t)).set ↔ _
  rw [View.set_slice_whole, Rect.mem_set_unit]
  exact Iff.rfl

/-- Every row of the output array is in the block of the point that handles it: row r is in block r / 5000. -/
theorem cover0_7 (i : S100000x64.Idx) : ∃ t : Fin cfg0.N, (cfg0.win 7).flush t = true ∧ i ∈ ((cfg0.win 7).blk t).view.set := by
  have h0 : (i 0).val < 100000 := (i 0).isLt
  have h1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  refine ⟨t, flush0_7 t, ?_⟩
  rw [mem_blk0_7]
  obtain ⟨e0, e1⟩ := idx0_7 t
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-! ### Output window 8 -/

/-- Entry (p, q) of the output block at point t sits at row 5000·t + p of the output array. -/
theorem emb0_8 (t : Fin cfg0.N) (p : Fin 5000) (q : Fin 64) :
    ((cfg0.win 8).blk t).view.emb (ix2 p q) = ix2 (⟨t.val * 5000 + p.val, by have := lt_pts0 t; omega⟩ : Fin 100000) q := by
  refine funext fun a => Fin.ext ?_
  obtain ⟨e0, e1⟩ := idx0_8 t
  match a with
  | ⟨0, _⟩ => show win0_8.index t (0 : Fin 2) * 5000 + 1 * p.val = t.val * 5000 + p.val; omega
  | ⟨1, _⟩ => show win0_8.index t (1 : Fin 2) * 64 + 1 * q.val = q.val; omega

/-- The head of the blocks at point t is block t of the head of the arrays. -/
theorem headBlock0_8 (X : S100000x64.Idx → Elt Ideal .f32) (W1 W2 : S64x64.Idx → Elt Ideal .f32) (B : S1x64.Idx → Elt Ideal .f32)
    (t : Fin cfg0.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts0 t; omega⟩ : Fin 100000) k))
    (hw1 : w1 = W1) (hw2 : w2 = W2) (hb : b = B) :
    (Cert.Spec.head (n := 5000) x w1 w2 b : S5000x64.Idx → Elt Ideal .bf16)
      = ((cfg0.win 8).blk t).view.read (Elt Ideal) (Cert.Spec.head (n := 100000) X W1 W2 B : S100000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 100000) X W1 W2 B (((cfg0.win 8).blk t).view.emb (ix2 p q))
  rw [emb0_8 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk0_8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v16_1).slice (win0_8.rect t)).set ↔ _
  rw [View.set_slice_whole, Rect.mem_set_unit]
  exact Iff.rfl

/-- Every row of the output array is in the block of the point that handles it: row r is in block r / 5000. -/
theorem cover0_8 (i : S100000x64.Idx) : ∃ t : Fin cfg0.N, (cfg0.win 8).flush t = true ∧ i ∈ ((cfg0.win 8).blk t).view.set := by
  have h0 : (i 0).val < 100000 := (i 0).isLt
  have h1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  refine ⟨t, flush0_8 t, ?_⟩
  rw [mem_blk0_8]
  obtain ⟨e0, e1⟩ := idx0_8 t
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-! ## The region's output arrays -/

section Arrays
variable (V : (c : Dev nD) → (b : Ref sig .tc) → Buf (Elt Ideal) ((c : Thread nD τ).loc b))

/-- What point t writes back to output 7 is block t of the head of the arrays the region finds. -/
theorem flushed0_7 (c : Dev nD) (t : Fin cfg0.N) :
    (dat0 V c).flushed 7 t = ((cfg0.win 7).blk t).view.read (Elt Ideal)
      (Cert.Spec.head (n := 100000) (V c main_arg0) (V c main_v0) (V c main_v1) (V c main_v14)) := by
  show (cfg0.win 7).cut (grid0.coords t) ((dat0 V c).after 7 t) = _
  rw [after0_7]
  unfold out0_7
  rw [View.canon_unit_zero zeroOff]
  simp only [View.ld_unit_zero (S := S5000x64) zeroOff, View.ld_unit_zero (S := S64x64) zeroOff,
    View.ld_unit_zero (S := S1x64) zeroOff]
  rw [HeadValue.k0_pay3_eq]
  funext j
  exact congrFun (headBlock0_7 (V c main_arg0) (V c main_v0) (V c main_v1) (V c main_v14) t
    (iblk0 V c 0 t) (iblk0 V c 1 t) (iblk0 V c 2 t) (iblk0 V c 3 t)
    (fun p k => blk0_0_at (V c main_arg0) t p k) (blk0_1_eq (V c main_v0) t) (blk0_2_eq (V c main_v1) t)
    (blk0_3_eq (V c main_v14) t)) j

/-- After the region output array 7 is the head of the feature array, the head's weights and its bias. -/
theorem arr0_7 (c : Dev nD) :
    (dat0 V c).arrAt 7 cfg0.N = Cert.Spec.head (n := 100000) (V c main_arg0) (V c main_v0) (V c main_v1) (V c main_v14) :=
  (dat0 V c).arrAt_eq_of_cover 7 _ (fun t _ => flushed0_7 V c t) cover0_7

/-- What point t writes back to output 8 is block t of the head of the arrays the region finds. -/
theorem flushed0_8 (c : Dev nD) (t : Fin cfg0.N) :
    (dat0 V c).flushed 8 t = ((cfg0.win 8).blk t).view.read (Elt Ideal)
      (Cert.Spec.head (n := 100000) (V c main_arg0) (V c main_v2) (V c main_v3) (V c main_v15)) := by
  show (cfg0.win 8).cut (grid0.coords t) ((dat0 V c).after 8 t) = _
  rw [after0_8]
  unfold out0_8
  rw [View.canon_unit_zero zeroOff]
  simp only [View.ld_unit_zero (S := S5000x64) zeroOff, View.ld_unit_zero (S := S64x64) zeroOff,
    View.ld_unit_zero (S := S1x64) zeroOff]
  rw [HeadValue.k0_pay4_eq]
  funext j
  exact congrFun (headBlock0_8 (V c main_arg0) (V c main_v2) (V c main_v3) (V c main_v15) t
    (iblk0 V c 0 t) (iblk0 V c 4 t) (iblk0 V c 5 t) (iblk0 V c 6 t)
    (fun p k => blk0_0_at (V c main_arg0) t p k) (blk0_4_eq (V c main_v2) t) (blk0_5_eq (V c main_v3) t)
    (blk0_6_eq (V c main_v15) t)) j

/-- After the region output array 8 is the head of the feature array, the head's weights and its bias. -/
theorem arr0_8 (c : Dev nD) :
    (dat0 V c).arrAt 8 cfg0.N = Cert.Spec.head (n := 100000) (V c main_arg0) (V c main_v2) (V c main_v3) (V c main_v15) :=
  (dat0 V c).arrAt_eq_of_cover 8 _ (fun t _ => flushed0_8 V c t) cover0_8

end Arrays

end Cert.KernelIdeal.Frame

end
-- ==== Proof.KI.RegionValue1.lean ====
/-
  The value of dense region 1: after the region each output array is the projection head (the shared
  specification) of the feature array, the head's two weight arrays and its bias row, as the region finds them.

  A point t of the grid handles rows 5000·t … 5000·t + 4999: the feature block and the output blocks sit at block
  (t, 0) of their arrays, the weight and bias blocks are the whole arrays (block (0, 0)). So the head of the blocks at
  point t is block t of the head of the arrays (an entry of a head depends on its own row of the features only), every
  row r lies in the block of point r / 5000, and the blocks written back assemble the head of the whole arrays.
-/
import proofs.«139850_j32306744000652_2_alg».proof.Proof.KI.Region1
import proofs.«139850_j32306744000652_2_alg».proof.Proof.KI.HeadRows
import proofs.«139850_j32306744000652_2_alg».proof.Proof.HeadPayload
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Region 1: 60 points of 5000 rows over the 300000-row array -/

theorem lt_pts1 (t : Fin cfg1.N) : t.val < 60 := by
  have h := t.isLt
  have hN : cfg1.N = 60 := N_1
  omega

/-! The block indices of the region's windows, decided over the grid: the feature window and the output windows are
    at block (t, 0), the weight and bias windows at block (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

/-- Entry (p, k) of the feature block at point t is row 5000·t + p of the array. -/
theorem blk1_0_at (X : S300000x64.Idx → Elt Ideal .f32) (t : Fin cfg1.N) (p : Fin 5000) (k : Fin 64) :
    ((cfg1.win 0).blk t).view.read (Elt Ideal) X (ix2 p k) = X (ix2 (⟨t.val * 5000 + p.val, by have := lt_pts1 t; omega⟩ : Fin 300000) k) := by
  show X (((cfg1.win 0).blk t).view.emb (ix2 p k)) = X _
  refine congrArg X (funext fun a => Fin.ext ?_)
  obtain ⟨e0, e1⟩ := idx1_0 t
  match a with
  | ⟨0, _⟩ => show win1_0.index t (0 : Fin 2) * 5000 + 1 * p.val = t.val * 5000 + p.val; omega
  | ⟨1, _⟩ => show win1_0.index t (1 : Fin 2) * 64 + 1 * k.val = k.val; omega

/-! A weight or bias block is its whole array: its block index is (0, 0) at every point. -/
theorem blk1_1_eq (X : S64x64.Idx → Elt Ideal .f32) (t : Fin cfg1.N) : ((cfg1.win 1).blk t).view.read (Elt Ideal) X = X := by
  funext y
  show X (((cfg1.win 1).blk t).view.emb y) = X y
  refine congrArg X (funext fun a => Fin.ext ?_)
  obtain ⟨e0, e1⟩ := idx1_1 t
  match a with
  | ⟨0, _⟩ => show win1_1.index t (0 : Fin 2) * 64 + 1 * (y 0).val = (y 0).val; omega
  | ⟨1, _⟩ => show win1_1.index t (1 : Fin 2) * 64 + 1 * (y 1).val = (y 1).val; omega
theorem blk1_2_eq (X : S64x64.Idx → Elt Ideal .f32) (t : Fin cfg1.N) : ((cfg1.win 2).blk t).view.read (Elt Ideal) X = X := by
  funext y
  show X (((cfg1.win 2).blk t).view.emb y) = X y
  refine congrArg X (funext fun a => Fin.ext ?_)
  obtain ⟨e0, e1⟩ := idx1_2 t
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem blk1_3_eq (X : S1x64.Idx → Elt Ideal .f32) (t : Fin cfg1.N) : ((cfg1.win 3).blk t).view.read (Elt Ideal) X = X := by
  funext y
  show X (((cfg1.win 3).blk t).view.emb y) = X y
  refine congrArg X (funext fun a => Fin.ext ?_)
  obtain ⟨e0, e1⟩ := idx1_3 t
  match a with
  | ⟨0, _⟩ => show win1_3.index t (0 : Fin 2) * 1 + 1 * (y 0).val = (y 0).val; omega
  | ⟨1, _⟩ => show win1_3.index t (1 : Fin 2) * 64 + 1 * (y 1).val = (y 1).val; omega
theorem blk1_4_eq (X : S64x64.Idx → Elt Ideal .f32) (t : Fin cfg1.N) : ((cfg1.win 4).blk t).view.read (Elt Ideal) X = X := by
  funext y
  show X (((cfg1.win 4).blk t).view.emb y) = X y
  refine congrArg X (funext fun a => Fin.ext ?_)
  obtain ⟨e0, e1⟩ := idx1_4 t
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem blk1_5_eq (X : S64x64.Idx → Elt Ideal .f32) (t : Fin cfg1.N) : ((cfg1.win 5).blk t).view.read (Elt Ideal) X = X := by
  funext y
  show X (((cfg1.win 5).blk t).view.emb y) = X y
  refine congrArg X (funext fun a => Fin.ext ?_)
  obtain ⟨e0, e1⟩ := idx1_5 t
  match a with
  | ⟨0, _⟩ => show win1_5.index t (0 : Fin 2) * 64 + 1 * (y 0).val = (y 0).val; omega
  | ⟨1, _⟩ => show win1_5.index t (1 : Fin 2) * 64 + 1 * (y 1).val = (y 1).val; omega
theorem blk1_6_eq (X : S1x64.Idx → Elt Ideal .f32) (t : Fin cfg1.N) : ((cfg1.win 6).blk t).view.read (Elt Ideal) X = X := by
  funext y
  show X (((cfg1.win 6).blk t).view.emb y) = X y
  refine congrArg X (funext fun a => Fin.ext ?_)
  obtain ⟨e0, e1⟩ := idx1_6 t
  match a with
  | ⟨0, _⟩ => show win1_6.index t (0 : Fin 2) * 1 + 1 * (y 0).val = (y 0).val; omega
  | ⟨1, _⟩ => show win1_6.index t (1 : Fin 2) * 64 + 1 * (y 1).val = (y 1).val; omega
theorem blk1_7_eq (X : S64x64.Idx → Elt Ideal .f32) (t : Fin cfg1.N) : ((cfg1.win 7).blk t).view.read (Elt Ideal) X = X := by
  funext y
  show X (((cfg1.win 7).blk t).view.emb y) = X y
  refine congrArg X (funext fun a => Fin.ext ?_)
  obtain ⟨e0, e1⟩ := idx1_7 t
  match a with
  | ⟨0, _⟩ => show win1_7.index t (0 : Fin 2) * 64 + 1 * (y 0).val = (y 0).val; omega
  | ⟨1, _⟩ => show win1_7.index t (1 : Fin 2) * 64 + 1 * (y 1).val = (y 1).val; omega
theorem blk1_8_eq (X : S64x64.Idx → Elt Ideal .f32) (t : Fin cfg1.N) : ((cfg1.win 8).blk t).view.read (Elt Ideal) X = X := by
  funext y
  show X (((cfg1.win 8).blk t).view.emb y) = X y
  refine congrArg X (funext fun a => Fin.ext ?_)
  obtain ⟨e0, e1⟩ := idx1_8 t
  match a with
  | ⟨0, _⟩ => show win1_8.index t (0 : Fin 2) * 64 + 1 * (y 0).val = (y 0).val; omega
  | ⟨1, _⟩ => show win1_8.index t (1 : Fin 2) * 64 + 1 * (y 1).val = (y 1).val; omega
theorem blk1_9_eq (X : S1x64.Idx → Elt Ideal .f32) (t : Fin cfg1.N) : ((cfg1.win 9).blk t).view.read (Elt Ideal) X = X := by
  funext y
  show X (((cfg1.win 9).blk t).view.emb y) = X y
  refine congrArg X (funext fun a => Fin.ext ?_)
  obtain ⟨e0, e1⟩ := idx1_9 t
  match a with
  | ⟨0, _⟩ => show win1_9.index t (0 : Fin 2) * 1 + 1 * (y 0).val = (y 0).val; omega
  | ⟨1, _⟩ => show win1_9.index t (1 : Fin 2) * 64 + 1 * (y 1).val = (y 1).val; omega

/-! ### Output window 10 -/

/-- Entry (p, q) of the output block at point t sits at row 5000·t + p of the output array. -/
theorem emb1_10 (t : Fin cfg1.N) (p : Fin 5000) (q : Fin 64) :
    ((cfg1.win 10).blk t).view.emb (ix2 p q) = ix2 (⟨t.val * 5000 + p.val, by have := lt_pts1 t; omega⟩ : Fin 300000) q := by
  refine funext fun a => Fin.ext ?_
  obtain ⟨e0, e1⟩ := idx1_10 t
  match a with
  | ⟨0, _⟩ => show win1_10.index t (0 : Fin 2) * 5000 + 1 * p.val = t.val * 5000 + p.val; omega
  | ⟨1, _⟩ => show win1_10.index t (1 : Fin 2) * 64 + 1 * q.val = q.val; omega

/-- The head of the blocks at point t is block t of the head of the arrays. -/
theorem headBlock1_10 (X : S300000x64.Idx → Elt Ideal .f32) (W1 W2 : S64x64.Idx → Elt Ideal .f32) (B : S1x64.Idx → Elt Ideal .f32)
    (t : Fin cfg1.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts1 t; omega⟩ : Fin 300000) k))
    (hw1 : w1 = W1) (hw2 : w2 = W2) (hb : b = B) :
    (Cert.Spec.head (n := 5000) x w1 w2 b : S5000x64.Idx → Elt Ideal .bf16)
      = ((cfg1.win 10).blk t).view.read (Elt Ideal) (Cert.Spec.head (n := 300000) X W1 W2 B : S300000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 300000) X W1 W2 B (((cfg1.win 10).blk t).view.emb (ix2 p q))
  rw [emb1_10 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk1_10 (t : Fin cfg1.N) (i : S300000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v20_0).slice (win1_10.rect t)).set ↔ _
  rw [View.set_slice_whole, Rect.mem_set_unit]
  exact Iff.rfl

/-- Every row of the output array is in the block of the point that handles it: row r is in block r / 5000. -/
theorem cover1_10 (i : S300000x64.Idx) : ∃ t : Fin cfg1.N, (cfg1.win 10).flush t = true ∧ i ∈ ((cfg1.win 10).blk t).view.set := by
  have h0 : (i 0).val < 300000 := (i 0).isLt
  have h1 : (i 1).val < 64 := (i 1).isLt
  have hN : cfg1.N = 60 := N_1
  obtain ⟨t, ht⟩ : ∃ t : Fin cfg1.N, t.val = (i 0).val / 5000 := ⟨⟨(i 0).val / 5000, by omega⟩, rfl⟩
  refine ⟨t, flush1_10 t, ?_⟩
  rw [mem_blk1_10]
  obtain ⟨e0, e1⟩ := idx1_10 t
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

/-! ### Output window 11 -/

/-- Entry (p, q) of the output block at point t sits at row 5000·t + p of the output array. -/
theorem emb1_11 (t : Fin cfg1.N) (p : Fin 5000) (q : Fin 64) :
    ((cfg1.win 11).blk t).view.emb (ix2 p q) = ix2 (⟨t.val * 5000 + p.val, by have := lt_pts1 t; omega⟩ : Fin 300000) q := by
  refine funext fun a => Fin.ext ?_
  obtain ⟨e0, e1⟩ := idx1_11 t
  match a with
  | ⟨0, _⟩ => show win1_11.index t (0 : Fin 2) * 5000 + 1 * p.val = t.val * 5000 + p.val; omega
  | ⟨1, _⟩ => show win1_11.index t (1 : Fin 2) * 64 + 1 * q.val = q.val; omega

/-- The head of the blocks at point t is block t of the head of the arrays. -/
theorem headBlock1_11 (X : S300000x64.Idx → Elt Ideal .f32) (W1 W2 : S64x64.Idx → Elt Ideal .f32) (B : S1x64.Idx → Elt Ideal .f32)
    (t : Fin cfg1.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts1 t; omega⟩ : Fin 300000) k))
    (hw1 : w1 = W1) (hw2 : w2 = W2) (hb : b = B) :
    (Cert.Spec.head (n := 5000) x w1 w2 b : S5000x64.Idx → Elt Ideal .bf16)
      = ((cfg1.win 11).blk t).view.read (Elt Ideal) (Cert.Spec.head (n := 300000) X W1 W2 B : S300000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 300000) X W1 W2 B (((cfg1.win 11).blk t).view.emb (ix2 p q))
  rw [emb1_11 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk1_11 (t : Fin cfg1.N) (i : S300000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_v20_1).slice (win1_11.rect t)).set ↔ _
  rw [View.set_slice_whole, Rect.mem_set_unit]
  exact Iff.rfl

/-- Every row of the output array is in the block of the point that handles it: row r is in block r / 5000. -/
theorem cover1_11 (i : S300000x64.Idx) : ∃ t : Fin cfg1.N, (cfg1.win 11).flush t = true ∧ i ∈ ((cfg1.win 11).blk t).view.set := by
  have h0 : (i 0).val < 300000 := (i 0).isLt
  have h1 : (i 1).val < 64 := (i 1).isLt
  have hN : cfg1.N = 60 := N_1
  obtain ⟨t, ht⟩ : ∃ t : Fin cfg1.N, t.val = (i 0).val / 5000 := ⟨⟨(i 0).val / 5000, by omega⟩, rfl⟩
  refine ⟨t, flush1_11 t, ?_⟩
  rw [mem_blk1_11]
  obtain ⟨e0, e1⟩ := idx1_11 t
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 64 ≤ (i 1).val ∧ (i 1).val < win1_11.index t (1 : Fin 2) * 64 + 64; omega

/-! ### Output window 12 -/

/-- Entry (p, q) of the output block at point t sits at row 5000·t + p of the output array. -/
theorem emb1_12 (t : Fin cfg1.N) (p : Fin 5000) (q : Fin 64) :
    ((cfg1.win 12).blk t).view.emb (ix2 p q) = ix2 (⟨t.val * 5000 + p.val, by have := lt_pts1 t; omega⟩ : Fin 300000) q := by
  refine funext fun a => Fin.ext ?_
  obtain ⟨e0, e1⟩ := idx1_12 t
  match a with
  | ⟨0, _⟩ => show win1_12.index t (0 : Fin 2) * 5000 + 1 * p.val = t.val * 5000 + p.val; omega
  | ⟨1, _⟩ => show win1_12.index t (1 : Fin 2) * 64 + 1 * q.val = q.val; omega

/-- The head of the blocks at point t is block t of the head of the arrays. -/
theorem headBlock1_12 (X : S300000x64.Idx → Elt Ideal .f32) (W1 W2 : S64x64.Idx → Elt Ideal .f32) (B : S1x64.Idx → Elt Ideal .f32)
    (t : Fin cfg1.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts1 t; omega⟩ : Fin 300000) k))
    (hw1 : w1 = W1) (hw2 : w2 = W2) (hb : b = B) :
    (Cert.Spec.head (n := 5000) x w1 w2 b : S5000x64.Idx → Elt Ideal .bf16)
      = ((cfg1.win 12).blk t).view.read (Elt Ideal) (Cert.Spec.head (n := 300000) X W1 W2 B : S300000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 300000) X W1 W2 B (((cfg1.win 12).blk t).view.emb (ix2 p q))
  rw [emb1_12 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk1_12 (t : Fin cfg1.N) (i : S300000x64.Idx) :
    i ∈ ((cfg1.win 12).blk t).view.set ↔ ∀ a : Fin 2, win1_12.index t a * S5000x64.size a ≤ (i a).val ∧ (i a).val < win1_12.index t a * S5000x64.size a + S5000x64.size a := by
  show i ∈ ((View.whole main_v20_2).slice (win1_12.rect t)).set ↔ _
  rw [View.set_slice_whole, Rect.mem_set_unit]
  exact Iff.rfl

/-- Every row of the output array is in the block of the point that handles it: row r is in block r / 5000. -/
theorem cover1_12 (i : S300000x64.Idx) : ∃ t : Fin cfg1.N, (cfg1.win 12).flush t = true ∧ i ∈ ((cfg1.win 12).blk t).view.set := by
  have h0 : (i 0).val < 300000 := (i 0).isLt
  have h1 : (i 1).val < 64 := (i 1).isLt
  have hN : cfg1.N = 60 := N_1
  obtain ⟨t, ht⟩ : ∃ t : Fin cfg1.N, t.val = (i 0).val / 5000 := ⟨⟨(i 0).val / 5000, by omega⟩, rfl⟩
  refine ⟨t, flush1_12 t, ?_⟩
  rw [mem_blk1_12]
  obtain ⟨e0, e1⟩ := idx1_12 t
  intro a
  match a with
  | ⟨0, _⟩ => show win1_12.index t (0 : Fin 2) * 5000 ≤ (i 0).val ∧ (i 0).val < win1_12.index t (0 : Fin 2) * 5000 + 5000; omega
  | ⟨1, _⟩ => show win1_12.index t (1 : Fin 2) * 64 ≤ (i 1).val ∧ (i 1).val < win1_12.index t (1 : Fin 2) * 64 + 64; omega

/-! ## The region's output arrays -/

section Arrays
variable (V : (c : Dev nD) → (b : Ref sig .tc) → Buf (Elt Ideal) ((c : Thread nD τ).loc b))

/-- What point t writes back to output 10 is block t of the head of the arrays the region finds. -/
theorem flushed1_10 (c : Dev nD) (t : Fin cfg1.N) :
    (dat1 V c).flushed 10 t = ((cfg1.win 10).blk t).view.read (Elt Ideal)
      (Cert.Spec.head (n := 300000) (V c main_arg1) (V c main_v4) (V c main_v5) (V c main_v17)) := by
  show (cfg1.win 10).cut (grid1.coords t) ((dat1 V c).after 10 t) = _
  rw [after1_10]
  unfold out1_10
  rw [View.canon_unit_zero zeroOff]
  simp only [View.ld_unit_zero (S := S5000x64) zeroOff, View.ld_unit_zero (S := S64x64) zeroOff,
    View.ld_unit_zero (S := S1x64) zeroOff]
  rw [HeadValue.k1_pay4_eq]
  funext j
  exact congrFun (headBlock1_10 (V c main_arg1) (V c main_v4) (V c main_v5) (V c main_v17) t
    (iblk1 V c 0 t) (iblk1 V c 1 t) (iblk1 V c 2 t) (iblk1 V c 3 t)
    (fun p k => blk1_0_at (V c main_arg1) t p k) (blk1_1_eq (V c main_v4) t) (blk1_2_eq (V c main_v5) t)
    (blk1_3_eq (V c main_v17) t)) j

/-- After the region output array 10 is the head of the feature array, the head's weights and its bias. -/
theorem arr1_10 (c : Dev nD) :
    (dat1 V c).arrAt 10 cfg1.N = Cert.Spec.head (n := 300000) (V c main_arg1) (V c main_v4) (V c main_v5) (V c main_v17) :=
  (dat1 V c).arrAt_eq_of_cover 10 _ (fun t _ => flushed1_10 V c t) cover1_10

/-- What point t writes back to output 11 is block t of the head of the arrays the region finds. -/
theorem flushed1_11 (c : Dev nD) (t : Fin cfg1.N) :
    (dat1 V c).flushed 11 t = ((cfg1.win 11).blk t).view.read (Elt Ideal)
      (Cert.Spec.head (n := 300000) (V c main_arg1) (V c main_v6) (V c main_v7) (V c main_v18)) := by
  show (cfg1.win 11).cut (grid1.coords t) ((dat1 V c).after 11 t) = _
  rw [after1_11]
  unfold out1_11
  rw [View.canon_unit_zero zeroOff]
  simp only [View.ld_unit_zero (S := S5000x64) zeroOff, View.ld_unit_zero (S := S64x64) zeroOff,
    View.ld_unit_zero (S := S1x64) zeroOff]
  rw [HeadValue.k1_pay5_eq]
  funext j
  exact congrFun (headBlock1_11 (V c main_arg1) (V c main_v6) (V c main_v7) (V c main_v18) t
    (iblk1 V c 0 t) (iblk1 V c 4 t) (iblk1 V c 5 t) (iblk1 V c 6 t)
    (fun p k => blk1_0_at (V c main_arg1) t p k) (blk1_4_eq (V c main_v6) t) (blk1_5_eq (V c main_v7) t)
    (blk1_6_eq (V c main_v18) t)) j

/-- After the region output array 11 is the head of the feature array, the head's weights and its bias. -/
theorem arr1_11 (c : Dev nD) :
    (dat1 V c).arrAt 11 cfg1.N = Cert.Spec.head (n := 300000) (V c main_arg1) (V c main_v6) (V c main_v7) (V c main_v18) :=
  (dat1 V c).arrAt_eq_of_cover 11 _ (fun t _ => flushed1_11 V c t) cover1_11

/-- What point t writes back to output 12 is block t of the head of the arrays the region finds. -/
theorem flushed1_12 (c : Dev nD) (t : Fin cfg1.N) :
    (dat1 V c).flushed 12 t = ((cfg1.win 12).blk t).view.read (Elt Ideal)
      (Cert.Spec.head (n := 300000) (V c main_arg1) (V c main_v8) (V c main_v9) (V c main_v19)) := by
  show (cfg1.win 12).cut (grid1.coords t) ((dat1 V c).after 12 t) = _
  rw [after1_12]
  unfold out1_12
  rw [View.canon_unit_zero zeroOff]
  simp only [View.ld_unit_zero (S := S5000x64) zeroOff, View.ld_unit_zero (S := S64x64) zeroOff,
    View.ld_unit_zero (S := S1x64) zeroOff]
  rw [HeadValue.k1_pay1_eq]
  funext j
  exact congrFun (headBlock1_12 (V c main_arg1) (V c main_v8) (V c main_v9) (V c main_v19) t
    (iblk1 V c 0 t) (iblk1 V c 7 t) (iblk1 V c 8 t) (iblk1 V c 9 t)
    (fun p k => blk1_0_at (V c main_arg1) t p k) (blk1_7_eq (V c main_v8) t) (blk1_8_eq (V c main_v9) t)
    (blk1_9_eq (V c main_v19) t)) j

/-- After the region output array 12 is the head of the feature array, the head's weights and its bias. -/
theorem arr1_12 (c : Dev nD) :
    (dat1 V c).arrAt 12 cfg1.N = Cert.Spec.head (n := 300000) (V c main_arg1) (V c main_v8) (V c main_v9) (V c main_v19) :=
  (dat1 V c).arrAt_eq_of_cover 12 _ (fun t _ => flushed1_12 V c t) cover1_12

end Arrays

end Cert.KernelIdeal.Frame

end
-- ==== Proof.KI.RegionValue2.lean ====
/-
  The value of dense region 2: after the region each output array is the projection head (the shared
  specification) of the feature array, the head's two weight arrays and its bias row, as the region finds them.

  A point t of the grid handles rows 5000·t … 5000·t + 4999: the feature block and the output blocks sit at block
  (t, 0) of their arrays, the weight and bias blocks are the whole arrays (block (0, 0)). So the head of the blocks at
  point t is block t of the head of the arrays (an entry of a head depends on its own row of the features only), every
  row r lies in the block of point r / 5000, and the blocks written back assemble the head of the whole arrays.
-/
import proofs.«139850_j32306744000652_2_alg».proof.Proof.KI.Region2
import proofs.«139850_j32306744000652_2_alg».proof.Proof.KI.HeadRows
import proofs.«139850_j32306744000652_2_alg».proof.Proof.HeadPayload
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Region 2: 30 points of 5000 rows over the 150000-row array -/

theorem lt_pts2 (t : Fin cfg2.N) : t.val < 30 := by
  have h := t.isLt
  have hN : cfg2.N = 30 := N_2
  omega

/-! The block indices of the region's windows, decided over the grid: the feature window and the output windows are
    at block (t, 0), the weight and bias windows at block (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)

/-- Entry (p, k) of the feature block at point t is row 5000·t + p of the array. -/
theorem blk2_0_at (X : S150000x64.Idx → Elt Ideal .f32) (t : Fin cfg2.N) (p : Fin 5000) (k : Fin 64) :
    ((cfg2.win 0).blk t).view.read (Elt Ideal) X (ix2 p k) = X (ix2 (⟨t.val * 5000 + p.val, by have := lt_pts2 t; omega⟩ : Fin 150000) k) := by
  show X (((cfg2.win 0).blk t).view.emb (ix2 p k)) = X _
  refine congrArg X (funext fun a => Fin.ext ?_)
  obtain ⟨e0, e1⟩ := idx2_0 t
  match a with
  | ⟨0, _⟩ => show win2_0.index t (0 : Fin 2) * 5000 + 1 * p.val = t.val * 5000 + p.val; omega
  | ⟨1, _⟩ => show win2_0.index t (1 : Fin 2) * 64 + 1 * k.val = k.val; omega

/-! A weight or bias block is its whole array: its block index is (0, 0) at every point. -/
theorem blk2_1_eq (X : S64x64.Idx → Elt Ideal .f32) (t : Fin cfg2.N) : ((cfg2.win 1).blk t).view.read (Elt Ideal) X = X := by
  funext y
  show X (((cfg2.win 1).blk t).view.emb y) = X y
  refine congrArg X (funext fun a => Fin.ext ?_)
  obtain ⟨e0, e1⟩ := idx2_1 t
  match a with
  | ⟨0, _⟩ => show win2_1.index t (0 : Fin 2) * 64 + 1 * (y 0).val = (y 0).val; omega
  | ⟨1, _⟩ => show win2_1.index t (1 : Fin 2) * 64 + 1 * (y 1).val = (y 1).val; omega
theorem blk2_2_eq (X : S64x64.Idx → Elt Ideal .f32) (t : Fin cfg2.N) : ((cfg2.win 2).blk t).view.read (Elt Ideal) X = X := by
  funext y
  show X (((cfg2.win 2).blk t).view.emb y) = X y
  refine congrArg X (funext fun a => Fin.ext ?_)
  obtain ⟨e0, e1⟩ := idx2_2 t
  match a with
  | ⟨0, _⟩ => show win2_2.index t (0 : Fin 2) * 64 + 1 * (y 0).val = (y 0).val; omega
  | ⟨1, _⟩ => show win2_2.index t (1 : Fin 2) * 64 + 1 * (y 1).val = (y 1).val; omega
theorem blk2_3_eq (X : S1x64.Idx → Elt Ideal .f32) (t : Fin cfg2.N) : ((cfg2.win 3).blk t).view.read (Elt Ideal) X = X := by
  funext y
  show X (((cfg2.win 3).blk t).view.emb y) = X y
  refine congrArg X (funext fun a => Fin.ext ?_)
  obtain ⟨e0, e1⟩ := idx2_3 t
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem blk2_4_eq (X : S64x64.Idx → Elt Ideal .f32) (t : Fin cfg2.N) : ((cfg2.win 4).blk t).view.read (Elt Ideal) X = X := by
  funext y
  show X (((cfg2.win 4).blk t).view.emb y) = X y
  refine congrArg X (funext fun a => Fin.ext ?_)
  obtain ⟨e0, e1⟩ := idx2_4 t
  match a with
  | ⟨0, _⟩ => show win2_4.index t (0 : Fin 2) * 64 + 1 * (y 0).val = (y 0).val; omega
  | ⟨1, _⟩ => show win2_4.index t (1 : Fin 2) * 64 + 1 * (y 1).val = (y 1).val; omega
theorem blk2_5_eq (X : S64x64.Idx → Elt Ideal .f32) (t : Fin cfg2.N) : ((cfg2.win 5).blk t).view.read (Elt Ideal) X = X := by
  funext y
  show X (((cfg2.win 5).blk t).view.emb y) = X y
  refine congrArg X (funext fun a => Fin.ext ?_)
  obtain ⟨e0, e1⟩ := idx2_5 t
  match a with
  | ⟨0, _⟩ => show win2_5.index t (0 : Fin 2) * 64 + 1 * (y 0).val = (y 0).val; omega
  | ⟨1, _⟩ => show win2_5.index t (1 : Fin 2) * 64 + 1 * (y 1).val = (y 1).val; omega
theorem blk2_6_eq (X : S1x64.Idx → Elt Ideal .f32) (t : Fin cfg2.N) : ((cfg2.win 6).blk t).view.read (Elt Ideal) X = X := by
  funext y
  show X (((cfg2.win 6).blk t).view.emb y) = X y
  refine congrArg X (funext fun a => Fin.ext ?_)
  obtain ⟨e0, e1⟩ := idx2_6 t
  match a with
  | ⟨0, _⟩ => show win2_6.index t (0 : Fin 2) * 1 + 1 * (y 0).val = (y 0).val; omega
  | ⟨1, _⟩ => show win2_6.index t (1 : Fin 2) * 64 + 1 * (y 1).val = (y 1).val; omega

/-! ### Output window 7 -/

/-- Entry (p, q) of the output block at point t sits at row 5000·t + p of the output array. -/
theorem emb2_7 (t : Fin cfg2.N) (p : Fin 5000) (q : Fin 64) :
    ((cfg2.win 7).blk t).view.emb (ix2 p q) = ix2 (⟨t.val * 5000 + p.val, by have := lt_pts2 t; omega⟩ : Fin 150000) q := by
  refine funext fun a => Fin.ext ?_
  obtain ⟨e0, e1⟩ := idx2_7 t
  match a with
  | ⟨0, _⟩ => show win2_7.index t (0 : Fin 2) * 5000 + 1 * p.val = t.val * 5000 + p.val; omega
  | ⟨1, _⟩ => show win2_7.index t (1 : Fin 2) * 64 + 1 * q.val = q.val; omega

/-- The head of the blocks at point t is block t of the head of the arrays. -/
theorem headBlock2_7 (X : S150000x64.Idx → Elt Ideal .f32) (W1 W2 : S64x64.Idx → Elt Ideal .f32) (B : S1x64.Idx → Elt Ideal .f32)
    (t : Fin cfg2.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts2 t; omega⟩ : Fin 150000) k))
    (hw1 : w1 = W1) (hw2 : w2 = W2) (hb : b = B) :
    (Cert.Spec.head (n := 5000) x w1 w2 b : S5000x64.Idx → Elt Ideal .bf16)
      = ((cfg2.win 7).blk t).view.read (Elt Ideal) (Cert.Spec.head (n := 150000) X W1 W2 B : S150000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 150000) X W1 W2 B (((cfg2.win 7).blk t).view.emb (ix2 p q))
  rw [emb2_7 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk2_7 (t : Fin cfg2.N) (i : S150000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v23_0).slice (win2_7.rect t)).set ↔ _
  rw [View.set_slice_whole, Rect.mem_set_unit]
  exact Iff.rfl

/-- Every row of the output array is in the block of the point that handles it: row r is in block r / 5000. -/
theorem cover2_7 (i : S150000x64.Idx) : ∃ t : Fin cfg2.N, (cfg2.win 7).flush t = true ∧ i ∈ ((cfg2.win 7).blk t).view.set := by
  have h0 : (i 0).val < 150000 := (i 0).isLt
  have h1 : (i 1).val < 64 := (i 1).isLt
  have hN : cfg2.N = 30 := N_2
  obtain ⟨t, ht⟩ : ∃ t : Fin cfg2.N, t.val = (i 0).val / 5000 := ⟨⟨(i 0).val / 5000, by omega⟩, rfl⟩
  refine ⟨t, flush2_7 t, ?_⟩
  rw [mem_blk2_7]
  obtain ⟨e0, e1⟩ := idx2_7 t
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-! ### Output window 8 -/

/-- Entry (p, q) of the output block at point t sits at row 5000·t + p of the output array. -/
theorem emb2_8 (t : Fin cfg2.N) (p : Fin 5000) (q : Fin 64) :
    ((cfg2.win 8).blk t).view.emb (ix2 p q) = ix2 (⟨t.val * 5000 + p.val, by have := lt_pts2 t; omega⟩ : Fin 150000) q := by
  refine funext fun a => Fin.ext ?_
  obtain ⟨e0, e1⟩ := idx2_8 t
  match a with
  | ⟨0, _⟩ => show win2_8.index t (0 : Fin 2) * 5000 + 1 * p.val = t.val * 5000 + p.val; omega
  | ⟨1, _⟩ => show win2_8.index t (1 : Fin 2) * 64 + 1 * q.val = q.val; omega

/-- The head of the blocks at point t is block t of the head of the arrays. -/
theorem headBlock2_8 (X : S150000x64.Idx → Elt Ideal .f32) (W1 W2 : S64x64.Idx → Elt Ideal .f32) (B : S1x64.Idx → Elt Ideal .f32)
    (t : Fin cfg2.N) (x : S5000x64.Idx → Elt Ideal .f32) (w1 w2 : S64x64.Idx → Elt Ideal .f32) (b : S1x64.Idx → Elt Ideal .f32)
    (hx : ∀ (p : Fin 5000) (k : Fin 64), x (ix2 p k) = X (ix2 (⟨t.val * 5000 + p.val, by have := lt_pts2 t; omega⟩ : Fin 150000) k))
    (hw1 : w1 = W1) (hw2 : w2 = W2) (hb : b = B) :
    (Cert.Spec.head (n := 5000) x w1 w2 b : S5000x64.Idx → Elt Ideal .bf16)
      = ((cfg2.win 8).blk t).view.read (Elt Ideal) (Cert.Spec.head (n := 150000) X W1 W2 B : S150000x64.Idx → Elt Ideal .bf16) := by
  funext j
  obtain ⟨p, q, rfl⟩ : ∃ (p : Fin 5000) (q : Fin 64), j = ix2 p q := ⟨j 0, j 1, eq_ix2 j⟩
  show Cert.Spec.head (n := 5000) x w1 w2 b (ix2 p q)
    = Cert.Spec.head (n := 150000) X W1 W2 B (((cfg2.win 8).blk t).view.emb (ix2 p q))
  rw [emb2_8 t p q, Cert.Spec.head_ix2, Cert.Spec.head_ix2]
  exact headAt_of_rows x X w1 w2 W1 W2 b B p _ q (hx p) hw1 hw2 hb

/-- An index of the output array is in point t's block iff each coordinate is in the block's range on its axis. -/
theorem mem_blk2_8 (t : Fin cfg2.N) (i : S150000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v23_1).slice (win2_8.rect t)).set ↔ _
  rw [View.set_slice_whole, Rect.mem_set_unit]
  exact Iff.rfl

/-- Every row of the output array is in the block of the point that handles it: row r is in block r / 5000. -/
theorem cover2_8 (i : S150000x64.Idx) : ∃ t : Fin cfg2.N, (cfg2.win 8).flush t = true ∧ i ∈ ((cfg2.win 8).blk t).view.set := by
  have h0 : (i 0).val < 150000 := (i 0).isLt
  have h1 : (i 1).val < 64 := (i 1).isLt
  have hN : cfg2.N = 30 := N_2
  obtain ⟨t, ht⟩ : ∃ t : Fin cfg2.N, t.val = (i 0).val / 5000 := ⟨⟨(i 0).val / 5000, by omega⟩, rfl⟩
  refine ⟨t, flush2_8 t, ?_⟩
  rw [mem_blk2_8]
  obtain ⟨e0, e1⟩ := idx2_8 t
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 64 ≤ (i 1).val ∧ (i 1).val < win2_8.index t (1 : Fin 2) * 64 + 64; omega

/-! ## The region's output arrays -/

section Arrays
variable (V : (c : Dev nD) → (b : Ref sig .tc) → Buf (Elt Ideal) ((c : Thread nD τ).loc b))

/-- What point t writes back to output 7 is block t of the head of the arrays the region finds. -/
theorem flushed2_7 (c : Dev nD) (t : Fin cfg2.N) :
    (dat2 V c).flushed 7 t = ((cfg2.win 7).blk t).view.read (Elt Ideal)
      (Cert.Spec.head (n := 150000) (V c main_arg2) (V c main_v10) (V c main_v11) (V c main_v21)) := by
  show (cfg2.win 7).cut (grid2.coords t) ((dat2 V c).after 7 t) = _
  rw [after2_7]
  unfold out2_7
  rw [View.canon_unit_zero zeroOff]
  simp only [View.ld_unit_zero (S := S5000x64) zeroOff, View.ld_unit_zero (S := S64x64) zeroOff,
    View.ld_unit_zero (S := S1x64) zeroOff]
  rw [HeadValue.k2_pay3_eq]
  funext j
  exact congrFun (headBlock2_7 (V c main_arg2) (V c main_v10) (V c main_v11) (V c main_v21) t
    (iblk2 V c 0 t) (iblk2 V c 1 t) (iblk2 V c 2 t) (iblk2 V c 3 t)
    (fun p k => blk2_0_at (V c main_arg2) t p k) (blk2_1_eq (V c main_v10) t) (blk2_2_eq (V c main_v11) t)
    (blk2_3_eq (V c main_v21) t)) j

/-- After the region output array 7 is the head of the feature array, the head's weights and its bias. -/
theorem arr2_7 (c : Dev nD) :
    (dat2 V c).arrAt 7 cfg2.N = Cert.Spec.head (n := 150000) (V c main_arg2) (V c main_v10) (V c main_v11) (V c main_v21) :=
  (dat2 V c).arrAt_eq_of_cover 7 _ (fun t _ => flushed2_7 V c t) cover2_7

/-- What point t writes back to output 8 is block t of the head of the arrays the region finds. -/
theorem flushed2_8 (c : Dev nD) (t : Fin cfg2.N) :
    (dat2 V c).flushed 8 t = ((cfg2.win 8).blk t).view.read (Elt Ideal)
      (Cert.Spec.head (n := 150000) (V c main_arg2) (V c main_v12) (V c main_v13) (V c main_v22)) := by
  show (cfg2.win 8).cut (grid2.coords t) ((dat2 V c).after 8 t) = _
  rw [after2_8]
  unfold out2_8
  rw [View.canon_unit_zero zeroOff]
  simp only [View.ld_unit_zero (S := S5000x64) zeroOff, View.ld_unit_zero (S := S64x64) zeroOff,
    View.ld_unit_zero (S := S1x64) zeroOff]
  rw [HeadValue.k2_pay4_eq]
  funext j
  exact congrFun (headBlock2_8 (V c main_arg2) (V c main_v12) (V c main_v13) (V c main_v22) t
    (iblk2 V c 0 t) (iblk2 V c 4 t) (iblk2 V c 5 t) (iblk2 V c 6 t)
    (fun p k => blk2_0_at (V c main_arg2) t p k) (blk2_4_eq (V c main_v12) t) (blk2_5_eq (V c main_v13) t)
    (blk2_6_eq (V c main_v22) t)) j

/-- After the region output array 8 is the head of the feature array, the head's weights and its bias. -/
theorem arr2_8 (c : Dev nD) :
    (dat2 V c).arrAt 8 cfg2.N = Cert.Spec.head (n := 150000) (V c main_arg2) (V c main_v12) (V c main_v13) (V c main_v22) :=
  (dat2 V c).arrAt_eq_of_cover 8 _ (fun t _ => flushed2_8 V c t) cover2_8

end Arrays

end Cert.KernelIdeal.Frame

end
-- ==== Proof.Tail.lean ====
/-
  The sparse stage of the program, read as terms on the extended reals.

  After the three dense regions have produced the projection heads, each output is formed the same way:
  for every part (a sparse matrix in coordinate form, rows / cols / vals, against one head) the rows of the
  head named by the column indices are gathered and scaled entrywise by the values; the parts of one output
  are laid end to end, together with their row indices, and added into a zero array at those rows by a single
  scatter-add; the result is clamped below at zero and scaled by a constant.

  `part` is the block "values times gathered rows" of one part; `U0`, `U1`, `U2` are the three sums before the
  clamp and `Y0`, `Y1`, `Y2` the three outputs, all as functions of the heads and the coordinate arrays.
-/
import proofs.«139850_j32306744000652_2_alg».proof.Proof.Gen.KernelIdeal.Regions
import Idealize.ShloMosaic.Lib.StableHlo.Run
import Idealize.ShloMosaic.PureOps.Ideal

noncomputable section

namespace Cert.KernelIdeal.Tail

open Idealize.ShloMosaic Idealize.ShloMosaic.TcCoe
open Cert.KernelIdeal Cert.KernelIdeal.Facts₀

/-- One part's updates: entry `(e, j)` is `vals e` times entry `j` of the row of the head `p` that the
    column index `cols e` names, a negative column index first moved up by the head's row count `wrapBy`.
    Stated over the row count `N` of the head and the number `n` of the part's entries. -/
def part {N n : Nat} (g : GatherDims (⟨2, ![N, 64]⟩ : Shape) ⟨2, ![n, 1]⟩ ⟨2, ![n, 64]⟩)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (b2 : (⟨2, ![n, 1]⟩ : Shape).BroadcastsInDim ⟨2, ![n, 64]⟩ (![0, 1] : Fin 2 → Fin 2))
    (wrapBy : BitVec 32)
    (p : FVec Ideal ⟨2, ![N, 64]⟩ .bf16) (cols : IVec ⟨1, ![n]⟩ 32) (vals : FVec Ideal ⟨1, ![n]⟩ .f32) :
    FVec Ideal ⟨2, ![n, 64]⟩ .f32 :=
  mulf (broadcastInDim ⟨2, ![n, 64]⟩ ![0, 1] b2 (broadcastInDim ⟨2, ![n, 1]⟩ ![0] b1 vals))
    (extf .f32
      (Host.gather g p
        (broadcastInDim ⟨2, ![n, 1]⟩ ![0] b1
          (select (cmpi .slt cols (broadcastInDim ⟨1, ![n]⟩ ![] b0 (constantI S_ 32 0#32)))
            (addi cols (broadcastInDim ⟨1, ![n]⟩ ![] b0 (constantI S_ 32 wrapBy))) cols)))
      bitsLt_bf16_f32)

/-- The first output before the clamp: the parts against heads `p_n2n` (1000000 entries) and `p_e2n`
    (600000 entries) added into 100000 rows of zeros. -/
def U0 (p_n2n : FVec Ideal S100000x64 .bf16) (p_e2n : FVec Ideal S300000x64 .bf16)
    (rows0 cols0 : IVec S1000000 32) (vals0 : FVec Ideal S1000000 .f32)
    (rows1 cols1 : IVec S600000 32) (vals1 : FVec Ideal S600000 .f32) : FVec Ideal S100000x64 .f32 :=
      (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0
          (concatenate S1600000 0 [⟨S1000000, rows0⟩, ⟨S600000, rows1⟩] concatenates_S1000000_S600000_S1600000_d0))
        (concatenate S1600000x64 0
          [⟨S1000000x64, part gather_S100000x64_S1000000x1_S1000000x64_1_0_n_n_0_1_164 bcast_S_S1000000
              bcast_S1000000_S1000000x1_0 bcast_S1000000x1_S1000000x64_0_1 100000#32 p_n2n cols0 vals0⟩,
           ⟨S600000x64, part gather_S300000x64_S600000x1_S600000x64_1_0_n_n_0_1_164 bcast_S_S600000
              bcast_S600000_S600000x1_0 bcast_S600000x1_S600000x64_0_1 300000#32 p_e2n cols1 vals1⟩]
          concatenates_S1000000x64_S600000x64_S1600000x64_d0))

/-- The first output: `U0` clamped below at zero, halved. -/
def Y0 (p_n2n : FVec Ideal S100000x64 .bf16) (p_e2n : FVec Ideal S300000x64 .bf16)
    (rows0 cols0 : IVec S1000000 32) (vals0 : FVec Ideal S1000000 .f32)
    (rows1 cols1 : IVec S600000 32) (vals1 : FVec Ideal S600000 .f32) : FVec Ideal S100000x64 .f32 :=
  mulf (broadcastInDim S100000x64 ![] bcast_S_S100000x64 (constant (F := Ideal) S_ .f32 0x3F000000#32))
    (maximumf (U0 p_n2n p_e2n rows0 cols0 vals0 rows1 cols1 vals1)
      (broadcastInDim S100000x64 ![] bcast_S_S100000x64 (constant (F := Ideal) S_ .f32 0x00000000#32)))

/-- The second output before the clamp: the parts against heads `p_e2e` (2400000 entries), `p_n2e`
    (600000 entries) and `p_t2e` (450000 entries) added into 300000 rows of zeros. -/
def U1 (p_e2e : FVec Ideal S300000x64 .bf16) (p_n2e : FVec Ideal S100000x64 .bf16) (p_t2e : FVec Ideal S150000x64 .bf16)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) : FVec Ideal S300000x64 .f32 :=
      (Host.scatterAdd (F := Ideal) scatter_S300000x64_S3450000x1_S3450000x64_1_0_0_1
        (broadcastInDim S300000x64 ![] bcast_S_S300000x64 (constant (F := Ideal) S_ .f32 0x00000000#32))
        (broadcastInDim S3450000x1 ![0] bcast_S3450000_S3450000x1_0
          (concatenate S3450000 0 [⟨S2400000, rows0⟩, ⟨S600000, rows1⟩, ⟨S450000, rows2⟩]
            concatenates_S2400000_S600000_S450000_S3450000_d0))
        (concatenate S3450000x64 0
          [⟨S2400000x64, part gather_S300000x64_S2400000x1_S2400000x64_1_0_n_n_0_1_164 bcast_S_S2400000
              bcast_S2400000_S2400000x1_0 bcast_S2400000x1_S2400000x64_0_1 300000#32 p_e2e cols0 vals0⟩,
           ⟨S600000x64, part gather_S100000x64_S600000x1_S600000x64_1_0_n_n_0_1_164 bcast_S_S600000
              bcast_S600000_S600000x1_0 bcast_S600000x1_S600000x64_0_1 100000#32 p_n2e cols1 vals1⟩,
           ⟨S450000x64, part gather_S150000x64_S450000x1_S450000x64_1_0_n_n_0_1_164 bcast_S_S450000
              bcast_S450000_S450000x1_0 bcast_S450000x1_S450000x64_0_1 150000#32 p_t2e cols2 vals2⟩]
          concatenates_S2400000x64_S600000x64_S450000x64_S3450000x64_d0))

/-- The second output: `U1` clamped below at zero, scaled by the single-precision constant nearest one third. -/
def Y1 (p_e2e : FVec Ideal S300000x64 .bf16) (p_n2e : FVec Ideal S100000x64 .bf16) (p_t2e : FVec Ideal S150000x64 .bf16)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) : FVec Ideal S300000x64 .f32 :=
  mulf (broadcastInDim S300000x64 ![] bcast_S_S300000x64 (constant (F := Ideal) S_ .f32 0x3EAAAAAB#32))
    (maximumf (U1 p_e2e p_n2e p_t2e rows0 cols0 vals0 rows1 cols1 vals1 rows2 cols2 vals2)
      (broadcastInDim S300000x64 ![] bcast_S_S300000x64 (constant (F := Ideal) S_ .f32 0x00000000#32)))

/-- The third output before the clamp: the parts against heads `p_t2t` (1200000 entries) and `p_e2t`
    (450000 entries) added into 150000 rows of zeros. -/
def U2 (p_t2t : FVec Ideal S150000x64 .bf16) (p_e2t : FVec Ideal S300000x64 .bf16)
    (rows0 cols0 : IVec S1200000 32) (vals0 : FVec Ideal S1200000 .f32)
    (rows1 cols1 : IVec S450000 32) (vals1 : FVec Ideal S450000 .f32) : FVec Ideal S150000x64 .f32 :=
      (Host.scatterAdd (F := Ideal) scatter_S150000x64_S1650000x1_S1650000x64_1_0_0_1
        (broadcastInDim S150000x64 ![] bcast_S_S150000x64 (constant (F := Ideal) S_ .f32 0x00000000#32))
        (broadcastInDim S1650000x1 ![0] bcast_S1650000_S1650000x1_0
          (concatenate S1650000 0 [⟨S1200000, rows0⟩, ⟨S450000, rows1⟩] concatenates_S1200000_S450000_S1650000_d0))
        (concatenate S1650000x64 0
          [⟨S1200000x64, part gather_S150000x64_S1200000x1_S1200000x64_1_0_n_n_0_1_164 bcast_S_S1200000
              bcast_S1200000_S1200000x1_0 bcast_S1200000x1_S1200000x64_0_1 150000#32 p_t2t cols0 vals0⟩,
           ⟨S450000x64, part gather_S300000x64_S450000x1_S450000x64_1_0_n_n_0_1_164 bcast_S_S450000
              bcast_S450000_S450000x1_0 bcast_S450000x1_S450000x64_0_1 300000#32 p_e2t cols1 vals1⟩]
          concatenates_S1200000x64_S450000x64_S1650000x64_d0))

/-- The third output: `U2` clamped below at zero, halved. -/
def Y2 (p_t2t : FVec Ideal S150000x64 .bf16) (p_e2t : FVec Ideal S300000x64 .bf16)
    (rows0 cols0 : IVec S1200000 32) (vals0 : FVec Ideal S1200000 .f32)
    (rows1 cols1 : IVec S450000 32) (vals1 : FVec Ideal S450000 .f32) : FVec Ideal S150000x64 .f32 :=
  mulf (broadcastInDim S150000x64 ![] bcast_S_S150000x64 (constant (F := Ideal) S_ .f32 0x3F000000#32))
    (maximumf (U2 p_t2t p_e2t rows0 cols0 vals0 rows1 cols1 vals1)
      (broadcastInDim S150000x64 ![] bcast_S_S150000x64 (constant (F := Ideal) S_ .f32 0x00000000#32)))

end Cert.KernelIdeal.Tail

end
-- ==== Proof.TailRead.lean ====
/-
  The sparse stage read back off the buffers: what the last valuation holds at the three results is
  `Y0`, `Y1`, `Y2` of the heads the regions left and of the coordinate arrays as launched.

  Each stretch of host operations is first read over arbitrary starting contents `W`: its result is the
  operations' term over `W` at the operand references. The starting contents are then read back: a launch
  argument is what was launched, a head is what its region left.
-/
import proofs.«139850_j32306744000652_2_alg».proof.Proof.Tail

set_option maxRecDepth 1448

noncomputable section

namespace Cert.KernelIdeal.Tail

open Idealize.ShloMosaic Idealize.ShloMosaic.TcCoe
open Cert.KernelIdeal Cert.KernelIdeal.Facts₀

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, with the result reference left out of the rewriting index. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

section Stretches

variable (W : Valuation τ sig (Elt Ideal))

/-! ## Each stretch's result over the contents it starts from -/

/-- The first sum. -/
theorem after3_v50 :
    StableHlo.after (Gen.hostOps3 (F := Ideal)) W (Proc.devRef .tc main_v50)
      = U0 (W main_v16_0) (W main_v20_0) (W main_arg3) (W main_arg4) (W main_arg5) (W main_arg12) (W main_arg13) (W main_arg14) := by
  after_results_simp <;> rfl

/-- Its clamp. -/
theorem after3_1_v51 :
    StableHlo.after (Gen.hostOps3_1 (F := Ideal)) W (Proc.devRef .tc main_v51)
      = maximumf (W main_v50 : FVec Ideal S100000x64 .f32)
          (broadcastInDim S100000x64 ![] bcast_S_S100000x64 (constant (F := Ideal) S_ .f32 0x00000000#32)) := by
  after_results_simp <;> rfl

/-- Its scale. -/
theorem after3_2_v53 :
    StableHlo.after (Gen.hostOps3_2 (F := Ideal)) W (Proc.devRef .tc main_v53)
      = mulf (broadcastInDim S100000x64 ![] bcast_S_S100000x64 (constant (F := Ideal) S_ .f32 0x3F000000#32))
          (W main_v51 : FVec Ideal S100000x64 .f32) := by
  after_results_simp <;> rfl

/-- The second sum. -/
theorem after3_2_v91 :
    StableHlo.after (Gen.hostOps3_2 (F := Ideal)) W (Proc.devRef .tc main_v91)
      = U1 (W main_v20_1) (W main_v16_1) (W main_v23_1) (W main_arg6) (W main_arg7) (W main_arg8)
          (W main_arg15) (W main_arg16) (W main_arg17) (W main_arg21) (W main_arg22) (W main_arg23) := by
  simp (disch := decide) only [StableHlo.after_cons, StableHlo.after_nil,
    StableHlo.nullary_result', StableHlo.unary_result', StableHlo.binary_result', StableHlo.ternary_result', nary3_result',
    StableHlo.nullary_result_ne', StableHlo.unary_result_ne', StableHlo.binary_result_ne', StableHlo.ternary_result_ne',
    StableHlo.nary_result_ne']
  rfl

/-- Its clamp. -/
theorem after3_3_v92 :
    StableHlo.after (Gen.hostOps3_3 (F := Ideal)) W (Proc.devRef .tc main_v92)
      = maximumf (W main_v91 : FVec Ideal S300000x64 .f32)
          (broadcastInDim S300000x64 ![] bcast_S_S300000x64 (constant (F := Ideal) S_ .f32 0x00000000#32)) := by
  after_results_simp <;> rfl

/-- Its scale. -/
theorem after3_4_v94 :
    StableHlo.after (Gen.hostOps3_4 (F := Ideal)) W (Proc.devRef .tc main_v94)
      = mulf (broadcastInDim S300000x64 ![] bcast_S_S300000x64 (constant (F := Ideal) S_ .f32 0x3EAAAAAB#32))
          (W main_v92 : FVec Ideal S300000x64 .f32) := by
  after_results_simp <;> rfl

/-- The third sum. -/
theorem after3_4_v121 :
    StableHlo.after (Gen.hostOps3_4 (F := Ideal)) W (Proc.devRef .tc main_v121)
      = U2 (W main_v23_0) (W main_v20_2) (W main_arg9) (W main_arg10) (W main_arg11) (W main_arg18) (W main_arg19) (W main_arg20) := by
  after_results_simp <;> rfl

/-- Its clamp. -/
theorem after3_5_v122 :
    StableHlo.after (Gen.hostOps3_5 (F := Ideal)) W (Proc.devRef .tc main_v122)
      = maximumf (W main_v121 : FVec Ideal S150000x64 .f32)
          (broadcastInDim S150000x64 ![] bcast_S_S150000x64 (constant (F := Ideal) S_ .f32 0x00000000#32)) := by
  after_results_simp <;> rfl

/-- Its scale. -/
theorem after3_6_v124 :
    StableHlo.after (Gen.hostOps3_6 (F := Ideal)) W (Proc.devRef .tc main_v124)
      = mulf (broadcastInDim S150000x64 ![] bcast_S_S150000x64 (constant (F := Ideal) S_ .f32 0x3F000000#32))
          (W main_v122 : FVec Ideal S150000x64 .f32) := by
  after_results_simp <;> rfl

end Stretches

section Reads

variable (m : (ℓ : Loc nD τ sig) → Buf (Elt Ideal) ℓ) (outs : Gen.Outs (F := Ideal)) (c : Dev nD)

/-! ## The heads, where their regions left them -/

theorem V2_main_v16_0 : Gen.V2 m outs c main_v16_0 = outs 2 main_v16_0 c := by
  simp only [Gen.V2, Function.update_of_ne (StableHlo.devRef_ne_of_ne (by decide) : (Proc.devRef .tc main_v16_0 : DevRef τ sig) ≠ Proc.devRef .tc main_v16_1), Function.update_self]
theorem V2_main_v16_1 : Gen.V2 m outs c main_v16_1 = outs 2 main_v16_1 c := by
  simp only [Gen.V2, Function.update_self]
theorem V4_main_v20_0 : Gen.V4 m outs c main_v20_0 = outs 4 main_v20_0 c := by
  simp only [Gen.V4, Function.update_of_ne (StableHlo.devRef_ne_of_ne (by decide) : (Proc.devRef .tc main_v20_0 : DevRef τ sig) ≠ Proc.devRef .tc main_v20_2), Function.update_of_ne (StableHlo.devRef_ne_of_ne (by decide) : (Proc.devRef .tc main_v20_0 : DevRef τ sig) ≠ Proc.devRef .tc main_v20_1), Function.update_self]
theorem V4_main_v20_1 : Gen.V4 m outs c main_v20_1 = outs 4 main_v20_1 c := by
  simp only [Gen.V4, Function.update_of_ne (StableHlo.devRef_ne_of_ne (by decide) : (Proc.devRef .tc main_v20_1 : DevRef τ sig) ≠ Proc.devRef .tc main_v20_2), Function.update_self]
theorem V4_main_v20_2 : Gen.V4 m outs c main_v20_2 = outs 4 main_v20_2 c := by
  simp only [Gen.V4, Function.update_self]
theorem V6_main_v23_0 : Gen.V6 m outs c main_v23_0 = outs 6 main_v23_0 c := by
  simp only [Gen.V6, Function.update_of_ne (StableHlo.devRef_ne_of_ne (by decide) : (Proc.devRef .tc main_v23_0 : DevRef τ sig) ≠ Proc.devRef .tc main_v23_1), Function.update_self]
theorem V6_main_v23_1 : Gen.V6 m outs c main_v23_1 = outs 6 main_v23_1 c := by
  simp only [Gen.V6, Function.update_self]

theorem V6_main_v16_0 : Gen.V6 m outs c main_v16_0 = outs 2 main_v16_0 c :=
  (Gen.V6_of m outs c main_v16_0 (by decide)).trans <| (Gen.V5_of m outs c main_v16_0 (by decide)).trans <| (Gen.V4_of m outs c main_v16_0 (by decide)).trans <| (Gen.V3_of m outs c main_v16_0 (by decide)).trans <| V2_main_v16_0 m outs c
theorem V6_main_v16_1 : Gen.V6 m outs c main_v16_1 = outs 2 main_v16_1 c :=
  (Gen.V6_of m outs c main_v16_1 (by decide)).trans <| (Gen.V5_of m outs c main_v16_1 (by decide)).trans <| (Gen.V4_of m outs c main_v16_1 (by decide)).trans <| (Gen.V3_of m outs c main_v16_1 (by decide)).trans <| V2_main_v16_1 m outs c
theorem V6_main_v20_0 : Gen.V6 m outs c main_v20_0 = outs 4 main_v20_0 c :=
  (Gen.V6_of m outs c main_v20_0 (by decide)).trans <| (Gen.V5_of m outs c main_v20_0 (by decide)).trans <| V4_main_v20_0 m outs c
theorem V6_main_v20_1 : Gen.V6 m outs c main_v20_1 = outs 4 main_v20_1 c :=
  (Gen.V6_of m outs c main_v20_1 (by decide)).trans <| (Gen.V5_of m outs c main_v20_1 (by decide)).trans <| V4_main_v20_1 m outs c
theorem V6_main_v20_2 : Gen.V6 m outs c main_v20_2 = outs 4 main_v20_2 c :=
  (Gen.V6_of m outs c main_v20_2 (by decide)).trans <| (Gen.V5_of m outs c main_v20_2 (by decide)).trans <| V4_main_v20_2 m outs c

/-! ## A reference no item up to the last region writes -/

/-- A reference that no host stretch before the sparse stage writes and no region may change holds its launch
    contents when the sparse stage starts. -/
theorem V6_arg (r : Ref sig .tc) (h1 : r ∉ Gen.hostOps0_W) (h2 : r ∉ ([main_v16_0, main_v16_1] : List (Ref sig .tc)))
    (h3 : r ∉ Gen.hostOps1_W) (h4 : r ∉ ([main_v20_0, main_v20_1, main_v20_2] : List (Ref sig .tc)))
    (h5 : r ∉ Gen.hostOps2_W) (h6 : r ∉ ([main_v23_0, main_v23_1] : List (Ref sig .tc))) :
    Gen.V6 m outs c r = m ((c : Thread nD τ).loc r) :=
  (Gen.V6_of m outs c r h6).trans <| (Gen.V5_of m outs c r h5).trans <| (Gen.V4_of m outs c r h4).trans <|
    (Gen.V3_of m outs c r h3).trans <| (Gen.V2_of m outs c r h2).trans <| (Gen.V1_of m c r h1).trans rfl

/-- The first sum's stretch and its clamp write neither the later sums' operands nor a launch argument. -/
theorem V8_eq_V6 (r : Ref sig .tc) (h7 : r ∉ Gen.hostOps3_W) (h8 : r ∉ Gen.hostOps3_1_W) :
    Gen.V8 m outs c r = Gen.V6 m outs c r :=
  (Gen.V8_of m outs c r h8).trans (Gen.V7_of m outs c r h7)

theorem V10_eq_V8 (r : Ref sig .tc) (h9 : r ∉ Gen.hostOps3_2_W) (h10 : r ∉ Gen.hostOps3_3_W) :
    Gen.V10 m outs c r = Gen.V8 m outs c r :=
  (Gen.V10_of m outs c r h10).trans (Gen.V9_of m outs c r h9)

/-! ## The three results -/

/-- The first result is `Y0` of the heads regions 0 and 1 left and of the launched coordinate arrays. -/
theorem V13_main_v53 :
    Gen.V13 m outs c main_v53
      = Y0 (outs 2 main_v16_0 c) (outs 4 main_v20_0 c)
          (m ((c : Thread nD τ).loc main_arg3)) (m ((c : Thread nD τ).loc main_arg4)) (m ((c : Thread nD τ).loc main_arg5))
          (m ((c : Thread nD τ).loc main_arg12)) (m ((c : Thread nD τ).loc main_arg13)) (m ((c : Thread nD τ).loc main_arg14)) := by
  refine (Gen.V13_of m outs c main_v53 (by decide)).trans <| (Gen.V12_of m outs c main_v53 (by decide)).trans <|
    (Gen.V11_of m outs c main_v53 (by decide)).trans <| (Gen.V10_of m outs c main_v53 (by decide)).trans <|
    (after3_2_v53 (Gen.V8 m outs c)).trans ?_
  rw [show Gen.V8 m outs c main_v51 = _ from after3_1_v51 (Gen.V7 m outs c),
    show Gen.V7 m outs c main_v50 = _ from after3_v50 (Gen.V6 m outs c),
    V6_main_v16_0 m outs c, V6_main_v20_0 m outs c,
    V6_arg m outs c main_arg3 (by decide) (by decide) (by decide) (by decide) (by decide) (by decide),
    V6_arg m outs c main_arg4 (by decide) (by decide) (by decide) (by decide) (by decide) (by decide),
    V6_arg m outs c main_arg5 (by decide) (by decide) (by decide) (by decide) (by decide) (by decide),
    V6_arg m outs c main_arg12 (by decide) (by decide) (by decide) (by decide) (by decide) (by decide),
    V6_arg m outs c main_arg13 (by decide) (by decide) (by decide) (by decide) (by decide) (by decide),
    V6_arg m outs c main_arg14 (by decide) (by decide) (by decide) (by decide) (by decide) (by decide)]
  rfl

/-- A launch argument still holds its launch contents when the second sum's stretch starts. -/
theorem V8_arg (r : Ref sig .tc) (h1 : r ∉ Gen.hostOps0_W) (h2 : r ∉ ([main_v16_0, main_v16_1] : List (Ref sig .tc)))
    (h3 : r ∉ Gen.hostOps1_W) (h4 : r ∉ ([main_v20_0, main_v20_1, main_v20_2] : List (Ref sig .tc)))
    (h5 : r ∉ Gen.hostOps2_W) (h6 : r ∉ ([main_v23_0, main_v23_1] : List (Ref sig .tc)))
    (h7 : r ∉ Gen.hostOps3_W) (h8 : r ∉ Gen.hostOps3_1_W) :
    Gen.V8 m outs c r = m ((c : Thread nD τ).loc r) :=
  (V8_eq_V6 m outs c r h7 h8).trans (V6_arg m outs c r h1 h2 h3 h4 h5 h6)

/-- A launch argument still holds its launch contents when the third sum's stretch starts. -/
theorem V10_arg (r : Ref sig .tc) (h1 : r ∉ Gen.hostOps0_W) (h2 : r ∉ ([main_v16_0, main_v16_1] : List (Ref sig .tc)))
    (h3 : r ∉ Gen.hostOps1_W) (h4 : r ∉ ([main_v20_0, main_v20_1, main_v20_2] : List (Ref sig .tc)))
    (h5 : r ∉ Gen.hostOps2_W) (h6 : r ∉ ([main_v23_0, main_v23_1] : List (Ref sig .tc)))
    (h7 : r ∉ Gen.hostOps3_W) (h8 : r ∉ Gen.hostOps3_1_W) (h9 : r ∉ Gen.hostOps3_2_W) (h10 : r ∉ Gen.hostOps3_3_W) :
    Gen.V10 m outs c r = m ((c : Thread nD τ).loc r) :=
  (V10_eq_V8 m outs c r h9 h10).trans (V8_arg m outs c r h1 h2 h3 h4 h5 h6 h7 h8)

theorem V8_main_v20_1 : Gen.V8 m outs c main_v20_1 = outs 4 main_v20_1 c :=
  (V8_eq_V6 m outs c main_v20_1 (by decide) (by decide)).trans (V6_main_v20_1 m outs c)
theorem V8_main_v16_1 : Gen.V8 m outs c main_v16_1 = outs 2 main_v16_1 c :=
  (V8_eq_V6 m outs c main_v16_1 (by decide) (by decide)).trans (V6_main_v16_1 m outs c)
theorem V8_main_v23_1 : Gen.V8 m outs c main_v23_1 = outs 6 main_v23_1 c :=
  (V8_eq_V6 m outs c main_v23_1 (by decide) (by decide)).trans (V6_main_v23_1 m outs c)
theorem V10_main_v23_0 : Gen.V10 m outs c main_v23_0 = outs 6 main_v23_0 c :=
  (V10_eq_V8 m outs c main_v23_0 (by decide) (by decide)).trans <|
    (V8_eq_V6 m outs c main_v23_0 (by decide) (by decide)).trans (V6_main_v23_0 m outs c)
theorem V10_main_v20_2 : Gen.V10 m outs c main_v20_2 = outs 4 main_v20_2 c :=
  (V10_eq_V8 m outs c main_v20_2 (by decide) (by decide)).trans <|
    (V8_eq_V6 m outs c main_v20_2 (by decide) (by decide)).trans (V6_main_v20_2 m outs c)

/-- The second result is `Y1` of the heads the three regions left and of the launched coordinate arrays. -/
theorem V13_main_v94 :
    Gen.V13 m outs c main_v94
      = Y1 (outs 4 main_v20_1 c) (outs 2 main_v16_1 c) (outs 6 main_v23_1 c)
          (m ((c : Thread nD τ).loc main_arg6)) (m ((c : Thread nD τ).loc main_arg7)) (m ((c : Thread nD τ).loc main_arg8))
          (m ((c : Thread nD τ).loc main_arg15)) (m ((c : Thread nD τ).loc main_arg16)) (m ((c : Thread nD τ).loc main_arg17))
          (m ((c : Thread nD τ).loc main_arg21)) (m ((c : Thread nD τ).loc main_arg22)) (m ((c : Thread nD τ).loc main_arg23)) := by
  refine (Gen.V13_of m outs c main_v94 (by decide)).trans <| (Gen.V12_of m outs c main_v94 (by decide)).trans <|
    (after3_4_v94 (Gen.V10 m outs c)).trans ?_
  rw [show Gen.V10 m outs c main_v92 = _ from after3_3_v92 (Gen.V9 m outs c),
    show Gen.V9 m outs c main_v91 = _ from after3_2_v91 (Gen.V8 m outs c),
    V8_main_v20_1 m outs c, V8_main_v16_1 m outs c, V8_main_v23_1 m outs c,
    V8_arg m outs c main_arg6 (by decide) (by decide) (by decide) (by decide) (by decide) (by decide) (by decide) (by decide),
    V8_arg m outs c main_arg7 (by decide) (by decide) (by decide) (by decide) (by decide) (by decide) (by decide) (by decide),
    V8_arg m outs c main_arg8 (by decide) (by decide) (by decide) (by decide) (by decide) (by decide) (by decide) (by decide),
    V8_arg m outs c main_arg15 (by decide) (by decide) (by decide) (by decide) (by decide) (by decide) (by decide) (by decide),
    V8_arg m outs c main_arg16 (by decide) (by decide) (by decide) (by decide) (by decide) (by decide) (by decide) (by decide),
    V8_arg m outs c main_arg17 (by decide) (by decide) (by decide) (by decide) (by decide) (by decide) (by decide) (by decide),
    V8_arg m outs c main_arg21 (by decide) (by decide) (by decide) (by decide) (by decide) (by decide) (by decide) (by decide),
    V8_arg m outs c main_arg22 (by decide) (by decide) (by decide) (by decide) (by decide) (by decide) (by decide) (by decide),
    V8_arg m outs c main_arg23 (by decide) (by decide) (by decide) (by decide) (by decide) (by decide) (by decide) (by decide)]
  rfl

/-- The third result is `Y2` of the heads regions 2 and 1 left and of the launched coordinate arrays. -/
theorem V13_main_v124 :
    Gen.V13 m outs c main_v124
      = Y2 (outs 6 main_v23_0 c) (outs 4 main_v20_2 c)
          (m ((c : Thread nD τ).loc main_arg9)) (m ((c : Thread nD τ).loc main_arg10)) (m ((c : Thread nD τ).loc main_arg11))
          (m ((c : Thread nD τ).loc main_arg18)) (m ((c : Thread nD τ).loc main_arg19)) (m ((c : Thread nD τ).loc main_arg20)) := by
  refine (after3_6_v124 (Gen.V12 m outs c)).trans ?_
  rw [show Gen.V12 m outs c main_v122 = _ from after3_5_v122 (Gen.V11 m outs c),
    show Gen.V11 m outs c main_v121 = _ from after3_4_v121 (Gen.V10 m outs c),
    V10_main_v23_0 m outs c, V10_main_v20_2 m outs c,
    V10_arg m outs c main_arg9 (by decide) (by decide) (by decide) (by decide) (by decide) (by decide) (by decide) (by decide) (by decide) (by decide),
    V10_arg m outs c main_arg10 (by decide) (by decide) (by decide) (by decide) (by decide) (by decide) (by decide) (by decide) (by decide) (by decide),
    V10_arg m outs c main_arg11 (by decide) (by decide) (by decide) (by decide) (by decide) (by decide) (by decide) (by decide) (by decide) (by decide),
    V10_arg m outs c main_arg18 (by decide) (by decide) (by decide) (by decide) (by decide) (by decide) (by decide) (by decide) (by decide) (by decide),
    V10_arg m outs c main_arg19 (by decide) (by decide) (by decide) (by decide) (by decide) (by decide) (by decide) (by decide) (by decide) (by decide),
    V10_arg m outs c main_arg20 (by decide) (by decide) (by decide) (by decide) (by decide) (by decide) (by decide) (by decide) (by decide) (by decide)]
  rfl

end Reads

end Cert.KernelIdeal.Tail

end
-- ==== Proof.TailEntry.lean ====
/-
  What the three dense regions are given: each operand of a region, read off the buffers as the region is
  entered, is a launch argument as launched, a 64×64 block of a launched 128×64 weight array (its first or
  its last 64 rows), or a launched bias vector of 64 entries recast as one row.
-/
import proofs.«139850_j32306744000652_2_alg».proof.Proof.Gen.KernelIdeal.Regions
import Idealize.ShloMosaic.Lib.StableHlo.Run

set_option maxRecDepth 1448

noncomputable section

namespace Cert.KernelIdeal.Tail

open Idealize.ShloMosaic Idealize.ShloMosaic.TcCoe
open Cert.KernelIdeal Cert.KernelIdeal.Facts₀

variable {F : FTy → Type} [FloatOps F]

section Stretches

variable (W : Valuation τ sig (Elt F))

/-! ## The first stretch: fourteen blocks of weights, two bias rows -/

theorem after0_main_v0 :
    StableHlo.after (Gen.hostOps0 (F := F)) W (Proc.devRef .tc main_v0)
      = extractStridedSlice S64x64 ![0, 0] (W main_arg24 : S128x64.Idx → F .f32) slices_S128x64_S64x64_0_0 := by
  after_results_simp <;> rfl
theorem after0_main_v1 :
    StableHlo.after (Gen.hostOps0 (F := F)) W (Proc.devRef .tc main_v1)
      = extractStridedSlice S64x64 ![64, 0] (W main_arg24 : S128x64.Idx → F .f32) slices_S128x64_S64x64_64_0 := by
  after_results_simp <;> rfl
theorem after0_main_v2 :
    StableHlo.after (Gen.hostOps0 (F := F)) W (Proc.devRef .tc main_v2)
      = extractStridedSlice S64x64 ![0, 0] (W main_arg26 : S128x64.Idx → F .f32) slices_S128x64_S64x64_0_0 := by
  after_results_simp <;> rfl
theorem after0_main_v3 :
    StableHlo.after (Gen.hostOps0 (F := F)) W (Proc.devRef .tc main_v3)
      = extractStridedSlice S64x64 ![64, 0] (W main_arg26 : S128x64.Idx → F .f32) slices_S128x64_S64x64_64_0 := by
  after_results_simp <;> rfl
theorem after0_main_v4 :
    StableHlo.after (Gen.hostOps0 (F := F)) W (Proc.devRef .tc main_v4)
      = extractStridedSlice S64x64 ![0, 0] (W main_arg30 : S128x64.Idx → F .f32) slices_S128x64_S64x64_0_0 := by
  after_results_simp <;> rfl
theorem after0_main_v5 :
    StableHlo.after (Gen.hostOps0 (F := F)) W (Proc.devRef .tc main_v5)
      = extractStridedSlice S64x64 ![64, 0] (W main_arg30 : S128x64.Idx → F .f32) slices_S128x64_S64x64_64_0 := by
  after_results_simp <;> rfl
theorem after0_main_v6 :
    StableHlo.after (Gen.hostOps0 (F := F)) W (Proc.devRef .tc main_v6)
      = extractStridedSlice S64x64 ![0, 0] (W main_arg28 : S128x64.Idx → F .f32) slices_S128x64_S64x64_0_0 := by
  after_results_simp <;> rfl
theorem after0_main_v7 :
    StableHlo.after (Gen.hostOps0 (F := F)) W (Proc.devRef .tc main_v7)
      = extractStridedSlice S64x64 ![64, 0] (W main_arg28 : S128x64.Idx → F .f32) slices_S128x64_S64x64_64_0 := by
  after_results_simp <;> rfl
theorem after0_main_v8 :
    StableHlo.after (Gen.hostOps0 (F := F)) W (Proc.devRef .tc main_v8)
      = extractStridedSlice S64x64 ![0, 0] (W main_arg32 : S128x64.Idx → F .f32) slices_S128x64_S64x64_0_0 := by
  after_results_simp <;> rfl
theorem after0_main_v9 :
    StableHlo.after (Gen.hostOps0 (F := F)) W (Proc.devRef .tc main_v9)
      = extractStridedSlice S64x64 ![64, 0] (W main_arg32 : S128x64.Idx → F .f32) slices_S128x64_S64x64_64_0 := by
  after_results_simp <;> rfl
theorem after0_main_v10 :
    StableHlo.after (Gen.hostOps0 (F := F)) W (Proc.devRef .tc main_v10)
      = extractStridedSlice S64x64 ![0, 0] (W main_arg36 : S128x64.Idx → F .f32) slices_S128x64_S64x64_0_0 := by
  after_results_simp <;> rfl
theorem after0_main_v11 :
    StableHlo.after (Gen.hostOps0 (F := F)) W (Proc.devRef .tc main_v11)
      = extractStridedSlice S64x64 ![64, 0] (W main_arg36 : S128x64.Idx → F .f32) slices_S128x64_S64x64_64_0 := by
  after_results_simp <;> rfl
theorem after0_main_v12 :
    StableHlo.after (Gen.hostOps0 (F := F)) W (Proc.devRef .tc main_v12)
      = extractStridedSlice S64x64 ![0, 0] (W main_arg34 : S128x64.Idx → F .f32) slices_S128x64_S64x64_0_0 := by
  after_results_simp <;> rfl
theorem after0_main_v13 :
    StableHlo.after (Gen.hostOps0 (F := F)) W (Proc.devRef .tc main_v13)
      = extractStridedSlice S64x64 ![64, 0] (W main_arg34 : S128x64.Idx → F .f32) slices_S128x64_S64x64_64_0 := by
  after_results_simp <;> rfl
theorem after0_main_v14 :
    StableHlo.after (Gen.hostOps0 (F := F)) W (Proc.devRef .tc main_v14)
      = shapeCast S1x64 (W main_arg25 : S64.Idx → F .f32) shapeCasts_S64_S1x64 := by
  after_results_simp <;> rfl
theorem after0_main_v15 :
    StableHlo.after (Gen.hostOps0 (F := F)) W (Proc.devRef .tc main_v15)
      = shapeCast S1x64 (W main_arg27 : S64.Idx → F .f32) shapeCasts_S64_S1x64 := by
  after_results_simp <;> rfl

/-! ## The second and third stretches: bias rows -/

theorem after1_main_v17 :
    StableHlo.after (Gen.hostOps1 (F := F)) W (Proc.devRef .tc main_v17)
      = shapeCast S1x64 (W main_arg31 : S64.Idx → F .f32) shapeCasts_S64_S1x64 := by
  after_results_simp <;> rfl
theorem after1_main_v18 :
    StableHlo.after (Gen.hostOps1 (F := F)) W (Proc.devRef .tc main_v18)
      = shapeCast S1x64 (W main_arg29 : S64.Idx → F .f32) shapeCasts_S64_S1x64 := by
  after_results_simp <;> rfl
theorem after1_main_v19 :
    StableHlo.after (Gen.hostOps1 (F := F)) W (Proc.devRef .tc main_v19)
      = shapeCast S1x64 (W main_arg33 : S64.Idx → F .f32) shapeCasts_S64_S1x64 := by
  after_results_simp <;> rfl
theorem after2_main_v21 :
    StableHlo.after (Gen.hostOps2 (F := F)) W (Proc.devRef .tc main_v21)
      = shapeCast S1x64 (W main_arg37 : S64.Idx → F .f32) shapeCasts_S64_S1x64 := by
  after_results_simp <;> rfl
theorem after2_main_v22 :
    StableHlo.after (Gen.hostOps2 (F := F)) W (Proc.devRef .tc main_v22)
      = shapeCast S1x64 (W main_arg35 : S64.Idx → F .f32) shapeCasts_S64_S1x64 := by
  after_results_simp <;> rfl

end Stretches

section Entry

variable (m : (ℓ : Loc nD τ sig) → Buf (Elt F) ℓ) (outs : Gen.Outs (F := F)) (c : Dev nD)

/-! ## After the first stretch -/

/-- A reference the first stretch does not write holds its launch contents after it. -/
theorem V1_arg (r : Ref sig .tc) (h1 : r ∉ Gen.hostOps0_W) : Gen.V1 m c r = m ((c : Thread nD τ).loc r) :=
  (Gen.V1_of m c r h1).trans rfl

theorem V1_main_v0 : Gen.V1 m c main_v0 = extractStridedSlice S64x64 ![0, 0] (m ((c : Thread nD τ).loc main_arg24)) slices_S128x64_S64x64_0_0 :=
  after0_main_v0 (Gen.V0 m c)
theorem V1_main_v1 : Gen.V1 m c main_v1 = extractStridedSlice S64x64 ![64, 0] (m ((c : Thread nD τ).loc main_arg24)) slices_S128x64_S64x64_64_0 :=
  after0_main_v1 (Gen.V0 m c)
theorem V1_main_v2 : Gen.V1 m c main_v2 = extractStridedSlice S64x64 ![0, 0] (m ((c : Thread nD τ).loc main_arg26)) slices_S128x64_S64x64_0_0 :=
  after0_main_v2 (Gen.V0 m c)
theorem V1_main_v3 : Gen.V1 m c main_v3 = extractStridedSlice S64x64 ![64, 0] (m ((c : Thread nD τ).loc main_arg26)) slices_S128x64_S64x64_64_0 :=
  after0_main_v3 (Gen.V0 m c)
theorem V1_main_v4 : Gen.V1 m c main_v4 = extractStridedSlice S64x64 ![0, 0] (m ((c : Thread nD τ).loc main_arg30)) slices_S128x64_S64x64_0_0 :=
  after0_main_v4 (Gen.V0 m c)
theorem V1_main_v5 : Gen.V1 m c main_v5 = extractStridedSlice S64x64 ![64, 0] (m ((c : Thread nD τ).loc main_arg30)) slices_S128x64_S64x64_64_0 :=
  after0_main_v5 (Gen.V0 m c)
theorem V1_main_v6 : Gen.V1 m c main_v6 = extractStridedSlice S64x64 ![0, 0] (m ((c : Thread nD τ).loc main_arg28)) slices_S128x64_S64x64_0_0 :=
  after0_main_v6 (Gen.V0 m c)
theorem V1_main_v7 : Gen.V1 m c main_v7 = extractStridedSlice S64x64 ![64, 0] (m ((c : Thread nD τ).loc main_arg28)) slices_S128x64_S64x64_64_0 :=
  after0_main_v7 (Gen.V0 m c)
theorem V1_main_v8 : Gen.V1 m c main_v8 = extractStridedSlice S64x64 ![0, 0] (m ((c : Thread nD τ).loc main_arg32)) slices_S128x64_S64x64_0_0 :=
  after0_main_v8 (Gen.V0 m c)
theorem V1_main_v9 : Gen.V1 m c main_v9 = extractStridedSlice S64x64 ![64, 0] (m ((c : Thread nD τ).loc main_arg32)) slices_S128x64_S64x64_64_0 :=
  after0_main_v9 (Gen.V0 m c)
theorem V1_main_v10 : Gen.V1 m c main_v10 = extractStridedSlice S64x64 ![0, 0] (m ((c : Thread nD τ).loc main_arg36)) slices_S128x64_S64x64_0_0 :=
  after0_main_v10 (Gen.V0 m c)
theorem V1_main_v11 : Gen.V1 m c main_v11 = extractStridedSlice S64x64 ![64, 0] (m ((c : Thread nD τ).loc main_arg36)) slices_S128x64_S64x64_64_0 :=
  after0_main_v11 (Gen.V0 m c)
theorem V1_main_v12 : Gen.V1 m c main_v12 = extractStridedSlice S64x64 ![0, 0] (m ((c : Thread nD τ).loc main_arg34)) slices_S128x64_S64x64_0_0 :=
  after0_main_v12 (Gen.V0 m c)
theorem V1_main_v13 : Gen.V1 m c main_v13 = extractStridedSlice S64x64 ![64, 0] (m ((c : Thread nD τ).loc main_arg34)) slices_S128x64_S64x64_64_0 :=
  after0_main_v13 (Gen.V0 m c)
theorem V1_main_v14 : Gen.V1 m c main_v14 = shapeCast S1x64 (m ((c : Thread nD τ).loc main_arg25)) shapeCasts_S64_S1x64 :=
  after0_main_v14 (Gen.V0 m c)
theorem V1_main_v15 : Gen.V1 m c main_v15 = shapeCast S1x64 (m ((c : Thread nD τ).loc main_arg27)) shapeCasts_S64_S1x64 :=
  after0_main_v15 (Gen.V0 m c)

/-! ## Region 0's operands, as it is entered -/

theorem V1_main_arg0 : Gen.V1 m c main_arg0 = m ((c : Thread nD τ).loc main_arg0) := V1_arg m c main_arg0 (by decide)

/-! ## Region 1's operands, as it is entered -/

/-- A reference neither of the first two stretches writes and region 0 may not change holds its launch contents
    as region 1 is entered. -/
theorem V3_arg (r : Ref sig .tc) (h1 : r ∉ Gen.hostOps0_W) (h2 : r ∉ ([main_v16_0, main_v16_1] : List (Ref sig .tc)))
    (h3 : r ∉ Gen.hostOps1_W) : Gen.V3 m outs c r = m ((c : Thread nD τ).loc r) :=
  (Gen.V3_of m outs c r h3).trans <| (Gen.V2_of m outs c r h2).trans <| V1_arg m c r h1

/-- What the first stretch wrote is still there as region 1 is entered. -/
theorem V3_eq_V1 (r : Ref sig .tc) (h2 : r ∉ ([main_v16_0, main_v16_1] : List (Ref sig .tc))) (h3 : r ∉ Gen.hostOps1_W) :
    Gen.V3 m outs c r = Gen.V1 m c r :=
  (Gen.V3_of m outs c r h3).trans (Gen.V2_of m outs c r h2)

theorem V3_main_arg1 : Gen.V3 m outs c main_arg1 = m ((c : Thread nD τ).loc main_arg1) :=
  V3_arg m outs c main_arg1 (by decide) (by decide) (by decide)
theorem V3_main_v4 : Gen.V3 m outs c main_v4 = extractStridedSlice S64x64 ![0, 0] (m ((c : Thread nD τ).loc main_arg30)) slices_S128x64_S64x64_0_0 :=
  (V3_eq_V1 m outs c main_v4 (by decide) (by decide)).trans (V1_main_v4 m c)
theorem V3_main_v5 : Gen.V3 m outs c main_v5 = extractStridedSlice S64x64 ![64, 0] (m ((c : Thread nD τ).loc main_arg30)) slices_S128x64_S64x64_64_0 :=
  (V3_eq_V1 m outs c main_v5 (by decide) (by decide)).trans (V1_main_v5 m c)
theorem V3_main_v6 : Gen.V3 m outs c main_v6 = extractStridedSlice S64x64 ![0, 0] (m ((c : Thread nD τ).loc main_arg28)) slices_S128x64_S64x64_0_0 :=
  (V3_eq_V1 m outs c main_v6 (by decide) (by decide)).trans (V1_main_v6 m c)
theorem V3_main_v7 : Gen.V3 m outs c main_v7 = extractStridedSlice S64x64 ![64, 0] (m ((c : Thread nD τ).loc main_arg28)) slices_S128x64_S64x64_64_0 :=
  (V3_eq_V1 m outs c main_v7 (by decide) (by decide)).trans (V1_main_v7 m c)
theorem V3_main_v8 : Gen.V3 m outs c main_v8 = extractStridedSlice S64x64 ![0, 0] (m ((c : Thread nD τ).loc main_arg32)) slices_S128x64_S64x64_0_0 :=
  (V3_eq_V1 m outs c main_v8 (by decide) (by decide)).trans (V1_main_v8 m c)
theorem V3_main_v9 : Gen.V3 m outs c main_v9 = extractStridedSlice S64x64 ![64, 0] (m ((c : Thread nD τ).loc main_arg32)) slices_S128x64_S64x64_64_0 :=
  (V3_eq_V1 m outs c main_v9 (by decide) (by decide)).trans (V1_main_v9 m c)
theorem V3_main_v17 : Gen.V3 m outs c main_v17 = shapeCast S1x64 (m ((c : Thread nD τ).loc main_arg31)) shapeCasts_S64_S1x64 := by
  refine (after1_main_v17 (Gen.V2 m outs c)).trans ?_
  rw [show Gen.V2 m outs c main_arg31 = _ from (Gen.V2_of m outs c main_arg31 (by decide)).trans (V1_arg m c main_arg31 (by decide))]
theorem V3_main_v18 : Gen.V3 m outs c main_v18 = shapeCast S1x64 (m ((c : Thread nD τ).loc main_arg29)) shapeCasts_S64_S1x64 := by
  refine (after1_main_v18 (Gen.V2 m outs c)).trans ?_
  rw [show Gen.V2 m outs c main_arg29 = _ from (Gen.V2_of m outs c main_arg29 (by decide)).trans (V1_arg m c main_arg29 (by decide))]
theorem V3_main_v19 : Gen.V3 m outs c main_v19 = shapeCast S1x64 (m ((c : Thread nD τ).loc main_arg33)) shapeCasts_S64_S1x64 := by
  refine (after1_main_v19 (Gen.V2 m outs c)).trans ?_
  rw [show Gen.V2 m outs c main_arg33 = _ from (Gen.V2_of m outs c main_arg33 (by decide)).trans (V1_arg m c main_arg33 (by decide))]

/-! ## Region 2's operands, as it is entered -/

/-- A reference none of the first three stretches writes and regions 0 and 1 may not change holds its launch
    contents as region 2 is entered. -/
theorem V5_arg (r : Ref sig .tc) (h1 : r ∉ Gen.hostOps0_W) (h2 : r ∉ ([main_v16_0, main_v16_1] : List (Ref sig .tc)))
    (h3 : r ∉ Gen.hostOps1_W) (h4 : r ∉ ([main_v20_0, main_v20_1, main_v20_2] : List (Ref sig .tc)))
    (h5 : r ∉ Gen.hostOps2_W) : Gen.V5 m outs c r = m ((c : Thread nD τ).loc r) :=
  (Gen.V5_of m outs c r h5).trans <| (Gen.V4_of m outs c r h4).trans <| V3_arg m outs c r h1 h2 h3

/-- What the first stretch wrote is still there as region 2 is entered. -/
theorem V5_eq_V1 (r : Ref sig .tc) (h2 : r ∉ ([main_v16_0, main_v16_1] : List (Ref sig .tc))) (h3 : r ∉ Gen.hostOps1_W)
    (h4 : r ∉ ([main_v20_0, main_v20_1, main_v20_2] : List (Ref sig .tc))) (h5 : r ∉ Gen.hostOps2_W) :
    Gen.V5 m outs c r = Gen.V1 m c r :=
  (Gen.V5_of m outs c r h5).trans <| (Gen.V4_of m outs c r h4).trans <| V3_eq_V1 m outs c r h2 h3

theorem V5_main_arg2 : Gen.V5 m outs c main_arg2 = m ((c : Thread nD τ).loc main_arg2) :=
  V5_arg m outs c main_arg2 (by decide) (by decide) (by decide) (by decide) (by decide)
theorem V5_main_v10 : Gen.V5 m outs c main_v10 = extractStridedSlice S64x64 ![0, 0] (m ((c : Thread nD τ).loc main_arg36)) slices_S128x64_S64x64_0_0 :=
  (V5_eq_V1 m outs c main_v10 (by decide) (by decide) (by decide) (by decide)).trans (V1_main_v10 m c)
theorem V5_main_v11 : Gen.V5 m outs c main_v11 = extractStridedSlice S64x64 ![64, 0] (m ((c : Thread nD τ).loc main_arg36)) slices_S128x64_S64x64_64_0 :=
  (V5_eq_V1 m outs c main_v11 (by decide) (by decide) (by decide) (by decide)).trans (V1_main_v11 m c)
theorem V5_main_v12 : Gen.V5 m outs c main_v12 = extractStridedSlice S64x64 ![0, 0] (m ((c : Thread nD τ).loc main_arg34)) slices_S128x64_S64x64_0_0 :=
  (V5_eq_V1 m outs c main_v12 (by decide) (by decide) (by decide) (by decide)).trans (V1_main_v12 m c)
theorem V5_main_v13 : Gen.V5 m outs c main_v13 = extractStridedSlice S64x64 ![64, 0] (m ((c : Thread nD τ).loc main_arg34)) slices_S128x64_S64x64_64_0 :=
  (V5_eq_V1 m outs c main_v13 (by decide) (by decide) (by decide) (by decide)).trans (V1_main_v13 m c)
theorem V5_main_v21 : Gen.V5 m outs c main_v21 = shapeCast S1x64 (m ((c : Thread nD τ).loc main_arg37)) shapeCasts_S64_S1x64 := by
  refine (after2_main_v21 (Gen.V4 m outs c)).trans ?_
  rw [show Gen.V4 m outs c main_arg37 = _ from (Gen.V4_of m outs c main_arg37 (by decide)).trans (V3_arg m outs c main_arg37 (by decide) (by decide) (by decide))]
theorem V5_main_v22 : Gen.V5 m outs c main_v22 = shapeCast S1x64 (m ((c : Thread nD τ).loc main_arg35)) shapeCasts_S64_S1x64 := by
  refine (after2_main_v22 (Gen.V4 m outs c)).trans ?_
  rw [show Gen.V4 m outs c main_arg35 = _ from (Gen.V4_of m outs c main_arg35 (by decide)).trans (V3_arg m outs c main_arg35 (by decide) (by decide) (by decide))]

end Entry

end Cert.KernelIdeal.Tail

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibScatterRows.lean ====
/-
  The accumulating row scatter, read entry by entry, and its additivity over stacked updates.

  The scatter here has an operand of `N` rows and `C` columns, one scatter index per update row (indices of shape
  `[U, 1]`, the index vector on axis 1) and updates of shape `[U, C]` whose axis 1 is the window axis; operand axis 0
  is the inserted window axis and the one the index names. Update entry `(u, j)` therefore lands on operand entry
  `(idx[u, 0], j)`, the index read as a signed integer, and is dropped when that row lies outside `[0, N)`. On the
  extended reals the result at `(r, j)` is the operand's entry plus the sum over the update rows `u` with
  `idx[u, 0] = r` of `upd[u, j]`.

  When the update rows and their indices are two (or three) arrays stacked along axis 0, that sum splits into the
  pieces' sums: one scatter of the stacked arrays into a zero operand equals the entrywise sum of the pieces' scatters
  into zero operands. Only the commutative monoid structure of `+` on the extended reals is used.
-/
import Idealize.ShloMosaic.PureOps.Ideal
import Idealize.ShloMosaic.PureOps.Contract
import Idealize.ShloMosaic.Lib.Pipeline.Value
import Idealize.ShloMosaic.Lib.ValueIdx
import Idealize.ShloMosaic.PureOps.Ideal.Laws
import proofs.«139850_j32306744000652_2_alg».proof.Proof.LibConcatPair

noncomputable section

namespace Idealize.ShloMosaic.ScatterRows

open Idealize.ShloMosaic Idealize.ShloMosaic.ValueIdx

variable {N U C w : Nat}

/-- The row scatter's dimension numbers for an operand `[N, C]`, indices `[U, 1]` and updates `[U, C]`; their
    conditions `wf` are decided on a program's literal shapes. -/
abbrev rowDims (N U C : Nat) (wf : ScatterDims.WF ⟨2, ![N, C]⟩ ⟨2, ![U, 1]⟩ ⟨2, ![U, C]⟩ [1] [0] [0] 1) :
    ScatterDims ⟨2, ![N, C]⟩ ⟨2, ![U, 1]⟩ ⟨2, ![U, C]⟩ where
  updateWindowDims := [1]
  insertedWindowDims := [0]
  scatterDimsToOperandDims := [0]
  indexVectorDim := 1
  wf := wf

section Landing
variable (wf : ScatterDims.WF ⟨2, ![N, C]⟩ ⟨2, ![U, 1]⟩ ⟨2, ![U, C]⟩ [1] [0] [0] 1)
  (idx : IVec ⟨2, ![U, 1]⟩ w) (u : Fin U) (j : Fin C)

/-- The window of update `(u, j)` starts, on operand axis 0, at the signed index `idx[u, 0]`. -/
theorem start_zero : (rowDims N U C wf).start (ix2 u j) idx 0 = (idx (ix2 u 0)).toInt := by
  unfold ScatterDims.start
  rw [dif_pos (show (0 : Fin 2) ∈ [(0 : Fin 2)] from List.mem_singleton.mpr rfl)]
  congr 2
  funext b
  match b with
  | ⟨0, _⟩ => rfl
  | ⟨1, _⟩ => rfl

/-- On operand axis 1 the window starts at `0`: the index map does not name that axis. -/
theorem start_one : (rowDims N U C wf).start (ix2 u j) idx 1 = 0 := by
  unfold ScatterDims.start
  rw [dif_neg (show ¬ (1 : Fin 2) ∈ [(0 : Fin 2)] by decide)]

/-- Operand axis 0 is an inserted window axis: the window coordinate there is `0`. -/
theorem window_zero : (rowDims N U C wf).window (ix2 u j) 0 = 0 := by
  unfold ScatterDims.window
  have h : ¬ (0 : Fin 2) ∈ (rowDims N U C wf).sKept := (by decide : ¬ (0 : Fin 2) ∈ [(1 : Fin 2)])
  rw [dif_neg h]

/-- On operand axis 1 the window coordinate is the update's column. -/
theorem window_one : (rowDims N U C wf).window (ix2 u j) 1 = j.val := by
  unfold ScatterDims.window
  have h : (1 : Fin 2) ∈ (rowDims N U C wf).sKept := (List.mem_singleton.mpr rfl : (1 : Fin 2) ∈ [(1 : Fin 2)])
  rw [dif_pos h]
  rfl

/-- The landing row of update `(u, j)`, before the bounds check. -/
theorem pos_zero :
    (rowDims N U C wf).start (ix2 u j) idx 0 + ((rowDims N U C wf).window (ix2 u j) 0 : Int) = (idx (ix2 u 0)).toInt := by
  rw [start_zero, window_zero]; simp

/-- The landing column of update `(u, j)`. -/
theorem pos_one :
    (rowDims N U C wf).start (ix2 u j) idx 1 + ((rowDims N U C wf).window (ix2 u j) 1 : Int) = (j.val : Int) := by
  rw [start_one, window_one]; simp

/-- WHERE AN UPDATE LANDS: update `(u, j)` lands on operand entry `(r, j')` exactly when its signed index is `r` and
    the columns agree. -/
theorem resultIdx?_eq_some_iff (r : Fin N) (j' : Fin C) :
    (rowDims N U C wf).resultIdx? (ix2 u j) idx = some (ix2 r j') ↔ (idx (ix2 u 0)).toInt = (r.val : Int) ∧ j = j' := by
  unfold ScatterDims.resultIdx?
  split
  next h =>
    have h0 := h 0
    rw [pos_zero] at h0
    rw [Option.some.injEq]
    constructor
    · intro heq
      have e0 : ((rowDims N U C wf).start (ix2 u j) idx 0 + ((rowDims N U C wf).window (ix2 u j) 0 : Int)).toNat = r.val :=
        congrArg Fin.val (congrFun heq 0)
      have e1 : ((rowDims N U C wf).start (ix2 u j) idx 1 + ((rowDims N U C wf).window (ix2 u j) 1 : Int)).toNat = j'.val :=
        congrArg Fin.val (congrFun heq 1)
      rw [pos_zero] at e0
      rw [pos_one] at e1
      refine ⟨by omega, Fin.ext (by omega)⟩
    · rintro ⟨h1, rfl⟩
      funext a
      match a with
      | ⟨0, _⟩ =>
        refine Fin.ext ?_
        show ((rowDims N U C wf).start (ix2 u j) idx 0 + ((rowDims N U C wf).window (ix2 u j) 0 : Int)).toNat = r.val
        rw [pos_zero, h1]; omega
      | ⟨1, _⟩ =>
        refine Fin.ext ?_
        show ((rowDims N U C wf).start (ix2 u j) idx 1 + ((rowDims N U C wf).window (ix2 u j) 1 : Int)).toNat = j.val
        rw [pos_one]; omega
  next h =>
    constructor
    · intro heq; cases heq
    · rintro ⟨h1, rfl⟩
      exfalso
      apply h
      intro a
      match a with
      | ⟨0, _⟩ =>
        show 0 ≤ (rowDims N U C wf).start (ix2 u j) idx 0 + ((rowDims N U C wf).window (ix2 u j) 0 : Int) ∧
          (rowDims N U C wf).start (ix2 u j) idx 0 + ((rowDims N U C wf).window (ix2 u j) 0 : Int) < (N : Int)
        rw [pos_zero, h1]
        have := r.isLt
        omega
      | ⟨1, _⟩ =>
        show 0 ≤ (rowDims N U C wf).start (ix2 u j) idx 1 + ((rowDims N U C wf).window (ix2 u j) 1 : Int) ∧
          (rowDims N U C wf).start (ix2 u j) idx 1 + ((rowDims N U C wf).window (ix2 u j) 1 : Int) < (C : Int)
        rw [pos_one]
        have := j.isLt
        omega

end Landing

/-! ## The scatter read at an entry -/

/-- The sum a row scatter adds to operand entry `(r, j)`: over the update rows `u` whose signed index is `r`, the
    update's entry `(u, j)`. -/
def rowSum (idx : IVec ⟨2, ![U, 1]⟩ w) (upd : (⟨2, ![U, C]⟩ : Shape).Idx → EReal) (r : Nat) (j : Fin C) : EReal :=
  ∑ u : Fin U, if (idx (ix2 u 0)).toInt = (r : Int) then upd (ix2 u j) else 0

/-- THE ROW SCATTER AT `(r, j)`: the operand's entry plus the sum of the updates' column `j` over the update rows
    whose index is `r`. -/
theorem hostScatterAdd_rows (wf : ScatterDims.WF ⟨2, ![N, C]⟩ ⟨2, ![U, 1]⟩ ⟨2, ![U, C]⟩ [1] [0] [0] 1)
    (x : (⟨2, ![N, C]⟩ : Shape).Idx → EReal) (idx : IVec ⟨2, ![U, 1]⟩ w) (upd : (⟨2, ![U, C]⟩ : Shape).Idx → EReal)
    (r : Fin N) (j : Fin C) :
    Ideal.hostScatterAdd (rowDims N U C wf) x idx upd (ix2 r j) = x (ix2 r j) + rowSum idx upd r.val j := by
  unfold Ideal.hostScatterAdd rowSum
  congr 1
  rw [Finset.sum_filter, sum_idx2]
  refine Finset.sum_congr rfl fun u _ => ?_
  simp only [resultIdx?_eq_some_iff]
  by_cases hrow : (idx (ix2 u 0)).toInt = (r.val : Int)
  · simp only [hrow, true_and, if_true]
    rw [Finset.sum_ite_eq' Finset.univ j fun b => upd (ix2 u b), if_pos (Finset.mem_univ j)]
  · simp only [hrow, false_and, if_false]
    exact Finset.sum_const_zero

/-! ## Stacked update rows -/

section Split
variable {M : Type*} [AddCommMonoid M]

/-- A sum over `c = a + b` positions is the sum over the first `a` plus the sum over the last `b`. -/
theorem sum_fin_pair {a b c : Nat} (hc : a + b = c) (f : Fin c → M) :
    ∑ u : Fin c, f u = (∑ u : Fin a, f ⟨u.val, by omega⟩) + ∑ u : Fin b, f ⟨a + u.val, by omega⟩ := by
  subst hc
  rw [Fin.sum_univ_add]
  rfl

/-- A sum over `d = a + b + c` positions is the sum of the three consecutive stretches' sums. -/
theorem sum_fin_triple {a b c d : Nat} (hd : a + b + c = d) (f : Fin d → M) :
    ∑ u : Fin d, f u = (∑ u : Fin a, f ⟨u.val, by omega⟩) + (∑ u : Fin b, f ⟨a + u.val, by omega⟩)
      + ∑ u : Fin c, f ⟨a + b + u.val, by omega⟩ := by
  subst hd
  rw [Fin.sum_univ_add, Fin.sum_univ_add]
  rfl

end Split

/-- The scatter's sum over two stacked pieces is the sum of the pieces' sums: the stacked indices and updates read, on
    the first `a` rows, as the first piece's and, on the last `b`, as the second's. -/
theorem rowSum_pair {a b c : Nat} (hc : a + b = c)
    (idx : IVec ⟨2, ![c, 1]⟩ w) (idx₁ : IVec ⟨2, ![a, 1]⟩ w) (idx₂ : IVec ⟨2, ![b, 1]⟩ w)
    (upd : (⟨2, ![c, C]⟩ : Shape).Idx → EReal) (upd₁ : (⟨2, ![a, C]⟩ : Shape).Idx → EReal)
    (upd₂ : (⟨2, ![b, C]⟩ : Shape).Idx → EReal)
    (hi₁ : ∀ (u : Fin a) (hu : u.val < c), idx (ix2 ⟨u.val, hu⟩ 0) = idx₁ (ix2 u 0))
    (hi₂ : ∀ (u : Fin b) (hu : a + u.val < c), idx (ix2 ⟨a + u.val, hu⟩ 0) = idx₂ (ix2 u 0))
    (hu₁ : ∀ (u : Fin a) (j : Fin C) (hu : u.val < c), upd (ix2 ⟨u.val, hu⟩ j) = upd₁ (ix2 u j))
    (hu₂ : ∀ (u : Fin b) (j : Fin C) (hu : a + u.val < c), upd (ix2 ⟨a + u.val, hu⟩ j) = upd₂ (ix2 u j))
    (r : Nat) (j : Fin C) :
    rowSum idx upd r j = rowSum idx₁ upd₁ r j + rowSum idx₂ upd₂ r j := by
  unfold rowSum
  rw [sum_fin_pair hc]
  congr 1
  · refine Finset.sum_congr rfl fun u _ => ?_
    rw [hi₁, hu₁]
  · refine Finset.sum_congr rfl fun u _ => ?_
    rw [hi₂, hu₂]

/-- The scatter's sum over three stacked pieces is the sum of the three pieces' sums. -/
theorem rowSum_triple {a b c d : Nat} (hd : a + b + c = d)
    (idx : IVec ⟨2, ![d, 1]⟩ w) (idx₁ : IVec ⟨2, ![a, 1]⟩ w) (idx₂ : IVec ⟨2, ![b, 1]⟩ w) (idx₃ : IVec ⟨2, ![c, 1]⟩ w)
    (upd : (⟨2, ![d, C]⟩ : Shape).Idx → EReal) (upd₁ : (⟨2, ![a, C]⟩ : Shape).Idx → EReal)
    (upd₂ : (⟨2, ![b, C]⟩ : Shape).Idx → EReal) (upd₃ : (⟨2, ![c, C]⟩ : Shape).Idx → EReal)
    (hi₁ : ∀ (u : Fin a) (hu : u.val < d), idx (ix2 ⟨u.val, hu⟩ 0) = idx₁ (ix2 u 0))
    (hi₂ : ∀ (u : Fin b) (hu : a + u.val < d), idx (ix2 ⟨a + u.val, hu⟩ 0) = idx₂ (ix2 u 0))
    (hi₃ : ∀ (u : Fin c) (hu : a + b + u.val < d), idx (ix2 ⟨a + b + u.val, hu⟩ 0) = idx₃ (ix2 u 0))
    (hu₁ : ∀ (u : Fin a) (j : Fin C) (hu : u.val < d), upd (ix2 ⟨u.val, hu⟩ j) = upd₁ (ix2 u j))
    (hu₂ : ∀ (u : Fin b) (j : Fin C) (hu : a + u.val < d), upd (ix2 ⟨a + u.val, hu⟩ j) = upd₂ (ix2 u j))
    (hu₃ : ∀ (u : Fin c) (j : Fin C) (hu : a + b + u.val < d), upd (ix2 ⟨a + b + u.val, hu⟩ j) = upd₃ (ix2 u j))
    (r : Nat) (j : Fin C) :
    rowSum idx upd r j = rowSum idx₁ upd₁ r j + rowSum idx₂ upd₂ r j + rowSum idx₃ upd₃ r j := by
  unfold rowSum
  rw [sum_fin_triple hd]
  congr 1
  · congr 1
    · refine Finset.sum_congr rfl fun u _ => ?_
      rw [hi₁, hu₁]
    · refine Finset.sum_congr rfl fun u _ => ?_
      rw [hi₂, hu₂]
  · refine Finset.sum_congr rfl fun u _ => ?_
    rw [hi₃, hu₃]

/-! ## Three arrays laid end to end, read at an entry

  A concatenation of three arrays along axis 0, read by coordinates: a coordinate below the first extent reads the first
  piece, one in the next stretch the second piece with the first extent subtracted, one in the last stretch the third
  with the first two extents subtracted. Rank 2 (stacked rows) and rank 1. -/

section Concat3
variable {α : Type} {a b c d n : Nat}

/-- Three stacked row blocks, an entry of the first. -/
theorem rows3_fst (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin a) (q : Fin n) (hr : r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨r.val, hr⟩ q)
      = x₁ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨r.val, hr⟩ q) 0 (Nat.succ_pos _) ⟨2, ![a, n]⟩ x₁ rfl rfl
    0 rfl (ix2 r q) (fun bb hb => match bb, hb with | ⟨0, _⟩, hb => absurd rfl hb | ⟨1, _⟩, _ => rfl) (Nat.zero_add _)

/-- Three stacked row blocks, an entry of the second. -/
theorem rows3_snd (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin b) (q : Fin n) (hr : a + r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨a + r.val, hr⟩ q)
      = x₂ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨a + r.val, hr⟩ q) 1 (Nat.succ_lt_succ (Nat.succ_pos _))
    ⟨2, ![b, n]⟩ x₂ rfl rfl a rfl (ix2 r q)
    (fun bb hb => match bb, hb with | ⟨0, _⟩, hb => absurd rfl hb | ⟨1, _⟩, _ => rfl) rfl

/-- Three stacked row blocks, an entry of the third. -/
theorem rows3_thd (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin c) (q : Fin n) (hr : a + b + r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨a + b + r.val, hr⟩ q)
      = x₃ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨a + b + r.val, hr⟩ q) 2
    (Nat.succ_lt_succ (Nat.succ_lt_succ (Nat.succ_pos _))) ⟨2, ![c, n]⟩ x₃ rfl rfl (a + b) rfl (ix2 r q)
    (fun bb hb => match bb, hb with | ⟨0, _⟩, hb => absurd rfl hb | ⟨1, _⟩, _ => rfl) rfl

/-- Three vectors end to end, an entry of the first. -/
theorem vec3_fst (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin a) (hq : q.val < d) :
    concatenate ⟨1, ![d]⟩ (0 : Fin 1) [⟨⟨1, ![a]⟩, x₁⟩, ⟨⟨1, ![b]⟩, x₂⟩, ⟨⟨1, ![c]⟩, x₃⟩] h (ix1 ⟨q.val, hq⟩) = x₁ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨q.val, hq⟩) 0 (Nat.succ_pos _) ⟨1, ![a]⟩ x₁ rfl rfl
    0 rfl (ix1 q) (fun bb hb => match bb, hb with | ⟨0, _⟩, hb => absurd rfl hb) (Nat.zero_add _)

/-- Three vectors end to end, an entry of the second. -/
theorem vec3_snd (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin b) (hq : a + q.val < d) :
    concatenate ⟨1, ![d]⟩ (0 : Fin 1) [⟨⟨1, ![a]⟩, x₁⟩, ⟨⟨1, ![b]⟩, x₂⟩, ⟨⟨1, ![c]⟩, x₃⟩] h (ix1 ⟨a + q.val, hq⟩) = x₂ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨a + q.val, hq⟩) 1 (Nat.succ_lt_succ (Nat.succ_pos _))
    ⟨1, ![b]⟩ x₂ rfl rfl a rfl (ix1 q) (fun bb hb => match bb, hb with | ⟨0, _⟩, hb => absurd rfl hb) rfl

/-- Three vectors end to end, an entry of the third. -/
theorem vec3_thd (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin c) (hq : a + b + q.val < d) :
    concatenate ⟨1, ![d]⟩ (0 : Fin 1) [⟨⟨1, ![a]⟩, x₁⟩, ⟨⟨1, ![b]⟩, x₂⟩, ⟨⟨1, ![c]⟩, x₃⟩] h (ix1 ⟨a + b + q.val, hq⟩) = x₃ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨a + b + q.val, hq⟩) 2
    (Nat.succ_lt_succ (Nat.succ_lt_succ (Nat.succ_pos _))) ⟨1, ![c]⟩ x₃ rfl rfl (a + b) rfl (ix1 q)
    (fun bb hb => match bb, hb with | ⟨0, _⟩, hb => absurd rfl hb) rfl

end Concat3

/-- A vector broadcast to a one-column array reads, at `(u, 0)`, as the vector's entry `u`. -/
theorem bcast_col_apply {α : Type} {U : Nat}
    (h : (⟨1, ![U]⟩ : Shape).BroadcastsInDim ⟨2, ![U, 1]⟩ (![0] : Fin 1 → Fin 2))
    (x : (⟨1, ![U]⟩ : Shape).Idx → α) (u : Fin U) :
    broadcastInDim ⟨2, ![U, 1]⟩ ![0] h x (ix2 u 0) = x (ix1 u) :=
  broadcastInDim_apply _ h x (ix2 u 0) (ix1 u) (fun a => match a with
    | ⟨0, _⟩ => by
        show u.val = if U = 1 then 0 else u.val
        by_cases hU : U = 1
        · rw [if_pos hU]; omega
        · rw [if_neg hU])

/-! ## One scatter of stacked pieces is the sum of the pieces' scatters -/

/-- On the extended reals the accumulating scatter is the exact sum. -/
theorem scatterAdd_ideal {s si u : Shape} {φ : FTy} (d : ScatterDims s si u) (x : FVec Ideal s φ) (idx : IVec si w)
    (upd : FVec Ideal u φ) : Host.scatterAdd (F := Ideal) d x idx upd = Ideal.hostScatterAdd d x idx upd := rfl

/-- TWO STACKED PIECES. Scattering the rows of two update arrays laid one above the other, at their row indices laid
    end to end, into an operand that is entrywise the sum of two operands, gives the entrywise sum of the two
    pieces' scatters into those operands. -/
theorem scatterAdd_stacked_pair {φ : FTy} {a b c : Nat} (hc : a + b = c)
    (wf : ScatterDims.WF ⟨2, ![N, C]⟩ ⟨2, ![c, 1]⟩ ⟨2, ![c, C]⟩ [1] [0] [0] 1)
    (wf₁ : ScatterDims.WF ⟨2, ![N, C]⟩ ⟨2, ![a, 1]⟩ ⟨2, ![a, C]⟩ [1] [0] [0] 1)
    (wf₂ : ScatterDims.WF ⟨2, ![N, C]⟩ ⟨2, ![b, 1]⟩ ⟨2, ![b, C]⟩ [1] [0] [0] 1)
    (hb : (⟨1, ![c]⟩ : Shape).BroadcastsInDim ⟨2, ![c, 1]⟩ (![0] : Fin 1 → Fin 2))
    (hb₁ : (⟨1, ![a]⟩ : Shape).BroadcastsInDim ⟨2, ![a, 1]⟩ (![0] : Fin 1 → Fin 2))
    (hb₂ : (⟨1, ![b]⟩ : Shape).BroadcastsInDim ⟨2, ![b, 1]⟩ (![0] : Fin 1 → Fin 2))
    (hcat : Shape.Concatenates [(⟨1, ![a]⟩ : Shape), ⟨1, ![b]⟩] ⟨1, ![c]⟩ (0 : Fin 1))
    (hcat2 : Shape.Concatenates [(⟨2, ![a, C]⟩ : Shape), ⟨2, ![b, C]⟩] ⟨2, ![c, C]⟩ (0 : Fin 2))
    (z z₁ z₂ : FVec Ideal ⟨2, ![N, C]⟩ φ) (hz : ∀ i, z i = z₁ i + z₂ i)
    (rows₁ : IVec ⟨1, ![a]⟩ w) (rows₂ : IVec ⟨1, ![b]⟩ w)
    (upd₁ : FVec Ideal ⟨2, ![a, C]⟩ φ) (upd₂ : FVec Ideal ⟨2, ![b, C]⟩ φ) :
    Host.scatterAdd (F := Ideal) (rowDims N c C wf) z
        (broadcastInDim ⟨2, ![c, 1]⟩ ![0] hb
          (concatenate ⟨1, ![c]⟩ (0 : Fin 1) [⟨⟨1, ![a]⟩, rows₁⟩, ⟨⟨1, ![b]⟩, rows₂⟩] hcat))
        (concatenate ⟨2, ![c, C]⟩ (0 : Fin 2) [⟨⟨2, ![a, C]⟩, upd₁⟩, ⟨⟨2, ![b, C]⟩, upd₂⟩] hcat2)
      = addf (Host.scatterAdd (F := Ideal) (rowDims N a C wf₁) z₁ (broadcastInDim ⟨2, ![a, 1]⟩ ![0] hb₁ rows₁) upd₁)
          (Host.scatterAdd (F := Ideal) (rowDims N b C wf₂) z₂ (broadcastInDim ⟨2, ![b, 1]⟩ ![0] hb₂ rows₂) upd₂) := by
  funext i
  obtain ⟨r, j, rfl⟩ : ∃ (r : Fin N) (j : Fin C), i = ix2 r j := ⟨i 0, i 1, eq_ix2 i⟩
  rw [addf_apply, scatterAdd_ideal, scatterAdd_ideal, scatterAdd_ideal, hostScatterAdd_rows, hostScatterAdd_rows,
    hostScatterAdd_rows, hz]
  rw [rowSum_pair hc _ (broadcastInDim ⟨2, ![a, 1]⟩ ![0] hb₁ rows₁) (broadcastInDim ⟨2, ![b, 1]⟩ ![0] hb₂ rows₂) _ upd₁ upd₂
    (fun u hu => by
      rw [bcast_col_apply, bcast_col_apply]
      exact ConcatPair.vec_fst rows₁ rows₂ hcat u hu)
    (fun u hu => by
      rw [bcast_col_apply, bcast_col_apply]
      exact ConcatPair.vec_snd rows₁ rows₂ hcat u hu)
    (fun u j hu => ConcatPair.rows_fst upd₁ upd₂ hcat2 u j hu)
    (fun u j hu => ConcatPair.rows_snd upd₁ upd₂ hcat2 u j hu)]
  exact add_add_add_comm _ _ _ _

/-- THREE STACKED PIECES. The same for three update arrays and their row indices: one scatter of the stacked arrays is
    the entrywise sum, associated to the left, of the three pieces' scatters. -/
theorem scatterAdd_stacked_triple {φ : FTy} {a b c d : Nat} (hd : a + b + c = d)
    (wf : ScatterDims.WF ⟨2, ![N, C]⟩ ⟨2, ![d, 1]⟩ ⟨2, ![d, C]⟩ [1] [0] [0] 1)
    (wf₁ : ScatterDims.WF ⟨2, ![N, C]⟩ ⟨2, ![a, 1]⟩ ⟨2, ![a, C]⟩ [1] [0] [0] 1)
    (wf₂ : ScatterDims.WF ⟨2, ![N, C]⟩ ⟨2, ![b, 1]⟩ ⟨2, ![b, C]⟩ [1] [0] [0] 1)
    (wf₃ : ScatterDims.WF ⟨2, ![N, C]⟩ ⟨2, ![c, 1]⟩ ⟨2, ![c, C]⟩ [1] [0] [0] 1)
    (hb : (⟨1, ![d]⟩ : Shape).BroadcastsInDim ⟨2, ![d, 1]⟩ (![0] : Fin 1 → Fin 2))
    (hb₁ : (⟨1, ![a]⟩ : Shape).BroadcastsInDim ⟨2, ![a, 1]⟩ (![0] : Fin 1 → Fin 2))
    (hb₂ : (⟨1, ![b]⟩ : Shape).BroadcastsInDim ⟨2, ![b, 1]⟩ (![0] : Fin 1 → Fin 2))
    (hb₃ : (⟨1, ![c]⟩ : Shape).BroadcastsInDim ⟨2, ![c, 1]⟩ (![0] : Fin 1 → Fin 2))
    (hcat : Shape.Concatenates [(⟨1, ![a]⟩ : Shape), ⟨1, ![b]⟩, ⟨1, ![c]⟩] ⟨1, ![d]⟩ (0 : Fin 1))
    (hcat2 : Shape.Concatenates [(⟨2, ![a, C]⟩ : Shape), ⟨2, ![b, C]⟩, ⟨2, ![c, C]⟩] ⟨2, ![d, C]⟩ (0 : Fin 2))
    (z z₁ z₂ z₃ : FVec Ideal ⟨2, ![N, C]⟩ φ) (hz : ∀ i, z i = z₁ i + z₂ i + z₃ i)
    (rows₁ : IVec ⟨1, ![a]⟩ w) (rows₂ : IVec ⟨1, ![b]⟩ w) (rows₃ : IVec ⟨1, ![c]⟩ w)
    (upd₁ : FVec Ideal ⟨2, ![a, C]⟩ φ) (upd₂ : FVec Ideal ⟨2, ![b, C]⟩ φ) (upd₃ : FVec Ideal ⟨2, ![c, C]⟩ φ) :
    Host.scatterAdd (F := Ideal) (rowDims N d C wf) z
        (broadcastInDim ⟨2, ![d, 1]⟩ ![0] hb
          (concatenate ⟨1, ![d]⟩ (0 : Fin 1) [⟨⟨1, ![a]⟩, rows₁⟩, ⟨⟨1, ![b]⟩, rows₂⟩, ⟨⟨1, ![c]⟩, rows₃⟩] hcat))
        (concatenate ⟨2, ![d, C]⟩ (0 : Fin 2) [⟨⟨2, ![a, C]⟩, upd₁⟩, ⟨⟨2, ![b, C]⟩, upd₂⟩, ⟨⟨2, ![c, C]⟩, upd₃⟩] hcat2)
      = addf (addf (Host.scatterAdd (F := Ideal) (rowDims N a C wf₁) z₁ (broadcastInDim ⟨2, ![a, 1]⟩ ![0] hb₁ rows₁) upd₁)
            (Host.scatterAdd (F := Ideal) (rowDims N b C wf₂) z₂ (broadcastInDim ⟨2, ![b, 1]⟩ ![0] hb₂ rows₂) upd₂))
          (Host.scatterAdd (F := Ideal) (rowDims N c C wf₃) z₃ (broadcastInDim ⟨2, ![c, 1]⟩ ![0] hb₃ rows₃) upd₃) := by
  funext i
  obtain ⟨r, j, rfl⟩ : ∃ (r : Fin N) (j : Fin C), i = ix2 r j := ⟨i 0, i 1, eq_ix2 i⟩
  rw [addf_apply, addf_apply, scatterAdd_ideal, scatterAdd_ideal, scatterAdd_ideal, scatterAdd_ideal, hostScatterAdd_rows,
    hostScatterAdd_rows, hostScatterAdd_rows, hostScatterAdd_rows, hz]
  rw [rowSum_triple hd _ (broadcastInDim ⟨2, ![a, 1]⟩ ![0] hb₁ rows₁) (broadcastInDim ⟨2, ![b, 1]⟩ ![0] hb₂ rows₂)
    (broadcastInDim ⟨2, ![c, 1]⟩ ![0] hb₃ rows₃) _ upd₁ upd₂ upd₃
    (fun u hu => by
      rw [bcast_col_apply, bcast_col_apply]
      exact vec3_fst rows₁ rows₂ rows₃ hcat u hu)
    (fun u hu => by
      rw [bcast_col_apply, bcast_col_apply]
      exact vec3_snd rows₁ rows₂ rows₃ hcat u hu)
    (fun u hu => by
      rw [bcast_col_apply, bcast_col_apply]
      exact vec3_thd rows₁ rows₂ rows₃ hcat u hu)
    (fun u j hu => rows3_fst upd₁ upd₂ upd₃ hcat2 u j hu)
    (fun u j hu => rows3_snd upd₁ upd₂ upd₃ hcat2 u j hu)
    (fun u j hu => rows3_thd upd₁ upd₂ upd₃ hcat2 u j hu)]
  generalize z₁ (ix2 r j) = p₁
  generalize z₂ (ix2 r j) = p₂
  generalize z₃ (ix2 r j) = p₃
  generalize rowSum (broadcastInDim ⟨2, ![a, 1]⟩ ![0] hb₁ rows₁) upd₁ r.val j = q₁
  generalize rowSum (broadcastInDim ⟨2, ![b, 1]⟩ ![0] hb₂ rows₂) upd₂ r.val j = q₂
  generalize rowSum (broadcastInDim ⟨2, ![c, 1]⟩ ![0] hb₃ rows₃) upd₃ r.val j = q₃
  abel

/-! ## The zero operand -/

/-- The single-precision constant `+0` spread over an array is the extended real `0` at every entry. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [broadcastInDim_apply _ h _ i (fun a => a.elim0) (fun a => a.elim0), constant_apply]
  exact Ideal.ofBits_zero_f32

end Idealize.ShloMosaic.ScatterRows

end
-- ==== Proof.Bridge.lean ====
/-
  The sparse stage of the two programs, side by side.

  Both programs form, for every part (a sparse matrix in coordinate form against one projection head), the block
  "values times gathered rows of the head". The reference adds each part into its own zero array by a scatter-add at
  the part's row indices and then adds the parts' arrays; the other program lays the parts' blocks and row indices end
  to end and adds them into one zero array by a single scatter-add. On the extended reals a scatter-add is the exact
  sum of the updates landing on an entry, so the two agree entry by entry; the clamp at zero and the final scale are
  the same operations on both sides.

  `part`, `U0`, `U1`, `U2`, `Y0`, `Y1`, `Y2` below spell the reference's sparse stage as functions of the heads
  and the coordinate arrays; `val_main_v128_eq`, `val_main_v133_eq`, `val_main_v137_eq` say that the reference's
  results are these functions of its own heads, and `Y0_eq`, `Y1_eq`, `Y2_eq` that they equal the other program's
  sparse stage at the same heads and coordinate arrays.
-/
import proofs.«139850_j32306744000652_2_alg».proof.Proof.Gen.ReferenceIdeal.Read
import proofs.«139850_j32306744000652_2_alg».proof.Proof.Tail
import proofs.«139850_j32306744000652_2_alg».proof.Proof.LibScatterRows

noncomputable section

namespace Cert.ReferenceIdeal.Tail

open Idealize.ShloMosaic Idealize.ShloMosaic.TcCoe Idealize.ShloMosaic.ValueIdx
open Cert.ReferenceIdeal Cert.ReferenceIdeal.Facts₀

/-- One part's updates in the reference: entry `(e, j)` is `vals e` times entry `j` of the row of the head `p` that the
    column index `cols e` names, a negative column index first moved up by `wrapBy`. -/
def part {N n : Nat} (g : GatherDims (⟨2, ![N, 64]⟩ : Shape) ⟨2, ![n, 1]⟩ ⟨2, ![n, 64]⟩)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (b2 : (⟨2, ![n, 1]⟩ : Shape).BroadcastsInDim ⟨2, ![n, 64]⟩ (![0, 1] : Fin 2 → Fin 2))
    (wrapBy : BitVec 32)
    (p : FVec Ideal ⟨2, ![N, 64]⟩ .f32) (cols : IVec ⟨1, ![n]⟩ 32) (vals : FVec Ideal ⟨1, ![n]⟩ .f32) :
    FVec Ideal ⟨2, ![n, 64]⟩ .f32 :=
  mulf (broadcastInDim ⟨2, ![n, 64]⟩ ![0, 1] b2 (broadcastInDim ⟨2, ![n, 1]⟩ ![0] b1 vals))
    (Host.gather g p
      (broadcastInDim ⟨2, ![n, 1]⟩ ![0] b1
        (select (cmpi .slt cols (broadcastInDim ⟨1, ![n]⟩ ![] b0 (constantI S_ 32 0#32)))
          (addi cols (broadcastInDim ⟨1, ![n]⟩ ![] b0 (constantI S_ 32 wrapBy))) cols)))

/-- The widening of the gathered rows is the identity on the extended reals: the other program's part is this one. -/
theorem kernel_part_eq {N n : Nat} (g : GatherDims (⟨2, ![N, 64]⟩ : Shape) ⟨2, ![n, 1]⟩ ⟨2, ![n, 64]⟩)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (b2 : (⟨2, ![n, 1]⟩ : Shape).BroadcastsInDim ⟨2, ![n, 64]⟩ (![0, 1] : Fin 2 → Fin 2))
    (wrapBy : BitVec 32)
    (p : FVec Ideal ⟨2, ![N, 64]⟩ .f32) (cols : IVec ⟨1, ![n]⟩ 32) (vals : FVec Ideal ⟨1, ![n]⟩ .f32) :
    Cert.KernelIdeal.Tail.part g b0 b1 b2 wrapBy p cols vals = part g b0 b1 b2 wrapBy p cols vals := rfl

/-! ## The first output -/

/-- The first output before the clamp, as the reference forms it: the part against `p_n2n` added into zeros, plus the
    part against `p_e2n` added into zeros. -/
def U0 (p_n2n : FVec Ideal S100000x64 .f32) (p_e2n : FVec Ideal S300000x64 .f32)
    (rows0 cols0 : IVec S1000000 32) (vals0 : FVec Ideal S1000000 .f32)
    (rows1 cols1 : IVec S600000 32) (vals1 : FVec Ideal S600000 .f32) : FVec Ideal S100000x64 .f32 :=
  addf
    (Host.scatterAdd (F := Ideal) scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 rows0)
      (part gather_S100000x64_S1000000x1_S1000000x64_1_0_n_n_0_1_164 bcast_S_S1000000 bcast_S1000000_S1000000x1_0
        bcast_S1000000x1_S1000000x64_0_1 100000#32 p_n2n cols0 vals0))
    (Host.scatterAdd (F := Ideal) scatter_S100000x64_S600000x1_S600000x64_1_0_0_1
      (broadcastInDim S100000x64 ![] bcast_S_S100000x64 (constant (F := Ideal) S_ .f32 0x00000000#32))
      (broadcastInDim S600000x1 ![0] bcast_S600000_S600000x1_0 rows1)
      (part gather_S300000x64_S600000x1_S600000x64_1_0_n_n_0_1_164 bcast_S_S600000 bcast_S600000_S600000x1_0
        bcast_S600000x1_S600000x64_0_1 300000#32 p_e2n cols1 vals1))

/-- The first output: `U0` clamped below at zero, halved. -/
def Y0 (p_n2n : FVec Ideal S100000x64 .f32) (p_e2n : FVec Ideal S300000x64 .f32)
    (rows0 cols0 : IVec S1000000 32) (vals0 : FVec Ideal S1000000 .f32)
    (rows1 cols1 : IVec S600000 32) (vals1 : FVec Ideal S600000 .f32) : FVec Ideal S100000x64 .f32 :=
  mulf (broadcastInDim S100000x64 ![] bcast_S_S100000x64 (constant (F := Ideal) S_ .f32 0x3F000000#32))
    (maximumf (U0 p_n2n p_e2n rows0 cols0 vals0 rows1 cols1 vals1)
      (broadcastInDim S100000x64 ![] bcast_S_S100000x64 (constant (F := Ideal) S_ .f32 0x00000000#32)))

/-- One scatter-add of the two parts laid end to end is the sum of the two parts' scatter-adds. -/
theorem U0_eq (p_n2n : FVec Ideal S100000x64 .f32) (p_e2n : FVec Ideal S300000x64 .f32)
    (rows0 cols0 : IVec S1000000 32) (vals0 : FVec Ideal S1000000 .f32)
    (rows1 cols1 : IVec S600000 32) (vals1 : FVec Ideal S600000 .f32) :
    U0 p_n2n p_e2n rows0 cols0 vals0 rows1 cols1 vals1
      = Cert.KernelIdeal.Tail.U0 p_n2n p_e2n rows0 cols0 vals0 rows1 cols1 vals1 := by
  unfold U0 Cert.KernelIdeal.Tail.U0
  rw [kernel_part_eq, kernel_part_eq]
  exact (ScatterRows.scatterAdd_stacked_pair (N := 100000) (C := 64) (w := 32) (φ := .f32)
    (a := 1000000) (b := 600000) (c := 1600000) (by norm_num)
    Cert.KernelIdeal.Facts₀.scatter_S100000x64_S1600000x1_S1600000x64_1_0_0_1_wf
    scatter_S100000x64_S1000000x1_S1000000x64_1_0_0_1_wf scatter_S100000x64_S600000x1_S600000x64_1_0_0_1_wf
    Cert.KernelIdeal.Facts₀.bcast_S1600000_S1600000x1_0 bcast_S1000000_S1000000x1_0 bcast_S600000_S600000x1_0
    Cert.KernelIdeal.Facts₀.concatenates_S1000000_S600000_S1600000_d0
    Cert.KernelIdeal.Facts₀.concatenates_S1000000x64_S600000x64_S1600000x64_d0
    _ _ _ (fun i => by rw [ScatterRows.zeros_apply]; simp only [add_zero])
    rows0 rows1 _ _).symm

/-- THE FIRST OUTPUT: the reference's sparse stage equals the other program's at the same heads and arrays. -/
theorem Y0_eq (p_n2n : FVec Ideal S100000x64 .f32) (p_e2n : FVec Ideal S300000x64 .f32)
    (rows0 cols0 : IVec S1000000 32) (vals0 : FVec Ideal S1000000 .f32)
    (rows1 cols1 : IVec S600000 32) (vals1 : FVec Ideal S600000 .f32) :
    Y0 p_n2n p_e2n rows0 cols0 vals0 rows1 cols1 vals1
      = Cert.KernelIdeal.Tail.Y0 p_n2n p_e2n rows0 cols0 vals0 rows1 cols1 vals1 := by
  unfold Y0 Cert.KernelIdeal.Tail.Y0
  rw [U0_eq]

/-- The reference's first result is `Y0` of its own two heads. -/
theorem val_main_v128_eq (x0 : (⟨S100000x64, .f32⟩ : BufTy).Contents (Elt Ideal)) (x1 : (⟨S300000x64, .f32⟩ : BufTy).Contents (Elt Ideal))
    (x3 x4 : (⟨S1000000, .i32⟩ : BufTy).Contents (Elt Ideal)) (x5 : (⟨S1000000, .f32⟩ : BufTy).Contents (Elt Ideal))
    (x12 x13 : (⟨S600000, .i32⟩ : BufTy).Contents (Elt Ideal)) (x14 : (⟨S600000, .f32⟩ : BufTy).Contents (Elt Ideal))
    (x24 : (⟨S128x64, .f32⟩ : BufTy).Contents (Elt Ideal)) (x25 : (⟨S64, .f32⟩ : BufTy).Contents (Elt Ideal)) (x30 : (⟨S128x64, .f32⟩ : BufTy).Contents (Elt Ideal)) (x31 : (⟨S64, .f32⟩ : BufTy).Contents (Elt Ideal)) :
    Read.val_main_v128 (F := Ideal) x0 x1 x3 x4 x5 x12 x13 x14 x24 x25 x30 x31
      = Y0 (Read.val_main_v9 (F := Ideal) x0 x24 x25) (Read.val_main_v43 (F := Ideal) x1 x30 x31) x3 x4 x5 x12 x13 x14 := rfl

/-! ## The second output -/

/-- The second output before the clamp, as the reference forms it: the parts against `p_e2e`, `p_n2e` and `p_t2e`, each
    added into zeros, summed in that order. -/
def U1 (p_e2e : FVec Ideal S300000x64 .f32) (p_n2e : FVec Ideal S100000x64 .f32) (p_t2e : FVec Ideal S150000x64 .f32)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) : FVec Ideal S300000x64 .f32 :=
  addf
    (addf
      (Host.scatterAdd (F := Ideal) scatter_S300000x64_S2400000x1_S2400000x64_1_0_0_1
        (broadcastInDim S300000x64 ![] bcast_S_S300000x64 (constant (F := Ideal) S_ .f32 0x00000000#32))
        (broadcastInDim S2400000x1 ![0] bcast_S2400000_S2400000x1_0 rows0)
        (part gather_S300000x64_S2400000x1_S2400000x64_1_0_n_n_0_1_164 bcast_S_S2400000 bcast_S2400000_S2400000x1_0
          bcast_S2400000x1_S2400000x64_0_1 300000#32 p_e2e cols0 vals0))
      (Host.scatterAdd (F := Ideal) scatter_S300000x64_S600000x1_S600000x64_1_0_0_1
        (broadcastInDim S300000x64 ![] bcast_S_S300000x64 (constant (F := Ideal) S_ .f32 0x00000000#32))
        (broadcastInDim S600000x1 ![0] bcast_S600000_S600000x1_0 rows1)
        (part gather_S100000x64_S600000x1_S600000x64_1_0_n_n_0_1_164 bcast_S_S600000 bcast_S600000_S600000x1_0
          bcast_S600000x1_S600000x64_0_1 100000#32 p_n2e cols1 vals1)))
    (Host.scatterAdd (F := Ideal) scatter_S300000x64_S450000x1_S450000x64_1_0_0_1
      (broadcastInDim S300000x64 ![] bcast_S_S300000x64 (constant (F := Ideal) S_ .f32 0x00000000#32))
      (broadcastInDim S450000x1 ![0] bcast_S450000_S450000x1_0 rows2)
      (part gather_S150000x64_S450000x1_S450000x64_1_0_n_n_0_1_164 bcast_S_S450000 bcast_S450000_S450000x1_0
        bcast_S450000x1_S450000x64_0_1 150000#32 p_t2e cols2 vals2))

/-- The second output: `U1` clamped below at zero, scaled by the single-precision constant nearest one third. -/
def Y1 (p_e2e : FVec Ideal S300000x64 .f32) (p_n2e : FVec Ideal S100000x64 .f32) (p_t2e : FVec Ideal S150000x64 .f32)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) : FVec Ideal S300000x64 .f32 :=
  mulf (broadcastInDim S300000x64 ![] bcast_S_S300000x64 (constant (F := Ideal) S_ .f32 0x3EAAAAAB#32))
    (maximumf (U1 p_e2e p_n2e p_t2e rows0 cols0 vals0 rows1 cols1 vals1 rows2 cols2 vals2)
      (broadcastInDim S300000x64 ![] bcast_S_S300000x64 (constant (F := Ideal) S_ .f32 0x00000000#32)))

/-- One scatter-add of the three parts laid end to end is the sum of the three parts' scatter-adds. -/
theorem U1_eq (p_e2e : FVec Ideal S300000x64 .f32) (p_n2e : FVec Ideal S100000x64 .f32) (p_t2e : FVec Ideal S150000x64 .f32)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) :
    U1 p_e2e p_n2e p_t2e rows0 cols0 vals0 rows1 cols1 vals1 rows2 cols2 vals2
      = Cert.KernelIdeal.Tail.U1 p_e2e p_n2e p_t2e rows0 cols0 vals0 rows1 cols1 vals1 rows2 cols2 vals2 := by
  unfold U1 Cert.KernelIdeal.Tail.U1
  rw [kernel_part_eq, kernel_part_eq, kernel_part_eq]
  exact (ScatterRows.scatterAdd_stacked_triple (N := 300000) (C := 64) (w := 32) (φ := .f32)
    (a := 2400000) (b := 600000) (c := 450000) (d := 3450000) (by norm_num)
    Cert.KernelIdeal.Facts₀.scatter_S300000x64_S3450000x1_S3450000x64_1_0_0_1_wf
    scatter_S300000x64_S2400000x1_S2400000x64_1_0_0_1_wf scatter_S300000x64_S600000x1_S600000x64_1_0_0_1_wf
    scatter_S300000x64_S450000x1_S450000x64_1_0_0_1_wf
    Cert.KernelIdeal.Facts₀.bcast_S3450000_S3450000x1_0 bcast_S2400000_S2400000x1_0 bcast_S600000_S600000x1_0
    bcast_S450000_S450000x1_0
    Cert.KernelIdeal.Facts₀.concatenates_S2400000_S600000_S450000_S3450000_d0
    Cert.KernelIdeal.Facts₀.concatenates_S2400000x64_S600000x64_S450000x64_S3450000x64_d0
    _ _ _ _ (fun i => by rw [ScatterRows.zeros_apply]; simp only [add_zero])
    rows0 rows1 rows2 _ _ _).symm

/-- THE SECOND OUTPUT: the reference's sparse stage equals the other program's at the same heads and arrays. -/
theorem Y1_eq (p_e2e : FVec Ideal S300000x64 .f32) (p_n2e : FVec Ideal S100000x64 .f32) (p_t2e : FVec Ideal S150000x64 .f32)
    (rows0 cols0 : IVec S2400000 32) (vals0 : FVec Ideal S2400000 .f32)
    (rows1 cols1 : IVec S600000 32) (vals1 : FVec Ideal S600000 .f32)
    (rows2 cols2 : IVec S450000 32) (vals2 : FVec Ideal S450000 .f32) :
    Y1 p_e2e p_n2e p_t2e rows0 cols0 vals0 rows1 cols1 vals1 rows2 cols2 vals2
      = Cert.KernelIdeal.Tail.Y1 p_e2e p_n2e p_t2e rows0 cols0 vals0 rows1 cols1 vals1 rows2 cols2 vals2 := by
  unfold Y1 Cert.KernelIdeal.Tail.Y1
  rw [U1_eq]

/-- The reference's second result is `Y1` of its own three heads. -/
theorem val_main_v133_eq (x0 : (⟨S100000x64, .f32⟩ : BufTy).Contents (Elt Ideal)) (x1 : (⟨S300000x64, .f32⟩ : BufTy).Contents (Elt Ideal)) (x2 : (⟨S150000x64, .f32⟩ : BufTy).Contents (Elt Ideal))
    (x6 x7 : (⟨S2400000, .i32⟩ : BufTy).Contents (Elt Ideal)) (x8 : (⟨S2400000, .f32⟩ : BufTy).Contents (Elt Ideal))
    (x15 x16 : (⟨S600000, .i32⟩ : BufTy).Contents (Elt Ideal)) (x17 : (⟨S600000, .f32⟩ : BufTy).Contents (Elt Ideal))
    (x21 x22 : (⟨S450000, .i32⟩ : BufTy).Contents (Elt Ideal)) (x23 : (⟨S450000, .f32⟩ : BufTy).Contents (Elt Ideal))
    (x26 : (⟨S128x64, .f32⟩ : BufTy).Contents (Elt Ideal)) (x27 : (⟨S64, .f32⟩ : BufTy).Contents (Elt Ideal)) (x28 : (⟨S128x64, .f32⟩ : BufTy).Contents (Elt Ideal)) (x29 : (⟨S64, .f32⟩ : BufTy).Contents (Elt Ideal))
    (x34 : (⟨S128x64, .f32⟩ : BufTy).Contents (Elt Ideal)) (x35 : (⟨S64, .f32⟩ : BufTy).Contents (Elt Ideal)) :
    Read.val_main_v133 (F := Ideal) x0 x1 x2 x6 x7 x8 x15 x16 x17 x21 x22 x23 x26 x27 x28 x29 x34 x35
      = Y1 (Read.val_main_v60 (F := Ideal) x1 x28 x29) (Read.val_main_v26 (F := Ideal) x0 x26 x27)
          (Read.val_main_v111 (F := Ideal) x2 x34 x35) x6 x7 x8 x15 x16 x17 x21 x22 x23 := rfl

/-! ## The third output -/

/-- The third output before the clamp, as the reference forms it: the part against `p_t2t` added into zeros, plus the
    part against `p_e2t` added into zeros. -/
def U2 (p_t2t : FVec Ideal S150000x64 .f32) (p_e2t : FVec Ideal S300000x64 .f32)
    (rows0 cols0 : IVec S1200000 32) (vals0 : FVec Ideal S1200000 .f32)
    (rows1 cols1 : IVec S450000 32) (vals1 : FVec Ideal S450000 .f32) : FVec Ideal S150000x64 .f32 :=
  addf
    (Host.scatterAdd (F := Ideal) scatter_S150000x64_S1200000x1_S1200000x64_1_0_0_1
      (broadcastInDim S150000x64 ![] bcast_S_S150000x64 (constant (F := Ideal) S_ .f32 0x00000000#32))
      (broadcastInDim S1200000x1 ![0] bcast_S1200000_S1200000x1_0 rows0)
      (part gather_S150000x64_S1200000x1_S1200000x64_1_0_n_n_0_1_164 bcast_S_S1200000 bcast_S1200000_S1200000x1_0
        bcast_S1200000x1_S1200000x64_0_1 150000#32 p_t2t cols0 vals0))
    (Host.scatterAdd (F := Ideal) scatter_S150000x64_S450000x1_S450000x64_1_0_0_1
      (broadcastInDim S150000x64 ![] bcast_S_S150000x64 (constant (F := Ideal) S_ .f32 0x00000000#32))
      (broadcastInDim S450000x1 ![0] bcast_S450000_S450000x1_0 rows1)
      (part gather_S300000x64_S450000x1_S450000x64_1_0_n_n_0_1_164 bcast_S_S450000 bcast_S450000_S450000x1_0
        bcast_S450000x1_S450000x64_0_1 300000#32 p_e2t cols1 vals1))

/-- The third output: `U2` clamped below at zero, halved. -/
def Y2 (p_t2t : FVec Ideal S150000x64 .f32) (p_e2t : FVec Ideal S300000x64 .f32)
    (rows0 cols0 : IVec S1200000 32) (vals0 : FVec Ideal S1200000 .f32)
    (rows1 cols1 : IVec S450000 32) (vals1 : FVec Ideal S450000 .f32) : FVec Ideal S150000x64 .f32 :=
  mulf (broadcastInDim S150000x64 ![] bcast_S_S150000x64 (constant (F := Ideal) S_ .f32 0x3F000000#32))
    (maximumf (U2 p_t2t p_e2t rows0 cols0 vals0 rows1 cols1 vals1)
      (broadcastInDim S150000x64 ![] bcast_S_S150000x64 (constant (F := Ideal) S_ .f32 0x00000000#32)))

/-- One scatter-add of the two parts laid end to end is the sum of the two parts' scatter-adds. -/
theorem U2_eq (p_t2t : FVec Ideal S150000x64 .f32) (p_e2t : FVec Ideal S300000x64 .f32)
    (rows0 cols0 : IVec S1200000 32) (vals0 : FVec Ideal S1200000 .f32)
    (rows1 cols1 : IVec S450000 32) (vals1 : FVec Ideal S450000 .f32) :
    U2 p_t2t p_e2t rows0 cols0 vals0 rows1 cols1 vals1
      = Cert.KernelIdeal.Tail.U2 p_t2t p_e2t rows0 cols0 vals0 rows1 cols1 vals1 := by
  unfold U2 Cert.KernelIdeal.Tail.U2
  rw [kernel_part_eq, kernel_part_eq]
  exact (ScatterRows.scatterAdd_stacked_pair (N := 150000) (C := 64) (w := 32) (φ := .f32)
    (a := 1200000) (b := 450000) (c := 1650000) (by norm_num)
    Cert.KernelIdeal.Facts₀.scatter_S150000x64_S1650000x1_S1650000x64_1_0_0_1_wf
    scatter_S150000x64_S1200000x1_S1200000x64_1_0_0_1_wf scatter_S150000x64_S450000x1_S450000x64_1_0_0_1_wf
    Cert.KernelIdeal.Facts₀.bcast_S1650000_S1650000x1_0 bcast_S1200000_S1200000x1_0 bcast_S450000_S450000x1_0
    Cert.KernelIdeal.Facts₀.concatenates_S1200000_S450000_S1650000_d0
    Cert.KernelIdeal.Facts₀.concatenates_S1200000x64_S450000x64_S1650000x64_d0
    _ _ _ (fun i => by rw [ScatterRows.zeros_apply]; simp only [add_zero])
    rows0 rows1 _ _).symm

/-- THE THIRD OUTPUT: the reference's sparse stage equals the other program's at the same heads and arrays. -/
theorem Y2_eq (p_t2t : FVec Ideal S150000x64 .f32) (p_e2t : FVec Ideal S300000x64 .f32)
    (rows0 cols0 : IVec S1200000 32) (vals0 : FVec Ideal S1200000 .f32)
    (rows1 cols1 : IVec S450000 32) (vals1 : FVec Ideal S450000 .f32) :
    Y2 p_t2t p_e2t rows0 cols0 vals0 rows1 cols1 vals1
      = Cert.KernelIdeal.Tail.Y2 p_t2t p_e2t rows0 cols0 vals0 rows1 cols1 vals1 := by
  unfold Y2 Cert.KernelIdeal.Tail.Y2
  rw [U2_eq]

/-- The reference's third result is `Y2` of its own two heads. -/
theorem val_main_v137_eq (x1 : (⟨S300000x64, .f32⟩ : BufTy).Contents (Elt Ideal)) (x2 : (⟨S150000x64, .f32⟩ : BufTy).Contents (Elt Ideal))
    (x9 x10 : (⟨S1200000, .i32⟩ : BufTy).Contents (Elt Ideal)) (x11 : (⟨S1200000, .f32⟩ : BufTy).Contents (Elt Ideal))
    (x18 x19 : (⟨S450000, .i32⟩ : BufTy).Contents (Elt Ideal)) (x20 : (⟨S450000, .f32⟩ : BufTy).Contents (Elt Ideal))
    (x32 : (⟨S128x64, .f32⟩ : BufTy).Contents (Elt Ideal)) (x33 : (⟨S64, .f32⟩ : BufTy).Contents (Elt Ideal)) (x36 : (⟨S128x64, .f32⟩ : BufTy).Contents (Elt Ideal)) (x37 : (⟨S64, .f32⟩ : BufTy).Contents (Elt Ideal)) :
    Read.val_main_v137 (F := Ideal) x1 x2 x9 x10 x11 x18 x19 x20 x32 x33 x36 x37
      = Y2 (Read.val_main_v94 (F := Ideal) x2 x36 x37) (Read.val_main_v77 (F := Ideal) x1 x32 x33) x9 x10 x11 x18 x19 x20 := rfl

end Cert.ReferenceIdeal.Tail

end
-- ==== Proof.LibConcatCols.lean ====
/-
  Blocks laid side by side (a concatenation of rank-2 arrays along the second axis) read by coordinates: two, three
  and four blocks of any widths, and a family of one-column blocks.
-/
import Idealize.ShloMosaic.Lib.ValueIdx
import Idealize.ShloMosaic.Lib.Pipeline.Value

noncomputable section

namespace Idealize.ShloMosaic.ConcatCols

open Idealize.ShloMosaic Idealize.ShloMosaic.ValueIdx

variable {α : Type}

/-- Four blocks side by side, read at `(r, j)`: the block whose column span holds `j`. -/
theorem cols4_apply {n a b c d t : Nat} (x1 : (⟨2, ![n, a]⟩ : Shape).Idx → α) (x2 : (⟨2, ![n, b]⟩ : Shape).Idx → α) (x3 : (⟨2, ![n, c]⟩ : Shape).Idx → α) (x4 : (⟨2, ![n, d]⟩ : Shape).Idx → α)
    (h : Shape.Concatenates [(⟨2, ![n, a]⟩ : Shape), ⟨2, ![n, b]⟩, ⟨2, ![n, c]⟩, ⟨2, ![n, d]⟩] ⟨2, ![n, t]⟩ (1 : Fin 2))
    (ht : t = a + b + c + d) (r : Fin n) (j : Fin t) :
    concatenate ⟨2, ![n, t]⟩ (1 : Fin 2) [⟨⟨2, ![n, a]⟩, x1⟩, ⟨⟨2, ![n, b]⟩, x2⟩, ⟨⟨2, ![n, c]⟩, x3⟩, ⟨⟨2, ![n, d]⟩, x4⟩] h (ix2 r j)
      = if h1 : j.val < a then x1 (ix2 r ⟨j.val, h1⟩)
        else if h2 : j.val < a + b then x2 (ix2 r ⟨j.val - (a), by have := j.isLt; omega⟩)
        else if h3 : j.val < a + b + c then x3 (ix2 r ⟨j.val - (a + b), by have := j.isLt; omega⟩)
        else x4 (ix2 r ⟨j.val - (a + b + c), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 0 (by show 0 < 4; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 1 (by show 1 < 4; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      split
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 2 (by show 2 < 4; omega) _ x3 rfl rfl (a + b) rfl (ix2 r ⟨j.val - (a + b), by omega⟩) (fun b hb => ?_) (by show (a + b) + (j.val - (a + b)) = j.val; omega)
        match b with
        | ⟨0, _⟩ => rfl
        | ⟨1, _⟩ => exact absurd rfl hb
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 3 (by show 3 < 4; omega) _ x4 rfl rfl (a + (b + c)) rfl (ix2 r ⟨j.val - (a + b + c), by omega⟩) (fun b hb => ?_) (by show (a + (b + c)) + (j.val - (a + b + c)) = j.val; omega)
        match b with
        | ⟨0, _⟩ => rfl
        | ⟨1, _⟩ => exact absurd rfl hb

/-- Three blocks side by side, read at `(r, j)`. -/
theorem cols3_apply {n a b c t : Nat} (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, t]⟩ (1 : Fin 2))
    (ht : t = a + b + c) (r : Fin n) (j : Fin t) :
    concatenate ⟨2, ![n, t]⟩ (1 : Fin 2) [⟨⟨2, ![n, a]⟩, x1⟩, ⟨⟨2, ![n, b]⟩, x2⟩, ⟨⟨2, ![n, c]⟩, x3⟩] h (ix2 r j)
      = if h1 : j.val < a then x1 (ix2 r ⟨j.val, h1⟩)
        else if h2 : j.val < a + b then x2 (ix2 r ⟨j.val - (a), by have := j.isLt; omega⟩)
        else x3 (ix2 r ⟨j.val - (a + b), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 0 (by show 0 < 3; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 1 (by show 1 < 3; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 2 (by show 2 < 3; omega) _ x3 rfl rfl (a + b) rfl (ix2 r ⟨j.val - (a + b), by omega⟩) (fun b hb => ?_) (by show (a + b) + (j.val - (a + b)) = j.val; omega)
      match b with
      | ⟨0, _⟩ => rfl
      | ⟨1, _⟩ => exact absurd rfl hb

/-- Two blocks side by side, read at `(r, j)`. -/
theorem cols2_apply {n a b t : Nat} (x1 : (⟨2, ![n, a]⟩ : Shape).Idx → α) (x2 : (⟨2, ![n, b]⟩ : Shape).Idx → α)
    (h : Shape.Concatenates [(⟨2, ![n, a]⟩ : Shape), ⟨2, ![n, b]⟩] ⟨2, ![n, t]⟩ (1 : Fin 2))
    (ht : t = a + b) (r : Fin n) (j : Fin t) :
    concatenate ⟨2, ![n, t]⟩ (1 : Fin 2) [⟨⟨2, ![n, a]⟩, x1⟩, ⟨⟨2, ![n, b]⟩, x2⟩] h (ix2 r j)
      = if h1 : j.val < a then x1 (ix2 r ⟨j.val, h1⟩)
        else x2 (ix2 r ⟨j.val - (a), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩] h (ix2 r j) 0 (by show 0 < 2; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    refine concatenate_apply_piece (t := ⟨2, ![n, t]⟩) (1 : Fin 2) [⟨⟨2, ![n, a]⟩, x1⟩, ⟨⟨2, ![n, b]⟩, x2⟩] h (ix2 r j) 1 (by show 1 < 2; omega) _ x2 rfl rfl (a) rfl (ix2 r ⟨j.val - (a), by omega⟩) (fun b hb => ?_) (by show (a) + (j.val - (a)) = j.val; omega)
    match b with
    | ⟨0, _⟩ => rfl
    | ⟨1, _⟩ => exact absurd rfl hb

/-- `N` one-column blocks `[n,1]` side by side, given as a list built from a family: entry `(r, k)` is entry `r` of column `k`. -/
theorem unitCols_apply {n N : Nat} (f : Fin N → ((⟨2, ![n, 1]⟩ : Shape).Idx → α))
    (h : Shape.Concatenates ((List.ofFn fun k => (⟨⟨2, ![n, 1]⟩, f k⟩ : (s : Shape) × (s.Idx → α))).map (·.1)) ⟨2, ![n, N]⟩ (1 : Fin 2))
    (r : Fin n) (k : Fin N) :
    concatenate ⟨2, ![n, N]⟩ (1 : Fin 2) (List.ofFn fun k => (⟨⟨2, ![n, 1]⟩, f k⟩ : (s : Shape) × (s.Idx → α))) h (ix2 r k) = f k (ix2 r (0 : Fin 1)) := by
  refine concatenate_ofFn_unit_apply (t := ⟨2, ![n, N]⟩) (s₁ := ⟨2, ![n, 1]⟩) 1 f h rfl rfl (ix2 r k) k rfl
    (ix2 r (0 : Fin 1)) fun b hb => ?_
  match b with
  | ⟨0, _⟩ => rfl
  | ⟨1, _⟩ => exact absurd rfl hb

end Idealize.ShloMosaic.ConcatCols

end
-- ==== Proof.LibHeadSum.lean ====
/-
  The stacked form of a projection head. For a feature array `x` of `n` rows and 64 columns, a stacked weight array
  `W` of 128 rows and 64 columns and a bias vector `b` of 64 entries, the 128-deep product of the row `[x, x·x]`
  (the features followed by their squares) with `W`, plus `b[j]`, is the projection head whose two weight blocks are
  the top and the bottom 64 rows of `W` and whose bias row is `b` recast as one row:
      ∑_{k<128} [x, x·x][r,k]·W[k,j] + b[j]
        = ∑_{k<64} x[r,k]·W[k,j] + ∑_{k<64} (x[r,k]·x[r,k])·W[64+k,j] + b[j].
  Only the splitting of a finite sum at 64 is used: no finiteness of any entry.
-/
import proofs.«139850_j32306744000652_2_alg».proof.Proof.LibConcatCols
import Idealize.ShloMosaic.Lib.Pipeline.Value

noncomputable section

namespace Cert.HeadSum

open scoped BigOperators
open Idealize.ShloMosaic Idealize.ShloMosaic.ValueIdx

/-- The row `[x, x·x]` read at a column of the first block is `x`. -/
theorem stacked_left {n : Nat} (x : (⟨2, ![n, 64]⟩ : Shape).Idx → EReal) (y : (⟨2, ![n, 64]⟩ : Shape).Idx → EReal)
    (hc : Shape.Concatenates [(⟨2, ![n, 64]⟩ : Shape), ⟨2, ![n, 64]⟩] ⟨2, ![n, 128]⟩ (1 : Fin 2)) (r : Fin n) (k : Fin 64) :
    concatenate ⟨2, ![n, 128]⟩ (1 : Fin 2) [⟨⟨2, ![n, 64]⟩, x⟩, ⟨⟨2, ![n, 64]⟩, y⟩] hc (ix2 r (⟨k.val, by have := k.isLt; omega⟩ : Fin 128))
      = x (ix2 r k) := by
  rw [ConcatCols.cols2_apply x y hc rfl r ⟨k.val, by have := k.isLt; omega⟩, dif_pos (show k.val < 64 from k.isLt)]

/-- The row `[x, x·x]` read at a column of the second block is the second piece. -/
theorem stacked_right {n : Nat} (x : (⟨2, ![n, 64]⟩ : Shape).Idx → EReal) (y : (⟨2, ![n, 64]⟩ : Shape).Idx → EReal)
    (hc : Shape.Concatenates [(⟨2, ![n, 64]⟩ : Shape), ⟨2, ![n, 64]⟩] ⟨2, ![n, 128]⟩ (1 : Fin 2)) (r : Fin n) (k : Fin 64) :
    concatenate ⟨2, ![n, 128]⟩ (1 : Fin 2) [⟨⟨2, ![n, 64]⟩, x⟩, ⟨⟨2, ![n, 64]⟩, y⟩] hc (ix2 r (⟨64 + k.val, by have := k.isLt; omega⟩ : Fin 128))
      = y (ix2 r k) := by
  rw [ConcatCols.cols2_apply x y hc rfl r ⟨64 + k.val, by have := k.isLt; omega⟩, dif_neg (show ¬ (64 + k.val < 64) by omega)]
  exact congrArg y (congrArg (ix2 r) (Fin.ext (show 64 + k.val - 64 = k.val by omega)))

/-- The top 64 rows of the stacked weights. -/
theorem top_apply (W : (⟨2, ![128, 64]⟩ : Shape).Idx → EReal)
    (h0 : (⟨2, ![128, 64]⟩ : Shape).Slices ![0, 0] ⟨2, ![64, 64]⟩) (k j : Fin 64) :
    extractStridedSlice ⟨2, ![64, 64]⟩ ![0, 0] W h0 (ix2 k j) = W (ix2 (⟨k.val, by have := k.isLt; omega⟩ : Fin 128) j) :=
  extractStridedSlice_apply ![0, 0] W h0 (ix2 k j) (ix2 (⟨k.val, by have := k.isLt; omega⟩ : Fin 128) j) fun a =>
    match a with
    | ⟨0, _⟩ => by show k.val = 0 + k.val; omega
    | ⟨1, _⟩ => by show j.val = 0 + j.val; omega

/-- The bottom 64 rows of the stacked weights. -/
theorem bottom_apply (W : (⟨2, ![128, 64]⟩ : Shape).Idx → EReal)
    (h1 : (⟨2, ![128, 64]⟩ : Shape).Slices ![64, 0] ⟨2, ![64, 64]⟩) (k j : Fin 64) :
    extractStridedSlice ⟨2, ![64, 64]⟩ ![64, 0] W h1 (ix2 k j) = W (ix2 (⟨64 + k.val, by have := k.isLt; omega⟩ : Fin 128) j) :=
  extractStridedSlice_apply ![64, 0] W h1 (ix2 k j) (ix2 (⟨64 + k.val, by have := k.isLt; omega⟩ : Fin 128) j) fun a =>
    match a with
    | ⟨0, _⟩ => by show 64 + k.val = 64 + k.val; rfl
    | ⟨1, _⟩ => by show j.val = 0 + j.val; omega

/-- The bias vector recast as one row, read at column `j`. -/
theorem biasRow_apply (b : (⟨1, ![64]⟩ : Shape).Idx → EReal)
    (hb : (⟨1, ![64]⟩ : Shape).ShapeCasts ⟨2, ![1, 64]⟩) (j : Fin 64) :
    shapeCast ⟨2, ![1, 64]⟩ b hb (ix2 (0 : Fin 1) j) = b (ix1 j) :=
  shapeCast_apply b hb (ix2 (0 : Fin 1) j) (ix1 j) (by
    rw [Shape.rowMajor_val_one, Shape.rowMajor_val_two]
    show j.val = 0 * 64 + j.val
    omega)

/-- The stacked form of a projection head at `(r, j)`: the 128-deep product of `[x, x·x]` with `W`, plus the bias, is the
    64-deep product of `x` with the top rows of `W`, plus the 64-deep product of `x·x` with the bottom rows, plus the
    bias row's entry. -/
theorem stacked_sum_split {n : Nat} (x : (⟨2, ![n, 64]⟩ : Shape).Idx → EReal) (W : (⟨2, ![128, 64]⟩ : Shape).Idx → EReal)
    (b : (⟨1, ![64]⟩ : Shape).Idx → EReal)
    (hc : Shape.Concatenates [(⟨2, ![n, 64]⟩ : Shape), ⟨2, ![n, 64]⟩] ⟨2, ![n, 128]⟩ (1 : Fin 2))
    (h0 : (⟨2, ![128, 64]⟩ : Shape).Slices ![0, 0] ⟨2, ![64, 64]⟩)
    (h1 : (⟨2, ![128, 64]⟩ : Shape).Slices ![64, 0] ⟨2, ![64, 64]⟩)
    (hb : (⟨1, ![64]⟩ : Shape).ShapeCasts ⟨2, ![1, 64]⟩) (r : Fin n) (j : Fin 64) :
    (∑ k : Fin 128, concatenate ⟨2, ![n, 128]⟩ (1 : Fin 2) [⟨⟨2, ![n, 64]⟩, x⟩, ⟨⟨2, ![n, 64]⟩, fun i => x i * x i⟩] hc (ix2 r k)
        * W (ix2 k j)) + b (ix1 j)
      = ((∑ k : Fin 64, x (ix2 r k) * extractStridedSlice ⟨2, ![64, 64]⟩ ![0, 0] W h0 (ix2 k j))
          + (∑ k : Fin 64, (x (ix2 r k) * x (ix2 r k)) * extractStridedSlice ⟨2, ![64, 64]⟩ ![64, 0] W h1 (ix2 k j)))
        + shapeCast ⟨2, ![1, 64]⟩ b hb (ix2 (0 : Fin 1) j) := by
  rw [biasRow_apply b hb j]
  refine congrArg (· + b (ix1 j)) ?_
  refine (Fin.sum_univ_add (a := 64) (b := 64) (fun k : Fin (64 + 64) =>
    concatenate ⟨2, ![n, 128]⟩ (1 : Fin 2) [⟨⟨2, ![n, 64]⟩, x⟩, ⟨⟨2, ![n, 64]⟩, fun i => x i * x i⟩] hc (ix2 r k) * W (ix2 k j))).trans ?_
  refine congrArg₂ (· + ·) (Finset.sum_congr rfl fun k _ => ?_) (Finset.sum_congr rfl fun k _ => ?_)
  · rw [top_apply W h0 k j]
    exact congrArg (· * W (ix2 (⟨k.val, by have := k.isLt; omega⟩ : Fin 128) j)) (stacked_left x (fun i => x i * x i) hc r k)
  · rw [bottom_apply W h1 k j]
    exact congrArg (· * W (ix2 (⟨64 + k.val, by have := k.isLt; omega⟩ : Fin 128) j)) (stacked_right x (fun i => x i * x i) hc r k)

end Cert.HeadSum

end
-- ==== Proof.RefHead.lean ====
/-
  The reference's seven projection stages are projection heads. Each stage forms the row `[x, x·x]` (the features followed
  by their squares), multiplies it by the stacked 128×64 weights, and adds the bias vector broadcast over the rows. Read
  at `(r, j)` that is  ∑_{k<128} [x, x·x][r,k]·W[k,j] + b[j],  which splits at k = 64 into the head whose weight blocks are
  the top and the bottom 64 rows of `W` and whose bias row is `b` recast as one row. The stages differ only in the number
  of rows (100000, 300000, 150000) and in which weights and bias they read.
-/
import proofs.«139850_j32306744000652_2_alg».proof.Proof.Gen.ReferenceIdeal.Read
import proofs.«139850_j32306744000652_2_alg».proof.Proof.LibHeadSum
import proofs.«139850_j32306744000652_2_alg».proof.Proof.Spec

noncomputable section

namespace Cert.RefValue

open Cert.ReferenceIdeal Cert.ReferenceIdeal.Gen Cert.ReferenceIdeal.Read Idealize.ShloMosaic Idealize.ShloMosaic.ValueIdx

/-- Stage `n2n` (100000 rows), as the generated reading of the reference names it. -/
theorem val_main_v9_eq_head (x : FVec Ideal S100000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v9 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 100000) (j : Fin 64), i = ix2 r j := ⟨i 0, i 1, eq_ix2 i⟩
  rw [Cert.Spec.head_ix2]
  unfold Cert.Spec.headAt
  refine Eq.trans ?_ (Cert.HeadSum.stacked_sum_split x W b concatenates_S100000x64_S100000x64_S100000x128_d1 h0 h1 hb r j)
  rw [val_main_v9_apply, val_main_v6_apply, val_main_v8_apply, val_main_v7_apply]
  have hl : ∀ k : Fin 128, lidx_main_v6 (ix2 r j) k = ix2 r k := fun k => funext fun a =>
    match a with | ⟨0, _⟩ => rfl | ⟨1, _⟩ => rfl
  have hr : ∀ k : Fin 128, ridx_main_v6 (ix2 r j) k = ix2 k j := fun k => funext fun a =>
    match a with | ⟨0, _⟩ => rfl | ⟨1, _⟩ => rfl
  have hj : idx_main_v7 (idx_main_v8 (ix2 r j)) = ix1 j := funext fun a =>
    match a with | ⟨0, _⟩ => rfl
  have hcat : val_main_v1 (F := Ideal) x
      = concatenate ⟨2, ![100000, 128]⟩ (1 : Fin 2) [⟨⟨2, ![100000, 64]⟩, x⟩, ⟨⟨2, ![100000, 64]⟩, fun i => x i * x i⟩]
          concatenates_S100000x64_S100000x64_S100000x128_d1 := rfl
  rw [hj, hcat]
  refine congrArg (· + b (ix1 j)) (Finset.sum_congr rfl fun k _ => ?_)
  rw [hl k, hr k]

/-- Stage `n2n` as the composed term of the operations. -/
theorem head_main_v9 (x : FVec Ideal S100000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S100000x128_S128x64_S100000x64_1_0_0_1_n_n none
        (concatenate S100000x128 1 [⟨S100000x64, x⟩, ⟨S100000x64, mulf x x⟩] concatenates_S100000x64_S100000x64_S100000x128_d1) W)
      (broadcastInDim S100000x64 ![0, 1] bcast_S1x64_S100000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v9_eq_head x W b h0 h1 hb

/-- Stage `n2e` (100000 rows), as the generated reading of the reference names it. -/
theorem val_main_v26_eq_head (x : FVec Ideal S100000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v26 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 100000) (j : Fin 64), i = ix2 r j := ⟨i 0, i 1, eq_ix2 i⟩
  rw [Cert.Spec.head_ix2]
  unfold Cert.Spec.headAt
  refine Eq.trans ?_ (Cert.HeadSum.stacked_sum_split x W b concatenates_S100000x64_S100000x64_S100000x128_d1 h0 h1 hb r j)
  rw [val_main_v26_apply, val_main_v23_apply, val_main_v25_apply, val_main_v24_apply]
  have hl : ∀ k : Fin 128, lidx_main_v23 (ix2 r j) k = ix2 r k := fun k => funext fun a =>
    match a with | ⟨0, _⟩ => rfl | ⟨1, _⟩ => rfl
  have hr : ∀ k : Fin 128, ridx_main_v23 (ix2 r j) k = ix2 k j := fun k => funext fun a =>
    match a with | ⟨0, _⟩ => rfl | ⟨1, _⟩ => rfl
  have hj : idx_main_v24 (idx_main_v25 (ix2 r j)) = ix1 j := funext fun a =>
    match a with | ⟨0, _⟩ => rfl
  have hcat : val_main_v1 (F := Ideal) x
      = concatenate ⟨2, ![100000, 128]⟩ (1 : Fin 2) [⟨⟨2, ![100000, 64]⟩, x⟩, ⟨⟨2, ![100000, 64]⟩, fun i => x i * x i⟩]
          concatenates_S100000x64_S100000x64_S100000x128_d1 := rfl
  rw [hj, hcat]
  refine congrArg (· + b (ix1 j)) (Finset.sum_congr rfl fun k _ => ?_)
  rw [hl k, hr k]

/-- Stage `n2e` as the composed term of the operations. -/
theorem head_main_v26 (x : FVec Ideal S100000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S100000x128_S128x64_S100000x64_1_0_0_1_n_n none
        (concatenate S100000x128 1 [⟨S100000x64, x⟩, ⟨S100000x64, mulf x x⟩] concatenates_S100000x64_S100000x64_S100000x128_d1) W)
      (broadcastInDim S100000x64 ![0, 1] bcast_S1x64_S100000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v26_eq_head x W b h0 h1 hb

/-- Stage `e2n` (300000 rows), as the generated reading of the reference names it. -/
theorem val_main_v43_eq_head (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v43 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 300000) (j : Fin 64), i = ix2 r j := ⟨i 0, i 1, eq_ix2 i⟩
  rw [Cert.Spec.head_ix2]
  unfold Cert.Spec.headAt
  refine Eq.trans ?_ (Cert.HeadSum.stacked_sum_split x W b concatenates_S300000x64_S300000x64_S300000x128_d1 h0 h1 hb r j)
  rw [val_main_v43_apply, val_main_v40_apply, val_main_v42_apply, val_main_v41_apply]
  have hl : ∀ k : Fin 128, lidx_main_v40 (ix2 r j) k = ix2 r k := fun k => funext fun a =>
    match a with | ⟨0, _⟩ => rfl | ⟨1, _⟩ => rfl
  have hr : ∀ k : Fin 128, ridx_main_v40 (ix2 r j) k = ix2 k j := fun k => funext fun a =>
    match a with | ⟨0, _⟩ => rfl | ⟨1, _⟩ => rfl
  have hj : idx_main_v41 (idx_main_v42 (ix2 r j)) = ix1 j := funext fun a =>
    match a with | ⟨0, _⟩ => rfl
  have hcat : val_main_v3 (F := Ideal) x
      = concatenate ⟨2, ![300000, 128]⟩ (1 : Fin 2) [⟨⟨2, ![300000, 64]⟩, x⟩, ⟨⟨2, ![300000, 64]⟩, fun i => x i * x i⟩]
          concatenates_S300000x64_S300000x64_S300000x128_d1 := rfl
  rw [hj, hcat]
  refine congrArg (· + b (ix1 j)) (Finset.sum_congr rfl fun k _ => ?_)
  rw [hl k, hr k]

/-- Stage `e2n` as the composed term of the operations. -/
theorem head_main_v43 (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S300000x128_S128x64_S300000x64_1_0_0_1_n_n none
        (concatenate S300000x128 1 [⟨S300000x64, x⟩, ⟨S300000x64, mulf x x⟩] concatenates_S300000x64_S300000x64_S300000x128_d1) W)
      (broadcastInDim S300000x64 ![0, 1] bcast_S1x64_S300000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v43_eq_head x W b h0 h1 hb

/-- Stage `e2e` (300000 rows), as the generated reading of the reference names it. -/
theorem val_main_v60_eq_head (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v60 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 300000) (j : Fin 64), i = ix2 r j := ⟨i 0, i 1, eq_ix2 i⟩
  rw [Cert.Spec.head_ix2]
  unfold Cert.Spec.headAt
  refine Eq.trans ?_ (Cert.HeadSum.stacked_sum_split x W b concatenates_S300000x64_S300000x64_S300000x128_d1 h0 h1 hb r j)
  rw [val_main_v60_apply, val_main_v57_apply, val_main_v59_apply, val_main_v58_apply]
  have hl : ∀ k : Fin 128, lidx_main_v57 (ix2 r j) k = ix2 r k := fun k => funext fun a =>
    match a with | ⟨0, _⟩ => rfl | ⟨1, _⟩ => rfl
  have hr : ∀ k : Fin 128, ridx_main_v57 (ix2 r j) k = ix2 k j := fun k => funext fun a =>
    match a with | ⟨0, _⟩ => rfl | ⟨1, _⟩ => rfl
  have hj : idx_main_v58 (idx_main_v59 (ix2 r j)) = ix1 j := funext fun a =>
    match a with | ⟨0, _⟩ => rfl
  have hcat : val_main_v3 (F := Ideal) x
      = concatenate ⟨2, ![300000, 128]⟩ (1 : Fin 2) [⟨⟨2, ![300000, 64]⟩, x⟩, ⟨⟨2, ![300000, 64]⟩, fun i => x i * x i⟩]
          concatenates_S300000x64_S300000x64_S300000x128_d1 := rfl
  rw [hj, hcat]
  refine congrArg (· + b (ix1 j)) (Finset.sum_congr rfl fun k _ => ?_)
  rw [hl k, hr k]

/-- Stage `e2e` as the composed term of the operations. -/
theorem head_main_v60 (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S300000x128_S128x64_S300000x64_1_0_0_1_n_n none
        (concatenate S300000x128 1 [⟨S300000x64, x⟩, ⟨S300000x64, mulf x x⟩] concatenates_S300000x64_S300000x64_S300000x128_d1) W)
      (broadcastInDim S300000x64 ![0, 1] bcast_S1x64_S300000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v60_eq_head x W b h0 h1 hb

/-- Stage `e2t` (300000 rows), as the generated reading of the reference names it. -/
theorem val_main_v77_eq_head (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v77 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 300000) (j : Fin 64), i = ix2 r j := ⟨i 0, i 1, eq_ix2 i⟩
  rw [Cert.Spec.head_ix2]
  unfold Cert.Spec.headAt
  refine Eq.trans ?_ (Cert.HeadSum.stacked_sum_split x W b concatenates_S300000x64_S300000x64_S300000x128_d1 h0 h1 hb r j)
  rw [val_main_v77_apply, val_main_v74_apply, val_main_v76_apply, val_main_v75_apply]
  have hl : ∀ k : Fin 128, lidx_main_v74 (ix2 r j) k = ix2 r k := fun k => funext fun a =>
    match a with | ⟨0, _⟩ => rfl | ⟨1, _⟩ => rfl
  have hr : ∀ k : Fin 128, ridx_main_v74 (ix2 r j) k = ix2 k j := fun k => funext fun a =>
    match a with | ⟨0, _⟩ => rfl | ⟨1, _⟩ => rfl
  have hj : idx_main_v75 (idx_main_v76 (ix2 r j)) = ix1 j := funext fun a =>
    match a with | ⟨0, _⟩ => rfl
  have hcat : val_main_v3 (F := Ideal) x
      = concatenate ⟨2, ![300000, 128]⟩ (1 : Fin 2) [⟨⟨2, ![300000, 64]⟩, x⟩, ⟨⟨2, ![300000, 64]⟩, fun i => x i * x i⟩]
          concatenates_S300000x64_S300000x64_S300000x128_d1 := rfl
  rw [hj, hcat]
  refine congrArg (· + b (ix1 j)) (Finset.sum_congr rfl fun k _ => ?_)
  rw [hl k, hr k]

/-- Stage `e2t` as the composed term of the operations. -/
theorem head_main_v77 (x : FVec Ideal S300000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S300000x128_S128x64_S300000x64_1_0_0_1_n_n none
        (concatenate S300000x128 1 [⟨S300000x64, x⟩, ⟨S300000x64, mulf x x⟩] concatenates_S300000x64_S300000x64_S300000x128_d1) W)
      (broadcastInDim S300000x64 ![0, 1] bcast_S1x64_S300000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v77_eq_head x W b h0 h1 hb

/-- Stage `t2t` (150000 rows), as the generated reading of the reference names it. -/
theorem val_main_v94_eq_head (x : FVec Ideal S150000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v94 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 150000) (j : Fin 64), i = ix2 r j := ⟨i 0, i 1, eq_ix2 i⟩
  rw [Cert.Spec.head_ix2]
  unfold Cert.Spec.headAt
  refine Eq.trans ?_ (Cert.HeadSum.stacked_sum_split x W b concatenates_S150000x64_S150000x64_S150000x128_d1 h0 h1 hb r j)
  rw [val_main_v94_apply, val_main_v91_apply, val_main_v93_apply, val_main_v92_apply]
  have hl : ∀ k : Fin 128, lidx_main_v91 (ix2 r j) k = ix2 r k := fun k => funext fun a =>
    match a with | ⟨0, _⟩ => rfl | ⟨1, _⟩ => rfl
  have hr : ∀ k : Fin 128, ridx_main_v91 (ix2 r j) k = ix2 k j := fun k => funext fun a =>
    match a with | ⟨0, _⟩ => rfl | ⟨1, _⟩ => rfl
  have hj : idx_main_v92 (idx_main_v93 (ix2 r j)) = ix1 j := funext fun a =>
    match a with | ⟨0, _⟩ => rfl
  have hcat : val_main_v5 (F := Ideal) x
      = concatenate ⟨2, ![150000, 128]⟩ (1 : Fin 2) [⟨⟨2, ![150000, 64]⟩, x⟩, ⟨⟨2, ![150000, 64]⟩, fun i => x i * x i⟩]
          concatenates_S150000x64_S150000x64_S150000x128_d1 := rfl
  rw [hj, hcat]
  refine congrArg (· + b (ix1 j)) (Finset.sum_congr rfl fun k _ => ?_)
  rw [hl k, hr k]

/-- Stage `t2t` as the composed term of the operations. -/
theorem head_main_v94 (x : FVec Ideal S150000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S150000x128_S128x64_S150000x64_1_0_0_1_n_n none
        (concatenate S150000x128 1 [⟨S150000x64, x⟩, ⟨S150000x64, mulf x x⟩] concatenates_S150000x64_S150000x64_S150000x128_d1) W)
      (broadcastInDim S150000x64 ![0, 1] bcast_S1x64_S150000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v94_eq_head x W b h0 h1 hb

/-- Stage `t2e` (150000 rows), as the generated reading of the reference names it. -/
theorem val_main_v111_eq_head (x : FVec Ideal S150000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    val_main_v111 (F := Ideal) x W b
      = Cert.Spec.head x (extractStridedSlice ⟨2, ![64, 64]⟩ ![0, 0] W h0) (extractStridedSlice ⟨2, ![64, 64]⟩ ![64, 0] W h1)
          (shapeCast S1x64 b hb) := by
  funext i
  obtain ⟨r, j, rfl⟩ : ∃ (r : Fin 150000) (j : Fin 64), i = ix2 r j := ⟨i 0, i 1, eq_ix2 i⟩
  rw [Cert.Spec.head_ix2]
  unfold Cert.Spec.headAt
  refine Eq.trans ?_ (Cert.HeadSum.stacked_sum_split x W b concatenates_S150000x64_S150000x64_S150000x128_d1 h0 h1 hb r j)
  rw [val_main_v111_apply, val_main_v108_apply, val_main_v110_apply, val_main_v109_apply]
  have hl : ∀ k : Fin 128, lidx_main_v108 (ix2 r j) k = ix2 r k := fun k => funext fun a =>
    match a with | ⟨0, _⟩ => rfl | ⟨1, _⟩ => rfl
  have hr : ∀ k : Fin 128, ridx_main_v108 (ix2 r j) k = ix2 k j := fun k => funext fun a =>
    match a with | ⟨0, _⟩ => rfl | ⟨1, _⟩ => rfl
  have hj : idx_main_v109 (idx_main_v110 (ix2 r j)) = ix1 j := funext fun a =>
    match a with | ⟨0, _⟩ => rfl
  have hcat : val_main_v5 (F := Ideal) x
      = concatenate ⟨2, ![150000, 128]⟩ (1 : Fin 2) [⟨⟨2, ![150000, 64]⟩, x⟩, ⟨⟨2, ![150000, 64]⟩, fun i => x i * x i⟩]
          concatenates_S150000x64_S150000x64_S150000x128_d1 := rfl
  rw [hj, hcat]
  refine congrArg (· + b (ix1 j)) (Finset.sum_congr rfl fun k _ => ?_)
  rw [hl k, hr k]

/-- Stage `t2e` as the composed term of the operations. -/
theorem head_main_v111 (x : FVec Ideal S150000x64 .f32) (W : FVec Ideal S128x64 .f32) (b : FVec Ideal S64 .f32)
    (h0 : S128x64.Slices ![0, 0] ⟨2, ![64, 64]⟩) (h1 : S128x64.Slices ![64, 0] ⟨2, ![64, 64]⟩) (hb : S64.ShapeCasts S1x64) :
    addf (Host.dotGeneral (F := Ideal) dot_S150000x128_S128x64_S150000x64_1_0_0_1_n_n none
        (concatenate S150000x128 1 [⟨S150000x64, x⟩, ⟨S150000x64, mulf x x⟩] concatenates_S150000x64_S150000x64_S150000x128_d1) W)
      (broadcastInDim S150000x64 ![0, 1] bcast_S1x64_S150000x64_0_1 (broadcastInDim S1x64 ![1] bcast_S64_S1x64_1 b))
      = Cert.Spec.head x (extractStridedSlice ⟨2, ![64, 64]⟩ ![0, 0] W h0) (extractStridedSlice ⟨2, ![64, 64]⟩ ![64, 0] W h1)
          (shapeCast S1x64 b hb) :=
  val_main_v111_eq_head x W b h0 h1 hb

end Cert.RefValue

end
-- ==== Proof.Values.lean ====
/-
  The three results of the kernel program as functions of the argument arrays, at the exact instance.

  Each region's output arrays are the projection heads of the region's operands (the blocks-to-array lemmas), the
  operands are slices and reshapes of the arguments (the host stretches before the regions), and the host stretch
  after the regions is one scatter-add per result over the concatenated parts. So a result is the tail function of
  the heads of the arguments. The reference's result is the same tail function of the same heads: its own heads
  are the same sums re-bracketed, and its per-part scatter-adds added together are the one scatter-add over the
  concatenation.
-/
import proofs.«139850_j32306744000652_2_alg».proof.Proof.KI.RunValues
import proofs.«139850_j32306744000652_2_alg».proof.Proof.KI.RegionValue0
import proofs.«139850_j32306744000652_2_alg».proof.Proof.KI.RegionValue1
import proofs.«139850_j32306744000652_2_alg».proof.Proof.KI.RegionValue2
import proofs.«139850_j32306744000652_2_alg».proof.Proof.TailRead
import proofs.«139850_j32306744000652_2_alg».proof.Proof.TailEntry
import proofs.«139850_j32306744000652_2_alg».proof.Proof.Bridge
import proofs.«139850_j32306744000652_2_alg».proof.Proof.RefHead

noncomputable section

namespace Cert.KernelIdeal.Frame

open Cert.KernelIdeal Cert.KernelIdeal.Gen Cert.KernelIdeal.Facts₀
open Idealize.ShloMosaic Idealize.ShloMosaic.TcCoe

/-- A projection head from a feature array, a stacked 128×64 weight and a bias vector: the weight's two 64-row
    halves and the bias as a row. -/
abbrev hd {n : Nat} (x : (⟨2, ![n, 64]⟩ : Shape).Idx → EReal) (W : FVec Ideal S128x64 .f32) (b : FVec Ideal S64 .f32) :
    (⟨2, ![n, 64]⟩ : Shape).Idx → EReal :=
  Cert.Spec.head x (extractStridedSlice S64x64 ![0, 0] W Cert.KernelIdeal.Facts₀.slices_S128x64_S64x64_0_0)
    (extractStridedSlice S64x64 ![64, 0] W Cert.KernelIdeal.Facts₀.slices_S128x64_S64x64_64_0) (shapeCast S1x64 b Cert.KernelIdeal.Facts₀.shapeCasts_S64_S1x64)

variable (m : (ℓ : Loc nD τ sig) → Buf (Elt Ideal) ℓ) (c : Dev nD)

/-! ## The regions' outputs are heads of the arguments -/

theorem out_v16_0 : outs m 2 main_v16_0 c = hd (m ((c : Thread nD τ).loc main_arg0)) (m ((c : Thread nD τ).loc main_arg24)) (m ((c : Thread nD τ).loc main_arg25)) := by
  rw [outs_two]
  refine (leave0_arr m c 7).trans ?_
  rw [arr0_7]
  show Cert.Spec.head (Gen.V1 m c main_arg0) (Gen.V1 m c main_v0) (Gen.V1 m c main_v1) (Gen.V1 m c main_v14) = _
  rw [Tail.V1_main_arg0, Tail.V1_main_v0, Tail.V1_main_v1, Tail.V1_main_v14]

theorem out_v16_1 : outs m 2 main_v16_1 c = hd (m ((c : Thread nD τ).loc main_arg0)) (m ((c : Thread nD τ).loc main_arg26)) (m ((c : Thread nD τ).loc main_arg27)) := by
  rw [outs_two]
  refine (leave0_arr m c 8).trans ?_
  rw [arr0_8]
  show Cert.Spec.head (Gen.V1 m c main_arg0) (Gen.V1 m c main_v2) (Gen.V1 m c main_v3) (Gen.V1 m c main_v15) = _
  rw [Tail.V1_main_arg0, Tail.V1_main_v2, Tail.V1_main_v3, Tail.V1_main_v15]

theorem out_v20_0 : outs m 4 main_v20_0 c = hd (m ((c : Thread nD τ).loc main_arg1)) (m ((c : Thread nD τ).loc main_arg30)) (m ((c : Thread nD τ).loc main_arg31)) := by
  rw [outs_four]
  refine (leave1_arr m c 10).trans ?_
  rw [arr1_10]
  show Cert.Spec.head (Gen.V3 m (outs0 m) c main_arg1) (Gen.V3 m (outs0 m) c main_v4) (Gen.V3 m (outs0 m) c main_v5) (Gen.V3 m (outs0 m) c main_v17) = _
  rw [Tail.V3_main_arg1, Tail.V3_main_v4, Tail.V3_main_v5, Tail.V3_main_v17]

theorem out_v20_1 : outs m 4 main_v20_1 c = hd (m ((c : Thread nD τ).loc main_arg1)) (m ((c : Thread nD τ).loc main_arg28)) (m ((c : Thread nD τ).loc main_arg29)) := by
  rw [outs_four]
  refine (leave1_arr m c 11).trans ?_
  rw [arr1_11]
  show Cert.Spec.head (Gen.V3 m (outs0 m) c main_arg1) (Gen.V3 m (outs0 m) c main_v6) (Gen.V3 m (outs0 m) c main_v7) (Gen.V3 m (outs0 m) c main_v18) = _
  rw [Tail.V3_main_arg1, Tail.V3_main_v6, Tail.V3_main_v7, Tail.V3_main_v18]

theorem out_v20_2 : outs m 4 main_v20_2 c = hd (m ((c : Thread nD τ).loc main_arg1)) (m ((c : Thread nD τ).loc main_arg32)) (m ((c : Thread nD τ).loc main_arg33)) := by
  rw [outs_four]
  refine (leave1_arr m c 12).trans ?_
  rw [arr1_12]
  show Cert.Spec.head (Gen.V3 m (outs0 m) c main_arg1) (Gen.V3 m (outs0 m) c main_v8) (Gen.V3 m (outs0 m) c main_v9) (Gen.V3 m (outs0 m) c main_v19) = _
  rw [Tail.V3_main_arg1, Tail.V3_main_v8, Tail.V3_main_v9, Tail.V3_main_v19]

theorem out_v23_0 : outs m 6 main_v23_0 c = hd (m ((c : Thread nD τ).loc main_arg2)) (m ((c : Thread nD τ).loc main_arg36)) (m ((c : Thread nD τ).loc main_arg37)) := by
  rw [outs_six]
  refine (leave2_arr m c 7).trans ?_
  rw [arr2_7]
  show Cert.Spec.head (Gen.V5 m (outs1 m) c main_arg2) (Gen.V5 m (outs1 m) c main_v10) (Gen.V5 m (outs1 m) c main_v11) (Gen.V5 m (outs1 m) c main_v21) = _
  rw [Tail.V5_main_arg2, Tail.V5_main_v10, Tail.V5_main_v11, Tail.V5_main_v21]

theorem out_v23_1 : outs m 6 main_v23_1 c = hd (m ((c : Thread nD τ).loc main_arg2)) (m ((c : Thread nD τ).loc main_arg34)) (m ((c : Thread nD τ).loc main_arg35)) := by
  rw [outs_six]
  refine (leave2_arr m c 8).trans ?_
  rw [arr2_8]
  show Cert.Spec.head (Gen.V5 m (outs1 m) c main_arg2) (Gen.V5 m (outs1 m) c main_v12) (Gen.V5 m (outs1 m) c main_v13) (Gen.V5 m (outs1 m) c main_v22) = _
  rw [Tail.V5_main_arg2, Tail.V5_main_v12, Tail.V5_main_v13, Tail.V5_main_v22]

/-! ## The three results -/

theorem kernel_v53 : Gen.V13 m (outs m) c main_v53
    = Tail.Y0 (hd (m ((c : Thread nD τ).loc main_arg0)) (m ((c : Thread nD τ).loc main_arg24)) (m ((c : Thread nD τ).loc main_arg25))) (hd (m ((c : Thread nD τ).loc main_arg1)) (m ((c : Thread nD τ).loc main_arg30)) (m ((c : Thread nD τ).loc main_arg31))) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) := by
  rw [Tail.V13_main_v53, out_v16_0, out_v20_0]

theorem kernel_v94 : Gen.V13 m (outs m) c main_v94
    = Tail.Y1 (hd (m ((c : Thread nD τ).loc main_arg1)) (m ((c : Thread nD τ).loc main_arg28)) (m ((c : Thread nD τ).loc main_arg29))) (hd (m ((c : Thread nD τ).loc main_arg0)) (m ((c : Thread nD τ).loc main_arg26)) (m ((c : Thread nD τ).loc main_arg27))) (hd (m ((c : Thread nD τ).loc main_arg2)) (m ((c : Thread nD τ).loc main_arg34)) (m ((c : Thread nD τ).loc main_arg35))) (m ((c : Thread nD τ).loc main_arg6)) (m ((c : Thread nD τ).loc main_arg7)) (m ((c : Thread nD τ).loc main_arg8)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) := by
  rw [Tail.V13_main_v94, out_v20_1, out_v16_1, out_v23_1]

theorem kernel_v124 : Gen.V13 m (outs m) c main_v124
    = Tail.Y2 (hd (m ((c : Thread nD τ).loc main_arg2)) (m ((c : Thread nD τ).loc main_arg36)) (m ((c : Thread nD τ).loc main_arg37))) (hd (m ((c : Thread nD τ).loc main_arg1)) (m ((c : Thread nD τ).loc main_arg32)) (m ((c : Thread nD τ).loc main_arg33))) (m ((c : Thread nD τ).loc main_arg9)) (m ((c : Thread nD τ).loc main_arg10)) (m ((c : Thread nD τ).loc main_arg11)) (m ((c : Thread nD τ).loc main_arg18)) (m ((c : Thread nD τ).loc main_arg19)) (m ((c : Thread nD τ).loc main_arg20)) := by
  rw [Tail.V13_main_v124, out_v23_0, out_v20_2]

end Cert.KernelIdeal.Frame

namespace Cert.RefValue

open Cert.KernelIdeal.Facts₀ Idealize.ShloMosaic
open Cert.KernelIdeal.Frame (hd)

/-! ## The reference's results are the same functions of the same arrays -/

theorem ref_v128 (x0 : FVec Ideal Cert.KernelIdeal.S100000x64 .f32) (x1 : FVec Ideal Cert.KernelIdeal.S300000x64 .f32)
    (x3 x4 : IVec Cert.KernelIdeal.S1000000 32) (x5 : FVec Ideal Cert.KernelIdeal.S1000000 .f32)
    (x12 x13 : IVec Cert.KernelIdeal.S600000 32) (x14 : FVec Ideal Cert.KernelIdeal.S600000 .f32)
    (x24 : FVec Ideal Cert.KernelIdeal.S128x64 .f32) (x25 : FVec Ideal Cert.KernelIdeal.S64 .f32)
    (x30 : FVec Ideal Cert.KernelIdeal.S128x64 .f32) (x31 : FVec Ideal Cert.KernelIdeal.S64 .f32) :
    Cert.ReferenceIdeal.Read.val_main_v128 (F := Ideal) x0 x1 x3 x4 x5 x12 x13 x14 x24 x25 x30 x31
      = Cert.KernelIdeal.Tail.Y0 (hd x0 x24 x25) (hd x1 x30 x31) x3 x4 x5 x12 x13 x14 := by
  rw [Cert.ReferenceIdeal.Tail.val_main_v128_eq,
    val_main_v9_eq_head x0 x24 x25 Cert.KernelIdeal.Facts₀.slices_S128x64_S64x64_0_0 Cert.KernelIdeal.Facts₀.slices_S128x64_S64x64_64_0 Cert.KernelIdeal.Facts₀.shapeCasts_S64_S1x64,
    val_main_v43_eq_head x1 x30 x31 Cert.KernelIdeal.Facts₀.slices_S128x64_S64x64_0_0 Cert.KernelIdeal.Facts₀.slices_S128x64_S64x64_64_0 Cert.KernelIdeal.Facts₀.shapeCasts_S64_S1x64]
  exact Cert.ReferenceIdeal.Tail.Y0_eq _ _ _ _ _ _ _ _

theorem ref_v133 (x0 : FVec Ideal Cert.KernelIdeal.S100000x64 .f32) (x1 : FVec Ideal Cert.KernelIdeal.S300000x64 .f32)
    (x2 : FVec Ideal Cert.KernelIdeal.S150000x64 .f32)
    (x6 x7 : IVec Cert.KernelIdeal.S2400000 32) (x8 : FVec Ideal Cert.KernelIdeal.S2400000 .f32)
    (x15 x16 : IVec Cert.KernelIdeal.S600000 32) (x17 : FVec Ideal Cert.KernelIdeal.S600000 .f32)
    (x21 x22 : IVec Cert.KernelIdeal.S450000 32) (x23 : FVec Ideal Cert.KernelIdeal.S450000 .f32)
    (x26 : FVec Ideal Cert.KernelIdeal.S128x64 .f32) (x27 : FVec Ideal Cert.KernelIdeal.S64 .f32)
    (x28 : FVec Ideal Cert.KernelIdeal.S128x64 .f32) (x29 : FVec Ideal Cert.KernelIdeal.S64 .f32)
    (x34 : FVec Ideal Cert.KernelIdeal.S128x64 .f32) (x35 : FVec Ideal Cert.KernelIdeal.S64 .f32) :
    Cert.ReferenceIdeal.Read.val_main_v133 (F := Ideal) x0 x1 x2 x6 x7 x8 x15 x16 x17 x21 x22 x23 x26 x27 x28 x29 x34 x35
      = Cert.KernelIdeal.Tail.Y1 (hd x1 x28 x29) (hd x0 x26 x27) (hd x2 x34 x35) x6 x7 x8 x15 x16 x17 x21 x22 x23 := by
  rw [Cert.ReferenceIdeal.Tail.val_main_v133_eq,
    val_main_v60_eq_head x1 x28 x29 Cert.KernelIdeal.Facts₀.slices_S128x64_S64x64_0_0 Cert.KernelIdeal.Facts₀.slices_S128x64_S64x64_64_0 Cert.KernelIdeal.Facts₀.shapeCasts_S64_S1x64,
    val_main_v26_eq_head x0 x26 x27 Cert.KernelIdeal.Facts₀.slices_S128x64_S64x64_0_0 Cert.KernelIdeal.Facts₀.slices_S128x64_S64x64_64_0 Cert.KernelIdeal.Facts₀.shapeCasts_S64_S1x64,
    val_main_v111_eq_head x2 x34 x35 Cert.KernelIdeal.Facts₀.slices_S128x64_S64x64_0_0 Cert.KernelIdeal.Facts₀.slices_S128x64_S64x64_64_0 Cert.KernelIdeal.Facts₀.shapeCasts_S64_S1x64]
  exact Cert.ReferenceIdeal.Tail.Y1_eq _ _ _ _ _ _ _ _ _ _ _ _

theorem ref_v137 (x1 : FVec Ideal Cert.KernelIdeal.S300000x64 .f32) (x2 : FVec Ideal Cert.KernelIdeal.S150000x64 .f32)
    (x9 x10 : IVec Cert.KernelIdeal.S1200000 32) (x11 : FVec Ideal Cert.KernelIdeal.S1200000 .f32)
    (x18 x19 : IVec Cert.KernelIdeal.S450000 32) (x20 : FVec Ideal Cert.KernelIdeal.S450000 .f32)
    (x32 : FVec Ideal Cert.KernelIdeal.S128x64 .f32) (x33 : FVec Ideal Cert.KernelIdeal.S64 .f32)
    (x36 : FVec Ideal Cert.KernelIdeal.S128x64 .f32) (x37 : FVec Ideal Cert.KernelIdeal.S64 .f32) :
    Cert.ReferenceIdeal.Read.val_main_v137 (F := Ideal) x1 x2 x9 x10 x11 x18 x19 x20 x32 x33 x36 x37
      = Cert.KernelIdeal.Tail.Y2 (hd x2 x36 x37) (hd x1 x32 x33) x9 x10 x11 x18 x19 x20 := by
  rw [Cert.ReferenceIdeal.Tail.val_main_v137_eq,
    val_main_v94_eq_head x2 x36 x37 Cert.KernelIdeal.Facts₀.slices_S128x64_S64x64_0_0 Cert.KernelIdeal.Facts₀.slices_S128x64_S64x64_64_0 Cert.KernelIdeal.Facts₀.shapeCasts_S64_S1x64,
    val_main_v77_eq_head x1 x32 x33 Cert.KernelIdeal.Facts₀.slices_S128x64_S64x64_0_0 Cert.KernelIdeal.Facts₀.slices_S128x64_S64x64_64_0 Cert.KernelIdeal.Facts₀.shapeCasts_S64_S1x64]
  exact Cert.ReferenceIdeal.Tail.Y2_eq _ _ _ _ _ _ _ _

end Cert.RefValue

end
-- ==== Proof.lean ====
/-
  The certificate. Both programs compute, for three feature arrays, seven projection heads
      head(x, W, b)[r, j] = ∑ₖ x[r,k]·W[k,j] + ∑ₖ x[r,k]²·W[64+k,j] + b[j]
  and then, per result, scatter-add rows of the heads, gathered by column index and scaled by the sparse values,
  into the result's rows, clamp below at zero and scale.

  The kernel program computes the heads in three dense regions of 5000-row blocks (two 64-deep products added per
  head) and does ONE scatter-add per result over its concatenated parts; the reference computes each head as one
  128-deep product of the row [x, x²] with the stacked weight and does one scatter-add per part, adding the
  results. On the extended reals the two are the same function of the arguments: the 128-deep sum is the two
  64-deep sums (a sum over an index split in two), and a scatter-add over a concatenation is the sum of the
  parts' scatter-adds (the same, row by row); only associativity and commutativity of + are used, so no finiteness
  of the inputs is needed.

  Frames: each program runs its three regions between stretches of host operations; no stretch and no region
  writes an argument. The idealization rewrote nothing, so `preserves` is trivial.
-/
import proofs.«139850_j32306744000652_2_alg».proof.Defs
import proofs.«139850_j32306744000652_2_alg».proof.Proof.Gen.Kernel
import proofs.«139850_j32306744000652_2_alg».proof.Proof.Gen.Kernel.Skeleton
import proofs.«139850_j32306744000652_2_alg».proof.Proof.Gen.Kernel.Launch
import proofs.«139850_j32306744000652_2_alg».proof.Proof.Gen.Kernel.Regions
import proofs.«139850_j32306744000652_2_alg».proof.Proof.Gen.Kernel.Points
import proofs.«139850_j32306744000652_2_alg».proof.Proof.Gen.KernelIdeal
import proofs.«139850_j32306744000652_2_alg».proof.Proof.Gen.KernelIdeal.Skeleton
import proofs.«139850_j32306744000652_2_alg».proof.Proof.Gen.KernelIdeal.Launch
import proofs.«139850_j32306744000652_2_alg».proof.Proof.Gen.KernelIdeal.Regions
import proofs.«139850_j32306744000652_2_alg».proof.Proof.Gen.KernelIdeal.Points
import proofs.«139850_j32306744000652_2_alg».proof.Proof.Gen.ReferenceIdeal
import proofs.«139850_j32306744000652_2_alg».proof.Proof.Gen.Pre_finite_inputs
import proofs.«139850_j32306744000652_2_alg».proof.Proof.Gen.ReferenceIdeal.Run
import proofs.«139850_j32306744000652_2_alg».proof.Proof.Gen.ReferenceIdeal.Read
import proofs.«139850_j32306744000652_2_alg».proof.Proof.K.Run
import proofs.«139850_j32306744000652_2_alg».proof.Proof.Values
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference is a host program: its generated run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

section Algebraic

open Cert.KernelIdeal Cert.KernelIdeal.Gen Cert.KernelIdeal.Frame

set_option maxHeartbeats 1000000 in
/-- Both programs end with the three results at the same functions of the (agreeing) arguments. -/
theorem algebraic : Cert.algebraic_KernelIdeal_ReferenceIdeal := by
  intro m ρ m' ρ' _ hagree
  refine ⟨fun c => Gen.V13 m (outs m) c main_v53, fun c => Gen.V13 m (outs m) c main_v94,
    fun c => Gen.V13 m (outs m) c main_v124, ?_, ?_⟩
  · refine (θ_run Cert.KernelIdeal.defs _ _).mono (fun r h c => ?_) (Cert.KernelIdeal.Frame.run_values m ρ)
    exact ⟨h c _ (mem_uc main_v53 (by decide)), h c _ (mem_uc main_v94 (by decide)), h c _ (mem_uc main_v124 (by decide)),
      (h c _ (mem_uc main_arg0 (by decide))).trans (Gen.V13_main_arg0 m (outs m) c),
      (h c _ (mem_uc main_arg1 (by decide))).trans (Gen.V13_main_arg1 m (outs m) c),
      (h c _ (mem_uc main_arg2 (by decide))).trans (Gen.V13_main_arg2 m (outs m) c),
      (h c _ (mem_uc main_arg3 (by decide))).trans (Gen.V13_main_arg3 m (outs m) c),
      (h c _ (mem_uc main_arg4 (by decide))).trans (Gen.V13_main_arg4 m (outs m) c),
      (h c _ (mem_uc main_arg5 (by decide))).trans (Gen.V13_main_arg5 m (outs m) c),
      (h c _ (mem_uc main_arg6 (by decide))).trans (Gen.V13_main_arg6 m (outs m) c),
      (h c _ (mem_uc main_arg7 (by decide))).trans (Gen.V13_main_arg7 m (outs m) c),
      (h c _ (mem_uc main_arg8 (by decide))).trans (Gen.V13_main_arg8 m (outs m) c),
      (h c _ (mem_uc main_arg9 (by decide))).trans (Gen.V13_main_arg9 m (outs m) c),
      (h c _ (mem_uc main_arg10 (by decide))).trans (Gen.V13_main_arg10 m (outs m) c),
      (h c _ (mem_uc main_arg11 (by decide))).trans (Gen.V13_main_arg11 m (outs m) c),
      (h c _ (mem_uc main_arg12 (by decide))).trans (Gen.V13_main_arg12 m (outs m) c),
      (h c _ (mem_uc main_arg13 (by decide))).trans (Gen.V13_main_arg13 m (outs m) c),
      (h c _ (mem_uc main_arg14 (by decide))).trans (Gen.V13_main_arg14 m (outs m) c),
      (h c _ (mem_uc main_arg15 (by decide))).trans (Gen.V13_main_arg15 m (outs m) c),
      (h c _ (mem_uc main_arg16 (by decide))).trans (Gen.V13_main_arg16 m (outs m) c),
      (h c _ (mem_uc main_arg17 (by decide))).trans (Gen.V13_main_arg17 m (outs m) c),
      (h c _ (mem_uc main_arg18 (by decide))).trans (Gen.V13_main_arg18 m (outs m) c),
      (h c _ (mem_uc main_arg19 (by decide))).trans (Gen.V13_main_arg19 m (outs m) c),
      (h c _ (mem_uc main_arg20 (by decide))).trans (Gen.V13_main_arg20 m (outs m) c),
      (h c _ (mem_uc main_arg21 (by decide))).trans (Gen.V13_main_arg21 m (outs m) c),
      (h c _ (mem_uc main_arg22 (by decide))).trans (Gen.V13_main_arg22 m (outs m) c),
      (h c _ (mem_uc main_arg23 (by decide))).trans (Gen.V13_main_arg23 m (outs m) c),
      (h c _ (mem_uc main_arg24 (by decide))).trans (Gen.V13_main_arg24 m (outs m) c),
      (h c _ (mem_uc main_arg25 (by decide))).trans (Gen.V13_main_arg25 m (outs m) c),
      (h c _ (mem_uc main_arg26 (by decide))).trans (Gen.V13_main_arg26 m (outs m) c),
      (h c _ (mem_uc main_arg27 (by decide))).trans (Gen.V13_main_arg27 m (outs m) c),
      (h c _ (mem_uc main_arg28 (by decide))).trans (Gen.V13_main_arg28 m (outs m) c),
      (h c _ (mem_uc main_arg29 (by decide))).trans (Gen.V13_main_arg29 m (outs m) c),
      (h c _ (mem_uc main_arg30 (by decide))).trans (Gen.V13_main_arg30 m (outs m) c),
      (h c _ (mem_uc main_arg31 (by decide))).trans (Gen.V13_main_arg31 m (outs m) c),
      (h c _ (mem_uc main_arg32 (by decide))).trans (Gen.V13_main_arg32 m (outs m) c),
      (h c _ (mem_uc main_arg33 (by decide))).trans (Gen.V13_main_arg33 m (outs m) c),
      (h c _ (mem_uc main_arg34 (by decide))).trans (Gen.V13_main_arg34 m (outs m) c),
      (h c _ (mem_uc main_arg35 (by decide))).trans (Gen.V13_main_arg35 m (outs m) c),
      (h c _ (mem_uc main_arg36 (by decide))).trans (Gen.V13_main_arg36 m (outs m) c),
      (h c _ (mem_uc main_arg37 (by decide))).trans (Gen.V13_main_arg37 m (outs m) c)⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37⟩ := hagree c
    refine ⟨h0.trans ?_, h1.trans ?_, h2.trans ?_, hargs⟩
    · refine Eq.trans ?_ (kernel_v53 m c).symm
      refine (Cert.ReferenceIdeal.Read.val_main_v128_eq _ _ _ _ _ _ _ _ _ _ _ _).trans ?_
      refine (Cert.RefValue.ref_v128 _ _ _ _ _ _ _ _ _ _ _ _).trans ?_
      rw [e0, e1, e3, e4, e5, e12, e13, e14, e24, e25, e30, e31]
    · refine Eq.trans ?_ (kernel_v94 m c).symm
      refine (Cert.ReferenceIdeal.Read.val_main_v133_eq m' c).trans ?_
      refine (Cert.RefValue.ref_v133 _ _ _ _ _ _ _ _ _ _ _ _ _ _ _ _ _ _).trans ?_
      rw [e0, e1, e2, e6, e7, e8, e15, e16, e17, e21, e22, e23, e26, e27, e28, e29, e34, e35]
    · refine Eq.trans ?_ (kernel_v124 m c).symm
      refine (Cert.ReferenceIdeal.Read.val_main_v137_eq _ _ _ _ _ _ _ _ _ _ _ _).trans ?_
      refine (Cert.RefValue.ref_v137 _ _ _ _ _ _ _ _ _ _ _ _).trans ?_
      rw [e1, e2, e9, e10, e11, e18, e19, e20, e32, e33, e36, e37]

end Algebraic

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
